-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x50000x32 : Shape := ⟨4, ![2, 4, 50000, 32]⟩
abbrev S2x800000 : Shape := ⟨2, ![2, 800000]⟩
abbrev S800000 : Shape := ⟨1, ![800000]⟩
abbrev S3x32x32 : Shape := ⟨3, ![3, 32, 32]⟩
abbrev S32 : Shape := ⟨1, ![32]⟩
abbrev S_ : Shape := ⟨0, ![]⟩

class Facts : Prop where
  bcast_S_S2x4x50000x32 : S_.BroadcastsInDim S2x4x50000x32 (![] : Fin 0 → Fin S2x4x50000x32.rank)
  reducesTo_S2x4x50000x32_S_d0_1_2_3 : S2x4x50000x32.ReducesTo [0, 1, 2, 3] S_
  h_S_ : 0 < S_.numel
  bcast_S_S800000 : S_.BroadcastsInDim S800000 (![] : Fin 0 → Fin S800000.rank)
  reducesTo_S800000_S_d0 : S800000.ReducesTo [0] S_
  bcast_S_S3x32x32 : S_.BroadcastsInDim S3x32x32 (![] : Fin 0 → Fin S3x32x32.rank)
  reducesTo_S3x32x32_S_d0_1_2 : S3x32x32.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_arg6 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S2x4x50000x32 .f32) (main_arg1 : IVec S2x800000 32) (main_arg2 : FVec F S800000 .f32) (main_arg3 : FVec F S3x32x32 .f32) (main_arg4 : FVec F S32 .f32) (main_arg5 : FVec F S32 .f32) (main_arg6 : FVec F S32 .f32) : IVec S_ 1 :=
  let main_v0 : FVec F S2x4x50000x32 .f32 := Host.absf main_arg0
  let main_cst : FVec F S_ .f32 := constant S_ .f32 0x7F800000#32
  let main_v1 : FVec F S2x4x50000x32 .f32 := broadcastInDim S2x4x50000x32 ![] bcast_S_S2x4x50000x32 main_cst
  let main_v2 : IVec S2x4x50000x32 1 := cmpf .olt main_v0 main_v1
  let main_c : IVec S_ 1 := constantI S_ 1 1#1
  let main_v3 : IVec S_ 1 := (fun x v => Host.reduce IntOp.andi x v reducesTo_S2x4x50000x32_S_d0_1_2_3 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x32x32 .f32 := Host.absf main_arg3
  let main_cst_2 : FVec F S_ .f32 := constant S_ .f32 0x7F800000#32
  let main_v10 : FVec F S3x32x32 .f32 := broadcastInDim S3x32x32 ![] bcast_S_S3x32x32 main_cst_2
  let main_v11 : IVec S3x32x32 1 := cmpf .olt main_v9 main_v10
  let main_c_3 : IVec S_ 1 := constantI S_ 1 1#1
  let main_v12 : IVec S_ 1 := (fun x v => Host.reduce IntOp.andi x v reducesTo_S3x32x32_S_d0_1_2 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S2x4x50000x32 : Shape := ⟨4, ![2, 4, 50000, 32]⟩
abbrev S2x800000 : Shape := ⟨2, ![2, 800000]⟩
abbrev S800000 : Shape := ⟨1, ![800000]⟩
abbrev S3x32x32 : Shape := ⟨3, ![3, 32, 32]⟩
abbrev S32 : Shape := ⟨1, ![32]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x2x4x32 : Shape := ⟨4, ![50000, 2, 4, 32]⟩
abbrev S50000x8x32 : Shape := ⟨3, ![50000, 8, 32]⟩
abbrev S800000x1x1 : Shape := ⟨3, ![800000, 1, 1]⟩
abbrev S800000x8x32 : Shape := ⟨3, ![800000, 8, 32]⟩
abbrev S1x8x32 : Shape := ⟨3, ![1, 8, 32]⟩
abbrev S625x8x32 : Shape := ⟨3, ![625, 8, 32]⟩
abbrev S5000x32 : Shape := ⟨2, ![5000, 32]⟩
abbrev S1x32x32 : Shape := ⟨3, ![1, 32, 32]⟩
abbrev S32x32 : Shape := ⟨2, ![32, 32]⟩
abbrev S1x1x32 : Shape := ⟨3, ![1, 1, 32]⟩
abbrev S8x32 : Shape := ⟨2, ![8, 32]⟩

abbrev nBuf : Space → Nat
  | .hbm => 98
  | .vmem => 22
  | .smem => 0
  | _ => 0

abbrev bufTy : (tb : Table) → Fin (tcTables nBuf tb) → BufTy
  | .hbm, ⟨0, _⟩ => ⟨S2x4x50000x32, .f32⟩
  | .hbm, ⟨1, _⟩ => ⟨S2x800000, .i32⟩
  | .hbm, ⟨2, _⟩ => ⟨S800000, .f32⟩
  | .hbm, ⟨3, _⟩ => ⟨S3x32x32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S800000, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000, .f32⟩
  | .hbm, ⟨53, _⟩ => ⟨S800000, .f32⟩
  | .hbm, ⟨54, _⟩ => ⟨S50000x2x4x32, .f32⟩
  | .hbm, ⟨55, _⟩ => ⟨S50000x8x32, .f32⟩
  | .hbm, ⟨56, _⟩ => ⟨S800000x1x1, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x8x32, .f32⟩
  | .hbm, ⟨66, _⟩ => ⟨S800000x8x32, .f32⟩
  | .hbm, ⟨67, _⟩ => ⟨S800000x8x32, .f32⟩
  | .hbm, ⟨68, _⟩ => ⟨S_, .f32⟩
  | .hbm, ⟨69, _⟩ => ⟨S50000x8x32, .f32⟩
  | .hbm, ⟨70, _⟩ => ⟨S800000x1, .i32⟩
  | .hbm, ⟨71, _⟩ => ⟨S50000x8x32, .f32⟩
  | .hbm, ⟨72, _⟩ => ⟨S800000x1x1, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x8x32, .f32⟩
  | .hbm, ⟨82, _⟩ => ⟨S800000x8x32, .f32⟩
  | .hbm, ⟨83, _⟩ => ⟨S800000x8x32, .f32⟩
  | .hbm, ⟨84, _⟩ => ⟨S_, .f32⟩
  | .hbm, ⟨85, _⟩ => ⟨S50000x8x32, .f32⟩
  | .hbm, ⟨86, _⟩ => ⟨S800000x1, .i32⟩
  | .hbm, ⟨87, _⟩ => ⟨S50000x8x32, .f32⟩
  | .hbm, ⟨88, _⟩ => ⟨S_, .f32⟩
  | .hbm, ⟨89, _⟩ => ⟨S50000x8x32, .f32⟩
  | .hbm, ⟨90, _⟩ => ⟨S50000x8x32, .f32⟩
  | .hbm, ⟨91, _⟩ => ⟨S50000x8x32, .f32⟩
  | .hbm, ⟨92, _⟩ => ⟨S50000x8x32, .f32⟩
  | .hbm, ⟨93, _⟩ => ⟨S1x8x32, .f32⟩
  | .hbm, ⟨94, _⟩ => ⟨S1x8x32, .f32⟩
  | .hbm, ⟨95, _⟩ => ⟨S50000x8x32, .f32⟩
  | .hbm, ⟨96, _⟩ => ⟨S50000x2x4x32, .f32⟩
  | .hbm, ⟨97, _⟩ => ⟨S2x4x50000x32, .f32⟩
  | .local _ .vmem, ⟨0, _⟩ => ⟨S625x8x32, .f32⟩
  | .local _ .vmem, ⟨1, _⟩ => ⟨S625x8x32, .f32⟩
  | .local _ .vmem, ⟨2, _⟩ => ⟨S625x8x32, .f32⟩
  | .local _ .vmem, ⟨3, _⟩ => ⟨S625x8x32, .f32⟩
  | .local _ .vmem, ⟨4, _⟩ => ⟨S625x8x32, .f32⟩
  | .local _ .vmem, ⟨5, _⟩ => ⟨S625x8x32, .f32⟩
  | .local _ .vmem, ⟨6, _⟩ => ⟨S3x32x32, .f32⟩
  | .local _ .vmem, ⟨7, _⟩ => ⟨S32, .f32⟩
  | .local _ .vmem, ⟨8, _⟩ => ⟨S625x8x32, .f32⟩
  | .local _ .vmem, ⟨9, _⟩ => ⟨S625x8x32, .f32⟩
  | .local _ .vmem, ⟨10, _⟩ => ⟨S1x8x32, .f32⟩
  | .local _ .vmem, ⟨11, _⟩ => ⟨S1x8x32, .f32⟩
  | .local _ .vmem, ⟨12, _⟩ => ⟨S1x8x32, .f32⟩
  | .local _ .vmem, ⟨13, _⟩ => ⟨S1x8x32, .f32⟩
  | .local _ .vmem, ⟨14, _⟩ => ⟨S625x8x32, .f32⟩
  | .local _ .vmem, ⟨15, _⟩ => ⟨S625x8x32, .f32⟩
  | .local _ .vmem, ⟨16, _⟩ => ⟨S1x8x32, .f32⟩
  | .local _ .vmem, ⟨17, _⟩ => ⟨S1x8x32, .f32⟩
  | .local _ .vmem, ⟨18, _⟩ => ⟨S32, .f32⟩
  | .local _ .vmem, ⟨19, _⟩ => ⟨S32, .f32⟩
  | .local _ .vmem, ⟨20, _⟩ => ⟨S625x8x32, .f32⟩
  | .local _ .vmem, ⟨21, _⟩ => ⟨S625x8x32, .f32⟩
  | _, _ => ⟨S2x4x50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_11 : Ref sig .tc := ⟨.hbm, 73, rfl⟩
abbrev main_v49 : Ref sig .tc := ⟨.hbm, 74, rfl⟩
abbrev main_v50 : Ref sig .tc := ⟨.hbm, 75, rfl⟩
abbrev main_c_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64_0 : Ref sig .tc := ⟨.hbm, 92, rfl⟩
abbrev main_v64_1 : Ref sig .tc := ⟨.hbm, 93, rfl⟩
abbrev main_v64_2 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![80], ![false]⟩

def k0_cond2 (i : grid0.Coords) : BitVec 1 :=
  let arg0 : BitVec 32 := BitVec.ofNat 32 (i 0).val
  let c79_i32 : BitVec 32 := 79#32
  let v52 : BitVec 1 := Scalar.cmpi .eq arg0 c79_i32
  let v53 : BitVec 32 := Scalar.extui v52
  let c0_i32_37 : BitVec 32 := 0#32
  let v54 : BitVec 1 := Scalar.cmpi .ne v53 c0_i32_37
  v54

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S625x8x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S625x8x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S625x8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S625x8x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![80], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S625x8x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S625x8x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  transposes_S2x4x50000x32_S50000x2x4x32_2_0_1_3 : S2x4x50000x32.Transposes [2, 0, 1, 3] S50000x2x4x32
  shapeCasts_S50000x2x4x32_S50000x8x32 : S50000x2x4x32.ShapeCasts S50000x8x32
  bcast_S800000_S800000x1x1_0 : S800000.BroadcastsInDim S800000x1x1 (![0] : Fin 1 → Fin S800000x1x1.rank)
  bcast_S800000x1x1_S800000x8x32_0_1_2 : S800000x1x1.BroadcastsInDim S800000x8x32 (![0, 1, 2] : Fin 3 → Fin S800000x8x32.rank)
  bcast_S_S50000x8x32 : S_.BroadcastsInDim S50000x8x32 (![] : Fin 0 → Fin S50000x8x32.rank)
  inb_S1x8x32_S1x8x32_0_0_0 : ∀ a, (![0, 0, 0] : Fin 3 → Nat) a + S1x8x32.size a ≤ S1x8x32.size a
  h_S1x8x32 : 0 < S1x8x32.numel
  shapeCasts_S1x8x32_S1x8x32 : S1x8x32.ShapeCasts S1x8x32
  inb_S625x8x32_S625x8x32_0_0_0 : ∀ a, (![0, 0, 0] : Fin 3 → Nat) a + S625x8x32.size a ≤ S625x8x32.size a
  h_S625x8x32 : 0 < S625x8x32.numel
  shapeCasts_S625x8x32_S625x8x32 : S625x8x32.ShapeCasts S625x8x32
  shapeCasts_S625x8x32_S5000x32 : S625x8x32.ShapeCasts S5000x32
  bitsLt_bf16_f32 : FTy.bits .bf16 < FTy.bits .f32
  inb_S3x32x32_S1x32x32_0_0_0 : ∀ a, (![0, 0, 0] : Fin 3 → Nat) a + S1x32x32.size a ≤ S3x32x32.size a
  h_S1x32x32 : 0 < S1x32x32.numel
  shapeCasts_S1x32x32_S32x32 : S1x32x32.ShapeCasts S32x32
  inb_S3x32x32_S1x32x32_1_0_0 : ∀ a, (![1, 0, 0] : Fin 3 → Nat) a + S1x32x32.size a ≤ S3x32x32.size a
  inb_S3x32x32_S1x32x32_2_0_0 : ∀ a, (![2, 0, 0] : Fin 3 → Nat) a + S1x32x32.size a ≤ S3x32x32.size a
  shapeCasts_S5000x32_S625x8x32 : S5000x32.ShapeCasts S625x8x32
  inb_S32_S32_0 : ∀ a, (![0] : Fin 1 → Nat) a + S32.size a ≤ S32.size a
  h_S32 : 0 < S32.numel
  shapeCasts_S32_S1x1x32 : S32.ShapeCasts S1x1x32
  broadcasts_S1x1x32_S625x8x32 : S1x1x32.Broadcasts S625x8x32
  reduces_S625x8x32_S8x32 : S625x8x32.Reduces [0] S8x32
  shapeCasts_S8x32_S1x8x32 : S8x32.ShapeCasts S1x8x32
  broadcasts_S1x8x32_S625x8x32 : S1x8x32.Broadcasts S625x8x32
  shapeCasts_S50000x8x32_S50000x2x4x32 : S50000x8x32.ShapeCasts S50000x2x4x32
  transposes_S50000x2x4x32_S2x4x50000x32_1_2_0_3 : S50000x2x4x32.Transposes [1, 2, 0, 3] S2x4x50000x32
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x8x32_S800000x1_S800000x8x32_12_0_n_n_0_1_1832_wf : GatherDims.WF S50000x8x32 S800000x1 S800000x8x32 [1, 2] [0] [] [0] [] 1 ![1, 8, 32]
  scatter_S50000x8x32_S800000x1_S800000x8x32_12_0_0_1_wf : ScatterDims.WF S50000x8x32 S800000x1 S800000x8x32 [1, 2] [0] [0] 1
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S625x8x32.size a ≤ S50000x8x32.size a
  hwx0_0 : ∀ i : grid0.Coords, EltTy.bits .f32 = 32 ∨ (Rect.block (s := S50000x8x32) S625x8x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S625x8x32.size a ≤ S50000x8x32.size a
  hwx0_1 : ∀ i : grid0.Coords, EltTy.bits .f32 = 32 ∨ (Rect.block (s := S50000x8x32) S625x8x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S625x8x32.size a ≤ S50000x8x32.size a
  hwx0_2 : ∀ i : grid0.Coords, EltTy.bits .f32 = 32 ∨ (Rect.block (s := S50000x8x32) S625x8x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x32x32.size a ≤ S3x32x32.size a
  hwx0_3 : ∀ i : grid0.Coords, EltTy.bits .f32 = 32 ∨ (Rect.block (s := S3x32x32) S3x32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S625x8x32.size a ≤ S50000x8x32.size a
  hwx0_5 : ∀ i : grid0.Coords, EltTy.bits .f32 = 32 ∨ (Rect.block (s := S50000x8x32) S625x8x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8x32.size a ≤ S1x8x32.size a
  hwx0_6 : ∀ i : grid0.Coords, EltTy.bits .f32 = 32 ∨ (Rect.block (s := S1x8x32) S1x8x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8x32.size a ≤ S1x8x32.size a
  hwx0_7 : ∀ i : grid0.Coords, EltTy.bits .f32 = 32 ∨ (Rect.block (s := S1x8x32) S1x8x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S625x8x32.size a ≤ S50000x8x32.size a
  hwx1_0 : ∀ i : grid1.Coords, EltTy.bits .f32 = 32 ∨ (Rect.block (s := S50000x8x32) S625x8x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8x32.size a ≤ S1x8x32.size a
  hwx1_1 : ∀ i : grid1.Coords, EltTy.bits .f32 = 32 ∨ (Rect.block (s := S1x8x32) S1x8x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8x32.size a ≤ S1x8x32.size a
  hwx1_2 : ∀ i : grid1.Coords, EltTy.bits .f32 = 32 ∨ (Rect.block (s := S1x8x32) S1x8x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S625x8x32.size a ≤ S50000x8x32.size a
  hwx1_5 : ∀ i : grid1.Coords, EltTy.bits .f32 = 32 ∨ (Rect.block (s := S50000x8x32) S625x8x32.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x8x32_S800000x1_S800000x8x32_12_0_n_n_0_1_1832 : GatherDims S50000x8x32 S800000x1 S800000x8x32 where
  offsetDims := [1, 2]
  collapsedSliceDims := [0]
  operandBatchingDims := []
  startIndicesBatchingDims := []
  startIndexMap := [0]
  indexVectorDim := 1
  sliceSizes := ![1, 8, 32]
  wf := gather_S50000x8x32_S800000x1_S800000x8x32_12_0_n_n_0_1_1832_wf
def scatter_S50000x8x32_S800000x1_S800000x8x32_12_0_0_1 : ScatterDims S50000x8x32 S800000x1 S800000x8x32 where
  updateWindowDims := [1, 2]
  insertedWindowDims := [0]
  scatterDimsToOperandDims := [0]
  indexVectorDim := 1
  wf := scatter_S50000x8x32_S800000x1_S800000x8x32_12_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_v34) S625x8x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S625x8x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v63) S625x8x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v64_0) S625x8x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v64_1) S1x8x32.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v64_2) S1x8x32.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v64_0) S625x8x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64_1) S1x8x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64_2) S1x8x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S625x8x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x4x50000x32 : Shape := ⟨4, ![2, 4, 50000, 32]⟩
abbrev S2x800000 : Shape := ⟨2, ![2, 800000]⟩
abbrev S800000 : Shape := ⟨1, ![800000]⟩
abbrev S3x32x32 : Shape := ⟨3, ![3, 32, 32]⟩
abbrev S32 : Shape := ⟨1, ![32]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x2x4x32 : Shape := ⟨4, ![50000, 2, 4, 32]⟩
abbrev S50000x8x32 : Shape := ⟨3, ![50000, 8, 32]⟩
abbrev S1x32x32 : Shape := ⟨3, ![1, 32, 32]⟩
abbrev S32x32 : Shape := ⟨2, ![32, 32]⟩
abbrev S800000x1x1 : Shape := ⟨3, ![800000, 1, 1]⟩
abbrev S800000x8x32 : Shape := ⟨3, ![800000, 8, 32]⟩
abbrev S1x1x32 : Shape := ⟨3, ![1, 1, 32]⟩
abbrev S8x32 : Shape := ⟨2, ![8, 32]⟩
abbrev S1x8x32 : Shape := ⟨3, ![1, 8, 32]⟩

abbrev nBuf : Space → Nat
  | .hbm => 140
  | .vmem => 0
  | .smem => 0
  | _ => 0

abbrev hbmTy0_0 (i : Nat) : BufTy := match i % 128 with
  | 0 => ⟨S2x4x50000x32, .f32⟩
  | 1 => ⟨S2x800000, .i32⟩
  | 2 => ⟨S800000, .f32⟩
  | 3 => ⟨S3x32x32, .f32⟩
  | 4 => ⟨S32, .f32⟩
  | 5 => ⟨S32, .f32⟩
  | 6 => ⟨S32, .f32⟩
  | 7 => ⟨S1x800000, .i32⟩
  | 8 => ⟨S800000, .i32⟩
  | 9 => ⟨S1x800000, .i32⟩
  | 10 => ⟨S800000, .i32⟩
  | 11 => ⟨S_, .f32⟩
  | 12 => ⟨S50000, .f32⟩
  | 13 => ⟨S800000x1, .i32⟩
  | 14 => ⟨S50000, .f32⟩
  | 15 => ⟨S_, .f32⟩
  | 16 => ⟨S50000, .f32⟩
  | 17 => ⟨S50000, .i1⟩
  | 18 => ⟨S_, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S50000x2x4x32, .f32⟩
  | 55 => ⟨S50000x8x32, .f32⟩
  | 56 => ⟨S1x32x32, .f32⟩
  | 57 => ⟨S32x32, .f32⟩
  | 58 => ⟨S50000x8x32, .f32⟩
  | 59 => ⟨S800000x1x1, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x8x32, .f32⟩
  | 69 => ⟨S800000x8x32, .f32⟩
  | 70 => ⟨S800000x8x32, .f32⟩
  | 71 => ⟨S_, .f32⟩
  | 72 => ⟨S50000x8x32, .f32⟩
  | 73 => ⟨S800000x1, .i32⟩
  | 74 => ⟨S50000x8x32, .f32⟩
  | 75 => ⟨S1x32x32, .f32⟩
  | 76 => ⟨S32x32, .f32⟩
  | 77 => ⟨S50000x8x32, .f32⟩
  | 78 => ⟨S50000x8x32, .f32⟩
  | 79 => ⟨S800000x1x1, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x8x32, .f32⟩
  | 89 => ⟨S800000x8x32, .f32⟩
  | 90 => ⟨S800000x8x32, .f32⟩
  | 91 => ⟨S_, .f32⟩
  | 92 => ⟨S50000x8x32, .f32⟩
  | 93 => ⟨S800000x1, .i32⟩
  | 94 => ⟨S50000x8x32, .f32⟩
  | 95 => ⟨S_, .f32⟩
  | 96 => ⟨S50000x8x32, .f32⟩
  | 97 => ⟨S50000x8x32, .f32⟩
  | 98 => ⟨S50000x8x32, .f32⟩
  | 99 => ⟨S1x32x32, .f32⟩
  | 100 => ⟨S32x32, .f32⟩
  | 101 => ⟨S50000x8x32, .f32⟩
  | 102 => ⟨S50000x8x32, .f32⟩
  | 103 => ⟨S1x1x32, .f32⟩
  | 104 => ⟨S50000x8x32, .f32⟩
  | 105 => ⟨S50000x8x32, .f32⟩
  | 106 => ⟨S_, .f32⟩
  | 107 => ⟨S8x32, .f32⟩
  | 108 => ⟨S1x8x32, .f32⟩
  | 109 => ⟨S_, .f32⟩
  | 110 => ⟨S1x8x32, .f32⟩
  | 111 => ⟨S1x8x32, .f32⟩
  | 112 => ⟨S50000x8x32, .f32⟩
  | 113 => ⟨S50000x8x32, .f32⟩
  | 114 => ⟨S50000x8x32, .f32⟩
  | 115 => ⟨S_, .f32⟩
  | 116 => ⟨S8x32, .f32⟩
  | 117 => ⟨S1x8x32, .f32⟩
  | 118 => ⟨S_, .f32⟩
  | 119 => ⟨S1x8x32, .f32⟩
  | 120 => ⟨S1x8x32, .f32⟩
  | 121 => ⟨S50000x8x32, .f32⟩
  | 122 => ⟨S50000x8x32, .f32⟩
  | 123 => ⟨S1x1x32, .f32⟩
  | 124 => ⟨S50000x8x32, .f32⟩
  | 125 => ⟨S50000x8x32, .f32⟩
  | 126 => ⟨S_, .f32⟩
  | 127 => ⟨S1x8x32, .f32⟩
  | _ => ⟨S2x4x50000x32, .f32⟩

abbrev hbmTy0_1 (i : Nat) : BufTy := match i % 128 with
  | 0 => ⟨S1x8x32, .f32⟩
  | 1 => ⟨S1x8x32, .f32⟩
  | 2 => ⟨S50000x8x32, .f32⟩
  | 3 => ⟨S50000x8x32, .f32⟩
  | 4 => ⟨S1x1x32, .f32⟩
  | 5 => ⟨S50000x8x32, .f32⟩
  | 6 => ⟨S50000x8x32, .f32⟩
  | 7 => ⟨S_, .f32⟩
  | 8 => ⟨S50000x8x32, .f32⟩
  | 9 => ⟨S50000x8x32, .f32⟩
  | 10 => ⟨S50000x2x4x32, .f32⟩
  | 11 => ⟨S2x4x50000x32, .f32⟩
  | _ => ⟨S2x4x50000x32, .f32⟩

abbrev hbmTy (i : Nat) : BufTy := match i / 128 with
  | 0 => hbmTy0_0 i
  | 1 => hbmTy0_1 i
  | _ => ⟨S2x4x50000x32, .f32⟩

abbrev bufTy : (tb : Table) → Fin (tcTables nBuf tb) → BufTy
  | .hbm, ⟨i, _⟩ => hbmTy i
  | _, _ => ⟨S2x4x50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_v86 : Ref sig .tc := ⟨.hbm, 117, rfl⟩
abbrev main_cst_18 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_19 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_call2_cst : Ref sig .tc := ⟨.hbm, 135, rfl⟩
abbrev main_call2_v0 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  transposes_S2x4x50000x32_S50000x2x4x32_2_0_1_3 : S2x4x50000x32.Transposes [2, 0, 1, 3] S50000x2x4x32
  shapeCasts_S50000x2x4x32_S50000x8x32 : S50000x2x4x32.ShapeCasts S50000x8x32
  slices_S3x32x32_S1x32x32_0_0_0 : S3x32x32.Slices ![0, 0, 0] S1x32x32
  shapeCasts_S1x32x32_S32x32 : S1x32x32.ShapeCasts S32x32
  bcast_S800000_S800000x1x1_0 : S800000.BroadcastsInDim S800000x1x1 (![0] : Fin 1 → Fin S800000x1x1.rank)
  bcast_S800000x1x1_S800000x8x32_0_1_2 : S800000x1x1.BroadcastsInDim S800000x8x32 (![0, 1, 2] : Fin 3 → Fin S800000x8x32.rank)
  bcast_S_S50000x8x32 : S_.BroadcastsInDim S50000x8x32 (![] : Fin 0 → Fin S50000x8x32.rank)
  slices_S3x32x32_S1x32x32_1_0_0 : S3x32x32.Slices ![1, 0, 0] S1x32x32
  slices_S3x32x32_S1x32x32_2_0_0 : S3x32x32.Slices ![2, 0, 0] S1x32x32
  bcast_S32_S1x1x32_2 : S32.BroadcastsInDim S1x1x32 (![2] : Fin 1 → Fin S1x1x32.rank)
  bcast_S1x1x32_S50000x8x32_0_1_2 : S1x1x32.BroadcastsInDim S50000x8x32 (![0, 1, 2] : Fin 3 → Fin S50000x8x32.rank)
  reducesTo_S50000x8x32_S8x32_d0 : S50000x8x32.ReducesTo [0] S8x32
  h_S_ : 0 < S_.numel
  bcast_S8x32_S1x8x32_1_2 : S8x32.BroadcastsInDim S1x8x32 (![1, 2] : Fin 2 → Fin S1x8x32.rank)
  bcast_S_S1x8x32 : S_.BroadcastsInDim S1x8x32 (![] : Fin 0 → Fin S1x8x32.rank)
  bcast_S1x8x32_S50000x8x32_0_1_2 : S1x8x32.BroadcastsInDim S50000x8x32 (![0, 1, 2] : Fin 3 → Fin S50000x8x32.rank)
  shapeCasts_S50000x8x32_S50000x2x4x32 : S50000x8x32.ShapeCasts S50000x2x4x32
  transposes_S50000x2x4x32_S2x4x50000x32_1_2_0_3 : S50000x2x4x32.Transposes [1, 2, 0, 3] S2x4x50000x32
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x8x32_S32x32_S50000x8x32_2_0_01_1_n_n_wf : DotDims.WF S50000x8x32 S32x32 S50000x8x32 [2] [0] [0, 1] [1] [] []
  gather_S50000x8x32_S800000x1_S800000x8x32_12_0_n_n_0_1_1832_wf : GatherDims.WF S50000x8x32 S800000x1 S800000x8x32 [1, 2] [0] [] [0] [] 1 ![1, 8, 32]
  scatter_S50000x8x32_S800000x1_S800000x8x32_12_0_0_1_wf : ScatterDims.WF S50000x8x32 S800000x1 S800000x8x32 [1, 2] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x8x32_S32x32_S50000x8x32_2_0_01_1_n_n : DotDims S50000x8x32 S32x32 S50000x8x32 where
  lhsContracting := [2]
  rhsContracting := [0]
  lhsNonContracting := [0, 1]
  rhsNonContracting := [1]
  lhsBatch := []
  rhsBatch := []
  wf := dot_S50000x8x32_S32x32_S50000x8x32_2_0_01_1_n_n_wf
def gather_S50000x8x32_S800000x1_S800000x8x32_12_0_n_n_0_1_1832 : GatherDims S50000x8x32 S800000x1 S800000x8x32 where
  offsetDims := [1, 2]
  collapsedSliceDims := [0]
  operandBatchingDims := []
  startIndicesBatchingDims := []
  startIndexMap := [0]
  indexVectorDim := 1
  sliceSizes := ![1, 8, 32]
  wf := gather_S50000x8x32_S800000x1_S800000x8x32_12_0_n_n_0_1_1832_wf
def scatter_S50000x8x32_S800000x1_S800000x8x32_12_0_0_1 : ScatterDims S50000x8x32 S800000x1 S800000x8x32 where
  updateWindowDims := [1, 2]
  insertedWindowDims := [0]
  scatterDimsToOperandDims := [0]
  indexVectorDim := 1
  wf := scatter_S50000x8x32_S800000x1_S800000x8x32_12_0_0_1_wf

class Facts : Prop extends Facts₀ where

variable [Facts]
-- ==== Proof.KernelR0Shared.lean ====
import proofs.«156046_j7490422964881_2_alg».proof.Proof.Gen.Kernel.Launch
import proofs.«156046_j7490422964881_2_alg».proof.Proof.Gen.Kernel.Skeleton
import proofs.«156046_j7490422964881_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The accumulating region (the first pallas_call): what its three control cases share.
The body zeroes its two one-row accumulators at the first point, adds the block's column sums and
sums of squares at every point, and copies the accumulators out at the last point. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Region0

/-- The first branch's condition (is this the first point?), from the grid coordinates. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 80 = 0 :=
  (by decide +kernel : ∀ t : Fin grid0.N, cond0_0 (grid0.coords t) ↔ t.val % 80 = 0)
/-- The second branch's condition (is this the last point?). -/
abbrev cond0_1 (i : grid0.Coords) : Prop := k0_cond2 i = 1#1
theorem hcond0_1 : ∀ t : Fin cfg0.N, cond0_1 (grid0.coords t) ↔ t.val % 80 = 79 :=
  (by decide +kernel : ∀ t : Fin grid0.N, cond0_1 (grid0.coords t) ↔ t.val % 80 = 79)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_C : ∀ t : Fin cfg0.N, cond0_1 (grid0.coords t) → cfg0.idle 7 (grid0.coords t) = false := by decide +kernel

abbrev ms0_0 (t : Fin cfg0.N) : Memref sig .tc .vmem S625x8x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S625x8x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S625x8x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x32x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S625x8x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x32 .f32 := win0_7.stage (cfg0.slots t 7)
abbrev hs0_7 (t : Fin cfg0.N) : (ms0_7 t).IsWhole := hstage0_7 ((cfg0.slots t 7).cast nbuf0_7)
/-- The two accumulators: whole scoped buffers of the kernel's own. -/
abbrev scM0_0 : Memref sig .tc .vmem S1x8x32 .f32 := Memref.whole cc0_scratch0
abbrev scM0_1 : Memref sig .tc .vmem S1x8x32 .f32 := Memref.whole cc0_scratch1
abbrev VS0_0 : View sig .tc .vmem S1x8x32 .f32 := scM0_0.view
abbrev VS0_1 : View sig .tc .vmem S1x8x32 .f32 := scM0_1.view
abbrev VO0_5 : View sig .tc .vmem S625x8x32 .f32 := (Memref.whole cc0_stg5_0 : Memref sig .tc .vmem S625x8x32 .f32).view
abbrev VO0_6 : View sig .tc .vmem S1x8x32 .f32 := (Memref.whole cc0_stg6_0 : Memref sig .tc .vmem S1x8x32 .f32).view
abbrev VO0_7 : View sig .tc .vmem S1x8x32 .f32 := (Memref.whole cc0_stg7_0 : Memref sig .tc .vmem S1x8x32 .f32).view

end Cert.Kernel.Reg

end
-- ==== Proof.KernelR0RunA.lean ====
import proofs.«156046_j7490422964881_2_alg».proof.Proof.KernelR0Shared

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The body in the case of the first point (accumulators reset, nothing copied out): the pieces each
    written buffer ends with, and the proof that on whole memrefs the body runs to the continuation holding
    the inputs as they were and each written buffer with its pieces written. -/
noncomputable def kernelRun0_A (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i)
    (x0 : Vec F S625x8x32 .f32) (x1 : Vec F S625x8x32 .f32) (x2 : Vec F S625x8x32 .f32) (x3 : Vec F S3x32x32 .f32) (x4 : Vec F S32 .f32) :
    Σ' (L5 : List (View.Piece (Elt F) S625x8x32 .f32)) (LS0 : List (View.Piece (Elt F) S1x8x32 .f32)), { LS1 : List (View.Piece (Elt F) S1x8x32 .f32) //
      ∀ (xi6 : Vec F S1x8x32 .f32) (xi7 : Vec F S1x8x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Reg

end
-- ==== Proof.KernelR0RunB.lean ====
import proofs.«156046_j7490422964881_2_alg».proof.Proof.KernelR0RunA

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The body in the case of a middle point (nothing reset, nothing copied out): the pieces each
    written buffer ends with, and the proof that on whole memrefs the body runs to the continuation holding
    the inputs as they were and each written buffer with its pieces written. -/
noncomputable def kernelRun0_B (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i)
    (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) :
    Σ' (L5 : List (View.Piece (Elt F) S625x8x32 .f32)) (LS0 : List (View.Piece (Elt F) S1x8x32 .f32)), { LS1 : List (View.Piece (Elt F) S1x8x32 .f32) //
      ∀ (xi6 : Vec F S1x8x32 .f32) (xi7 : Vec F S1x8x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Reg

end
-- ==== Proof.KernelR0RunC.lean ====
import proofs.«156046_j7490422964881_2_alg».proof.Proof.KernelR0RunB

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The body in the case of the last point (nothing reset, accumulators copied out): the pieces each
    written buffer ends with, and the proof that on whole memrefs the body runs to the continuation holding
    the inputs as they were and each written buffer with its pieces written. -/
noncomputable def kernelRun0_C (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i)
    (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) :
    Σ' (L5 : List (View.Piece (Elt F) S625x8x32 .f32)) (L6 : List (View.Piece (Elt F) S1x8x32 .f32)) (L7 : List (View.Piece (Elt F) S1x8x32 .f32)) (LS0 : List (View.Piece (Elt F) S1x8x32 .f32)), { LS1 : List (View.Piece (Elt F) S1x8x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Reg

end
-- ==== Proof.KernelR0Frame.lean ====
import proofs.«156046_j7490422964881_2_alg».proof.Proof.KernelR0RunC

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The accumulating region: what its buffers hold point by point, its proof data, its body obligation. -/

theorem cover0_A_5 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i) (x0 : Vec F S625x8x32 .f32) (x1 : Vec F S625x8x32 .f32) (x2 : Vec F S625x8x32 .f32) (x3 : Vec F S3x32x32 .f32) (x4 : Vec F S32 .f32) (y : S625x8x32.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S625x8x32.size (by sl_kernel_rfl) y
def out0_A_5 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i) (x0 : Vec F S625x8x32 .f32) (x1 : Vec F S625x8x32 .f32) (x2 : Vec F S625x8x32 .f32) (x3 : Vec F S3x32x32 .f32) (x4 : Vec F S32 .f32) : Vec F S625x8x32 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)

theorem scover0_A_0 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i) (x0 : Vec F S625x8x32 .f32) (x1 : Vec F S625x8x32 .f32) (x2 : Vec F S625x8x32 .f32) (x3 : Vec F S3x32x32 .f32) (x4 : Vec F S32 .f32) (y : S1x8x32.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.1 S1x8x32.size (by sl_kernel_rfl) y
def sout0_A_0 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i) (x0 : Vec F S625x8x32 .f32) (x1 : Vec F S625x8x32 .f32) (x2 : Vec F S625x8x32 .f32) (x3 : Vec F S3x32x32 .f32) (x4 : Vec F S32 .f32) : Vec F S1x8x32 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.1)

theorem scover0_A_1 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i) (x0 : Vec F S625x8x32 .f32) (x1 : Vec F S625x8x32 .f32) (x2 : Vec F S625x8x32 .f32) (x3 : Vec F S3x32x32 .f32) (x4 : Vec F S32 .f32) (y : S1x8x32.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.1 S1x8x32.size (by sl_kernel_rfl) y
def sout0_A_1 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i) (x0 : Vec F S625x8x32 .f32) (x1 : Vec F S625x8x32 .f32) (x2 : Vec F S625x8x32 .f32) (x3 : Vec F S3x32x32 .f32) (x4 : Vec F S32 .f32) : Vec F S1x8x32 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.1)

theorem cover0_B_5 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S625x8x32.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).1 S625x8x32.size (by sl_kernel_rfl) y
def out0_B_5 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S625x8x32 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)

theorem scover0_B_0 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S1x8x32.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1 S1x8x32.size (by sl_kernel_rfl) y
def sout0_B_0 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S1x8x32 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1)

theorem scover0_B_1 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S1x8x32.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1 S1x8x32.size (by sl_kernel_rfl) y
def sout0_B_1 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S1x8x32 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1)

theorem cover0_C_5 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S625x8x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).1 S625x8x32.size (by sl_kernel_rfl) y
def out0_C_5 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S625x8x32 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)

theorem cover0_C_6 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S1x8x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 S1x8x32.size (by sl_kernel_rfl) y
def out0_C_6 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S1x8x32 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)

theorem cover0_C_7 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S1x8x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 S1x8x32.size (by sl_kernel_rfl) y
def out0_C_7 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S1x8x32 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)

theorem scover0_C_0 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S1x8x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x8x32.size (by sl_kernel_rfl) y
def sout0_C_0 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S1x8x32 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)

theorem scover0_C_1 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S1x8x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x8x32.size (by sl_kernel_rfl) y
def sout0_C_1 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S1x8x32 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

section Region0
variable (V : (c : Dev nD) → (b : Ref sig .tc) → Buf (Elt F) ((c : Thread nD τ).loc b))

/-- THE ACCUMULATION. After the body at position `n`: the raw output block, the two one-row outputs (written at the
    last point only; elsewhere a placeholder nothing consults), and the two accumulators, each from what the point
    before left in the accumulators. -/
def outsAt0 (c : Dev nD) : (n : ℕ) → n < cfg0.N → Vec F S625x8x32 .f32 × Vec F S1x8x32 .f32 × Vec F S1x8x32 .f32 × Vec F S1x8x32 .f32 × Vec F S1x8x32 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 80 = 0 then
      False.elim (by have hN : n + 1 < 80 := lt_of_lt_of_eq hn (show cfg0.N = 80 from N_0); omega)
    else
      if h1 : (n + 1) % 80 = 79 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 80 = 0) (h1 : ¬t.val % 80 = 79) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (by exfalso; have hN : n + 1 < 80 := lt_of_lt_of_eq hn (show cfg0.N = 80 from N_0); (try dsimp only at h0); omega)

theorem outsAt0_B (c : Dev nD) (t : Fin cfg0.N) (h0 : ¬t.val % 80 = 0) (h1 : ¬t.val % 80 = 79) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 80 = 0) (h1 : t.val % 80 = 79) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The other scoped buffers (the second region's staging buffers), each whole at some contents. -/
def Rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest8 c) ∗ (∃ r, prngReg c r)) := by
  unfold Pipeline.ΦA Rest8; rw [scopedRest0_eq]; simp only [scM0_0, scM0_1, owns_whole]; try rfl

/-- The region invariant before position `n`: before the first point the class's; afterwards each accumulator at what
    the point before left in it, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ Rest8 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ Rest8 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ Rest8 c) ∗ (∃ r, prngReg c r)) := by
  cases n with
  | zero => exact absurd rfl hz
  | succ n => rfl

/-- The region's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

end Region0

end Cert.Kernel.Reg

end
-- ==== Proof.KernelR0Body.lean ====
import proofs.«156046_j7490422964881_2_alg».proof.Proof.KernelR0Frame

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The accumulating region: the body obligation at a generic point, case by case. -/

section Region0
variable (V : (c : Dev nD) → (b : Ref sig .tc) → Buf (Elt F) ((c : Thread nD τ).loc b))

set_option maxHeartbeats 16000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 80 := lt_of_lt_of_eq t.isLt (show cfg0.N = 80 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val % 80 = 0
  · by_cases h1 : t.val % 80 = 79
    · exfalso; omega
    ·
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_A V c t h0 h1]
      unfold out0_A_5 sout0_A_0 sout0_A_1; (try dsimp only)
      have hz : t.val = 0 := by omega
      rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]; · iexists _; iexact H6
      iexists _; iexact H7
  · by_cases h1 : t.val % 80 = 79
    ·
      rw [show (dat0 V c).leavesExact 6 t = owns (c : Thread nD τ) (ms0_6 t) fullShare ((dat0 V c).after 6 t) from by
        unfold Dat.leavesExact; rw [liveAt0_6_C t ((hcond0_1 t).mpr h1)], after0_6]
      rw [show (dat0 V c).leavesExact 7 t = owns (c : Thread nD τ) (ms0_7 t) fullShare ((dat0 V c).after 7 t) from by
        unfold Dat.leavesExact; rw [liveAt0_7_C t ((hcond0_1 t).mpr h1)], after0_7]
      rw [outsAt0_C V c t h0 h1]
      unfold out0_C_5 out0_C_6 out0_C_7 sout0_C_0 sout0_C_1; (try dsimp only)
      have hz : t.val ≠ 0 := by omega
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _)
    ·
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_B V c t h0 h1]
      unfold out0_B_5 sout0_B_0 sout0_B_1; (try dsimp only)
      have hz : t.val ≠ 0 := by omega
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _)
      isplitl [H6]; · iexists _; iexact H6
      iexists _; iexact H7

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 80 := N_0; omega)

end Region0

end Cert.Kernel.Reg

end
-- ==== Proof.KernelR1.lean ====
import proofs.«156046_j7490422964881_2_alg».proof.Proof.Gen.Kernel.Launch
import proofs.«156046_j7490422964881_2_alg».proof.Proof.Gen.Kernel.Skeleton
import proofs.«156046_j7490422964881_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The normalising region (the second pallas_call), at the buffer contents `V` it is entered from.
Every point loads the raw block, the two one-row statistics and the affine pair whole, and stores one
pointwise expression of them over the whole output block. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rB1 : Rect S625x8x32 := Rect.unit (s := S625x8x32) ![0, 0, 0] S625x8x32.size inb_S625x8x32_S625x8x32_0_0_0
abbrev rS1 : Rect S1x8x32 := Rect.unit (s := S1x8x32) ![0, 0, 0] S1x8x32.size inb_S1x8x32_S1x8x32_0_0_0
abbrev rV1 : Rect S32 := Rect.unit (s := S32) ![0] S32.size inb_S32_S32_0

/-- The output block after the body: its one store, of the normalised, scaled, shifted, rectified block. -/
def out1_5 (x0 : Vec F S625x8x32 .f32) (x1 : Vec F S1x8x32 .f32) (x2 : Vec F S1x8x32 .f32) (x3 : Vec F S32 .f32) (x4 : Vec F S32 .f32) : Vec F S625x8x32 .f32 :=
  View.canon [⟨rB1, k1_pay1 (View.ld x1 rS1) (View.ld x2 rS1) (View.ld x3 rV1) (View.ld x4 rV1) (View.ld x0 rB1)⟩]

theorem cover1_5 (p0 : Vec F S625x8x32 .f32) (y : S625x8x32.Idx) :
    ∃ pc ∈ ([⟨rB1, p0⟩] : List (View.Piece (Elt F) S625x8x32 .f32)), y ∈ pc.1.set :=
  View.cover_of_tiled [⟨rB1, p0⟩] S625x8x32.size (by rfl) y

set_option maxHeartbeats 4000000 in
/-- The body on whole staging memrefs: the inputs stay, the output holds `out1_5` of them. -/
theorem sound_kernel1 (c : Dev nD) (E : Set ℕ) (i : grid1.Coords) (arg1 : Memref sig .tc .vmem S625x8x32 .f32) (harg1 : arg1.IsWhole) (arg2 : Memref sig .tc .vmem S1x8x32 .f32) (harg2 : arg2.IsWhole) (arg3 : Memref sig .tc .vmem S1x8x32 .f32) (harg3 : arg3.IsWhole) (arg4 : Memref sig .tc .vmem S32 .f32) (harg4 : arg4.IsWhole) (arg5 : Memref sig .tc .vmem S32 .f32) (harg5 : arg5.IsWhole) (arg6 : Memref sig .tc .vmem S625x8x32 .f32) (harg6 : arg6.IsWhole)
    (x0 : Vec F S625x8x32 .f32) (x1 : Vec F S1x8x32 .f32) (x2 : Vec F S1x8x32 .f32) (x3 : Vec F S32 .f32) (x4 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data: the arrays as entered; after the body each input's buffer at its block, the output's at
    `out1_5` of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Region1

end Cert.Kernel.Reg

end
-- ==== Proof.KernelRun.lean ====
import proofs.«156046_j7490422964881_2_alg».proof.Proof.KernelR0Body
import proofs.«156046_j7490422964881_2_alg».proof.Proof.KernelR1
import proofs.«156046_j7490422964881_2_alg».proof.Proof.Gen.Kernel.Regions

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of @main: host stretches, the accumulating region, the normalising region, the host tail.
At each boundary every unscoped buffer is held at named contents: the launch memory, then each host stretch's
`StableHlo.after`, then each region's arrays at what its write-backs leave. -/

variable (m : (ℓ : Loc nD τ sig) → Buf (Elt F) ℓ) (ρ : Dev nD → PrngReg)

/-- The first region's entry contents (after the five host stretches), read at the TensorCore's references. -/
abbrev VE0 : (c : Dev nD) → (b : Ref sig .tc) → Buf (Elt F) ((c : Thread nD τ).loc b) := fun c b => Gen.V5 m c b
/-- At the first region's exit: its arrays at what the pipeline leaves, every other buffer as entered. -/
def W6 (c : Dev nD) : Valuation τ sig (Elt F) :=
  Pipeline.withArrays spec0 c (Gen.V5 m c) fun w => (dat0 (VE0 m) c).arrAt w cfg0.N
theorem W6_arr (c : Dev nD) (w : Fin cfg0.W) :
    W6 m c (Proc.devRef .tc (Pipeline.arrRef spec0 w)) = (dat0 (VE0 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = Gen.V5 m c (Proc.devRef .tc b) := by
  unfold W6; exact Pipeline.withArrays_of_ne spec0 c _ _ b hb
abbrev VX0 : (c : Dev nD) → (b : Ref sig .tc) → Buf (Elt F) ((c : Thread nD τ).loc b) := fun c b => W6 m c b
theorem hF0 (c : Dev nD) (w : Fin cfg0.W) : (dat0 (VE0 m) c).arrAt w cfg0.N = VX0 m c (Pipeline.arrRef spec0 w) :=
  (W6_arr m c w).symm
theorem hrest0 (c : Dev nD) : ∀ b, b ∉ Finset.univ.image (Pipeline.arrRef spec0) → VX0 m c b = VE0 m c b :=
  fun b hb => W6_of_ne m c b fun w e => hb (Finset.mem_image.mpr ⟨w, Finset.mem_univ _, e⟩)

/-- At the second region's exit. -/
def W7 (c : Dev nD) : Valuation τ sig (Elt F) :=
  Pipeline.withArrays spec1 c (W6 m c) fun w => (dat1 (VX0 m) c).arrAt w cfg1.N
theorem W7_arr (c : Dev nD) (w : Fin cfg1.W) :
    W7 m c (Proc.devRef .tc (Pipeline.arrRef spec1 w)) = (dat1 (VX0 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev VX1 : (c : Dev nD) → (b : Ref sig .tc) → Buf (Elt F) ((c : Thread nD τ).loc b) := fun c b => W7 m c b
theorem hF1 (c : Dev nD) (w : Fin cfg1.W) : (dat1 (VX0 m) c).arrAt w cfg1.N = VX1 m c (Pipeline.arrRef spec1 w) :=
  (W7_arr m c w).symm
theorem hrest1 (c : Dev nD) : ∀ b, b ∉ Finset.univ.image (Pipeline.arrRef spec1) → VX1 m c b = VX0 m c b :=
  fun b hb => W7_of_ne m c b fun w e => hb (Finset.mem_image.mpr ⟨w, Finset.mem_univ _, e⟩)

/-- After the host tail. -/
abbrev W8 : Dev nD → Valuation τ sig (Elt F) := fun c => StableHlo.after hostOps2 (W7 m c)

abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VX0 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

set_option backward.isDefEq.respectTransparency.types false in
/-- Region 0 over the thread state: entered from every unscoped buffer at `Gen.V5`, left at `W6`. Its arrays are
    split out of the unscoped buffers and put back at the exit contents; the generator register goes into the region's
    invariant and comes back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (show (pdats m 0 c).Φ (Fin.last _) ⊢ (Pipeline.ΦA spec0 c : sProp 𝕄) from hout0 (VE0 m) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W6`, left at `W7`. Its arrays are
    split out of the unscoped buffers and put back at the exit contents; the generator register goes into the region's
    invariant and comes back; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VX0 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (VX0 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VX0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VX0 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's eight segments in order. -/
abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .region (reg0 m),
    .region (reg1 m),
    .host (hseg hostOps2 hostOps2_sub Gen.hostOps2_fresh (W7 m)) ]

set_option backward.isDefEq.respectTransparency.types false in
set_option maxHeartbeats 4000000 in
/-- THE RUN. From any memory with zero counters every weakly fair execution of @main terminates, nothing faulting,
    and the final memory holds every unscoped buffer at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := fun c => ⟨.rfl, .rfl, .rfl, .rfl, .rfl, .rfl, .rfl, .rfl,
      (show (iprop(StableHlo.held (c : Thread nD τ) (Pipeline.ucRefs τ sig) (W8 m c) ∗ R c) : sProp 𝕄)
          ⊢ iprop(Tₙ m c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.Kernel.Reg

end
-- ==== Proof.KTailBits.lean ====
/-
  The word-level program's arguments at the last boundary of its run.

  No host operation writes an argument, and a region touches an argument only through an input window, whose array is
  never written back: so each of the seven arguments ends as launched.
-/
import proofs.«156046_j7490422964881_2_alg».proof.Proof.KernelRun
import Idealize.ShloMosaic.Lib.StableHlo.Run

set_option maxRecDepth 16384

noncomputable section

namespace Cert.KTailBits

open Idealize.ShloMosaic Idealize.ShloMosaic.TcCoe Idealize.ShloMosaic.Tactic
open Idealize.SL Idealize.SL.Sem
open Idealize.ShloMosaic.Pipeline (Dat Cfg Window)
open Cert.Kernel Cert.Kernel.Gen

section Generic

variable {F : FTy → Type} [FloatOps F]
variable (m : (ℓ : Loc nD τ sig) → Buf (Elt F) ℓ)

/-! ### What the two regions read of the arguments is what was launched -/

theorem V5_main_arg3 (c : Dev nD) : Gen.V5 m c (Proc.devRef .tc main_arg3) = m ((c : Thread nD τ).loc main_arg3) :=
  (Gen.V5_of m c main_arg3 (by decide)).trans <| (Gen.V4_of m c main_arg3 (by decide)).trans <|
    (Gen.V3_of m c main_arg3 (by decide)).trans <| (Gen.V2_of m c main_arg3 (by decide)).trans <|
    (Gen.V1_of m c main_arg3 (by decide)).trans rfl
theorem V5_main_arg4 (c : Dev nD) : Gen.V5 m c (Proc.devRef .tc main_arg4) = m ((c : Thread nD τ).loc main_arg4) :=
  (Gen.V5_of m c main_arg4 (by decide)).trans <| (Gen.V4_of m c main_arg4 (by decide)).trans <|
    (Gen.V3_of m c main_arg4 (by decide)).trans <| (Gen.V2_of m c main_arg4 (by decide)).trans <|
    (Gen.V1_of m c main_arg4 (by decide)).trans rfl
theorem V5_main_arg5 (c : Dev nD) : Gen.V5 m c (Proc.devRef .tc main_arg5) = m ((c : Thread nD τ).loc main_arg5) :=
  (Gen.V5_of m c main_arg5 (by decide)).trans <| (Gen.V4_of m c main_arg5 (by decide)).trans <|
    (Gen.V3_of m c main_arg5 (by decide)).trans <| (Gen.V2_of m c main_arg5 (by decide)).trans <|
    (Gen.V1_of m c main_arg5 (by decide)).trans rfl
theorem V5_main_arg6 (c : Dev nD) : Gen.V5 m c (Proc.devRef .tc main_arg6) = m ((c : Thread nD τ).loc main_arg6) :=
  (Gen.V5_of m c main_arg6 (by decide)).trans <| (Gen.V4_of m c main_arg6 (by decide)).trans <|
    (Gen.V3_of m c main_arg6 (by decide)).trans <| (Gen.V2_of m c main_arg6 (by decide)).trans <|
    (Gen.V1_of m c main_arg6 (by decide)).trans rfl

/-- The weights as the accumulating region finds them. -/
theorem VE0_main_arg3 (c : Dev nD) : Reg.VE0 m c main_arg3 = m ((c : Thread nD τ).loc main_arg3) := V5_main_arg3 m c
/-- The bias as the accumulating region finds it. -/
theorem VE0_main_arg4 (c : Dev nD) : Reg.VE0 m c main_arg4 = m ((c : Thread nD τ).loc main_arg4) := V5_main_arg4 m c
/-- The scale as the normalising region finds it. -/
theorem VX0_main_arg5 (c : Dev nD) : Reg.VX0 m c main_arg5 = m ((c : Thread nD τ).loc main_arg5) :=
  (Reg.W6_of_ne m c main_arg5 (by decide)).trans (V5_main_arg5 m c)
/-- The shift as the normalising region finds it. -/
theorem VX0_main_arg6 (c : Dev nD) : Reg.VX0 m c main_arg6 = m ((c : Thread nD τ).loc main_arg6) :=
  (Reg.W6_of_ne m c main_arg6 (by decide)).trans (V5_main_arg6 m c)

/-! ### The arguments end as launched: no host operation writes one, and a region reads it through an input window or
    not at all -/

/-- Argument 0 reaches the end as launched. -/
theorem W8_main_arg0 (c : Dev nD) : Reg.W8 m c (Proc.devRef .tc main_arg0) = m ((c : Thread nD τ).loc main_arg0) :=
  (StableHlo.after_of_writes_sub hostOps2 _ Gen.hostOps2_writes (by decide)).trans <| (Reg.W7_of_ne m c main_arg0 (by decide)).trans <|
    (Reg.W6_of_ne m c main_arg0 (by decide)).trans <| (Gen.V5_of m c main_arg0 (by decide)).trans <| (Gen.V4_of m c main_arg0 (by decide)).trans <|
    (Gen.V3_of m c main_arg0 (by decide)).trans <| (Gen.V2_of m c main_arg0 (by decide)).trans <|
    (Gen.V1_of m c main_arg0 (by decide)).trans rfl

/-- Argument 1 reaches the end as launched. -/
theorem W8_main_arg1 (c : Dev nD) : Reg.W8 m c (Proc.devRef .tc main_arg1) = m ((c : Thread nD τ).loc main_arg1) :=
  (StableHlo.after_of_writes_sub hostOps2 _ Gen.hostOps2_writes (by decide)).trans <| (Reg.W7_of_ne m c main_arg1 (by decide)).trans <|
    (Reg.W6_of_ne m c main_arg1 (by decide)).trans <| (Gen.V5_of m c main_arg1 (by decide)).trans <| (Gen.V4_of m c main_arg1 (by decide)).trans <|
    (Gen.V3_of m c main_arg1 (by decide)).trans <| (Gen.V2_of m c main_arg1 (by decide)).trans <|
    (Gen.V1_of m c main_arg1 (by decide)).trans rfl

/-- Argument 2 reaches the end as launched. -/
theorem W8_main_arg2 (c : Dev nD) : Reg.W8 m c (Proc.devRef .tc main_arg2) = m ((c : Thread nD τ).loc main_arg2) :=
  (StableHlo.after_of_writes_sub hostOps2 _ Gen.hostOps2_writes (by decide)).trans <| (Reg.W7_of_ne m c main_arg2 (by decide)).trans <|
    (Reg.W6_of_ne m c main_arg2 (by decide)).trans <| (Gen.V5_of m c main_arg2 (by decide)).trans <| (Gen.V4_of m c main_arg2 (by decide)).trans <|
    (Gen.V3_of m c main_arg2 (by decide)).trans <| (Gen.V2_of m c main_arg2 (by decide)).trans <|
    (Gen.V1_of m c main_arg2 (by decide)).trans rfl

/-- Argument 3 reaches the end as launched. -/
theorem W8_main_arg3 (c : Dev nD) : Reg.W8 m c (Proc.devRef .tc main_arg3) = m ((c : Thread nD τ).loc main_arg3) :=
  (StableHlo.after_of_writes_sub hostOps2 _ Gen.hostOps2_writes (by decide)).trans <| (Reg.W7_of_ne m c main_arg3 (by decide)).trans <|
    ((Reg.W6_arr m c 3).trans (((Reg.dat0 (Reg.VE0 m) c).arrAt_in 3 rfl _).trans (Reg.A_eq0 (Reg.VE0 m) c 3))).trans <|
    V5_main_arg3 m c

/-- Argument 4 reaches the end as launched. -/
theorem W8_main_arg4 (c : Dev nD) : Reg.W8 m c (Proc.devRef .tc main_arg4) = m ((c : Thread nD τ).loc main_arg4) :=
  (StableHlo.after_of_writes_sub hostOps2 _ Gen.hostOps2_writes (by decide)).trans <| (Reg.W7_of_ne m c main_arg4 (by decide)).trans <|
    ((Reg.W6_arr m c 4).trans (((Reg.dat0 (Reg.VE0 m) c).arrAt_in 4 rfl _).trans (Reg.A_eq0 (Reg.VE0 m) c 4))).trans <|
    V5_main_arg4 m c

/-- Argument 5 reaches the end as launched. -/
theorem W8_main_arg5 (c : Dev nD) : Reg.W8 m c (Proc.devRef .tc main_arg5) = m ((c : Thread nD τ).loc main_arg5) :=
  (StableHlo.after_of_writes_sub hostOps2 _ Gen.hostOps2_writes (by decide)).trans <| ((Reg.W7_arr m c 3).trans (((Reg.dat1 (Reg.VX0 m) c).arrAt_in 3 rfl _).trans (Reg.A_eq1 (Reg.VX0 m) c 3))).trans <|
    VX0_main_arg5 m c

/-- Argument 6 reaches the end as launched. -/
theorem W8_main_arg6 (c : Dev nD) : Reg.W8 m c (Proc.devRef .tc main_arg6) = m ((c : Thread nD τ).loc main_arg6) :=
  (StableHlo.after_of_writes_sub hostOps2 _ Gen.hostOps2_writes (by decide)).trans <| ((Reg.W7_arr m c 4).trans (((Reg.dat1 (Reg.VX0 m) c).arrAt_in 4 rfl _).trans (Reg.A_eq1 (Reg.VX0 m) c 4))).trans <|
    VX0_main_arg6 m c

end Generic

end Cert.KTailBits

end
-- ==== Proof.KFrameBits.lean ====
/-
  The word-level kernel program runs and leaves its arguments as launched.

  The run ends with every unscoped buffer at the last boundary's contents; at an argument's buffer those contents are
  the launch memory's, because no host operation writes an argument and a region reads one only through an input window.
-/
import proofs.«156046_j7490422964881_2_alg».proof.Proof.KTailBits

set_option maxRecDepth 16384

noncomputable section

namespace Cert.KFrameBits

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ) (ρ : Dev nD → PrngReg)

/-- The program runs — every weakly fair execution terminates, nothing faulting — and its seven argument arrays end as
    launched. -/
theorem frame : θ_run (Cert.Kernel.defs (F := F)) (onTc (τ := τ) (Cert.Kernel.main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (Reg.mem_uc main_arg0 (by decide))).trans (Cert.KTailBits.W8_main_arg0 m c),
      (h c _ (Reg.mem_uc main_arg1 (by decide))).trans (Cert.KTailBits.W8_main_arg1 m c),
      (h c _ (Reg.mem_uc main_arg2 (by decide))).trans (Cert.KTailBits.W8_main_arg2 m c),
      (h c _ (Reg.mem_uc main_arg3 (by decide))).trans (Cert.KTailBits.W8_main_arg3 m c),
      (h c _ (Reg.mem_uc main_arg4 (by decide))).trans (Cert.KTailBits.W8_main_arg4 m c),
      (h c _ (Reg.mem_uc main_arg5 (by decide))).trans (Cert.KTailBits.W8_main_arg5 m c),
      (h c _ (Reg.mem_uc main_arg6 (by decide))).trans (Cert.KTailBits.W8_main_arg6 m c)⟩)
    (Reg.run_all m ρ)

end Cert.KFrameBits

end
-- ==== Proof.KernelIdealR0Shared.lean ====
import proofs.«156046_j7490422964881_2_alg».proof.Proof.Gen.KernelIdeal.Launch
import proofs.«156046_j7490422964881_2_alg».proof.Proof.Gen.KernelIdeal.Skeleton
import proofs.«156046_j7490422964881_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The accumulating region (the first pallas_call): what its three control cases share.
The body zeroes its two one-row accumulators at the first point, adds the block's column sums and
sums of squares at every point, and copies the accumulators out at the last point. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Region0

/-- The first branch's condition (is this the first point?), from the grid coordinates. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 80 = 0 :=
  (by decide +kernel : ∀ t : Fin grid0.N, cond0_0 (grid0.coords t) ↔ t.val % 80 = 0)
/-- The second branch's condition (is this the last point?). -/
abbrev cond0_1 (i : grid0.Coords) : Prop := k0_cond2 i = 1#1
theorem hcond0_1 : ∀ t : Fin cfg0.N, cond0_1 (grid0.coords t) ↔ t.val % 80 = 79 :=
  (by decide +kernel : ∀ t : Fin grid0.N, cond0_1 (grid0.coords t) ↔ t.val % 80 = 79)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_C : ∀ t : Fin cfg0.N, cond0_1 (grid0.coords t) → cfg0.idle 7 (grid0.coords t) = false := by decide +kernel

abbrev ms0_0 (t : Fin cfg0.N) : Memref sig .tc .vmem S625x8x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S625x8x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S625x8x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x32x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S625x8x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x32 .f32 := win0_7.stage (cfg0.slots t 7)
abbrev hs0_7 (t : Fin cfg0.N) : (ms0_7 t).IsWhole := hstage0_7 ((cfg0.slots t 7).cast nbuf0_7)
/-- The two accumulators: whole scoped buffers of the kernel's own. -/
abbrev scM0_0 : Memref sig .tc .vmem S1x8x32 .f32 := Memref.whole cc0_scratch0
abbrev scM0_1 : Memref sig .tc .vmem S1x8x32 .f32 := Memref.whole cc0_scratch1
abbrev VS0_0 : View sig .tc .vmem S1x8x32 .f32 := scM0_0.view
abbrev VS0_1 : View sig .tc .vmem S1x8x32 .f32 := scM0_1.view
abbrev VO0_5 : View sig .tc .vmem S625x8x32 .f32 := (Memref.whole cc0_stg5_0 : Memref sig .tc .vmem S625x8x32 .f32).view
abbrev VO0_6 : View sig .tc .vmem S1x8x32 .f32 := (Memref.whole cc0_stg6_0 : Memref sig .tc .vmem S1x8x32 .f32).view
abbrev VO0_7 : View sig .tc .vmem S1x8x32 .f32 := (Memref.whole cc0_stg7_0 : Memref sig .tc .vmem S1x8x32 .f32).view

end Cert.KernelIdeal.Reg

end
-- ==== Proof.KernelIdealR0RunA.lean ====
import proofs.«156046_j7490422964881_2_alg».proof.Proof.KernelIdealR0Shared

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The body in the case of the first point (accumulators reset, nothing copied out): the pieces each
    written buffer ends with, and the proof that on whole memrefs the body runs to the continuation holding
    the inputs as they were and each written buffer with its pieces written. -/
noncomputable def kernelRun0_A (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i)
    (x0 : Vec F S625x8x32 .f32) (x1 : Vec F S625x8x32 .f32) (x2 : Vec F S625x8x32 .f32) (x3 : Vec F S3x32x32 .f32) (x4 : Vec F S32 .f32) :
    Σ' (L5 : List (View.Piece (Elt F) S625x8x32 .f32)) (LS0 : List (View.Piece (Elt F) S1x8x32 .f32)), { LS1 : List (View.Piece (Elt F) S1x8x32 .f32) //
      ∀ (xi6 : Vec F S1x8x32 .f32) (xi7 : Vec F S1x8x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Reg

end
-- ==== Proof.KernelIdealR0RunB.lean ====
import proofs.«156046_j7490422964881_2_alg».proof.Proof.KernelIdealR0RunA

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The body in the case of a middle point (nothing reset, nothing copied out): the pieces each
    written buffer ends with, and the proof that on whole memrefs the body runs to the continuation holding
    the inputs as they were and each written buffer with its pieces written. -/
noncomputable def kernelRun0_B (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i)
    (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) :
    Σ' (L5 : List (View.Piece (Elt F) S625x8x32 .f32)) (LS0 : List (View.Piece (Elt F) S1x8x32 .f32)), { LS1 : List (View.Piece (Elt F) S1x8x32 .f32) //
      ∀ (xi6 : Vec F S1x8x32 .f32) (xi7 : Vec F S1x8x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Reg

end
-- ==== Proof.KernelIdealR0RunC.lean ====
import proofs.«156046_j7490422964881_2_alg».proof.Proof.KernelIdealR0RunB

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The body in the case of the last point (nothing reset, accumulators copied out): the pieces each
    written buffer ends with, and the proof that on whole memrefs the body runs to the continuation holding
    the inputs as they were and each written buffer with its pieces written. -/
noncomputable def kernelRun0_C (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i)
    (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) :
    Σ' (L5 : List (View.Piece (Elt F) S625x8x32 .f32)) (L6 : List (View.Piece (Elt F) S1x8x32 .f32)) (L7 : List (View.Piece (Elt F) S1x8x32 .f32)) (LS0 : List (View.Piece (Elt F) S1x8x32 .f32)), { LS1 : List (View.Piece (Elt F) S1x8x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Reg

end
-- ==== Proof.KernelIdealR0Frame.lean ====
import proofs.«156046_j7490422964881_2_alg».proof.Proof.KernelIdealR0RunC

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The accumulating region: what its buffers hold point by point, its proof data, its body obligation. -/

theorem cover0_A_5 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i) (x0 : Vec F S625x8x32 .f32) (x1 : Vec F S625x8x32 .f32) (x2 : Vec F S625x8x32 .f32) (x3 : Vec F S3x32x32 .f32) (x4 : Vec F S32 .f32) (y : S625x8x32.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S625x8x32.size (by sl_kernel_rfl) y
def out0_A_5 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i) (x0 : Vec F S625x8x32 .f32) (x1 : Vec F S625x8x32 .f32) (x2 : Vec F S625x8x32 .f32) (x3 : Vec F S3x32x32 .f32) (x4 : Vec F S32 .f32) : Vec F S625x8x32 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)

theorem scover0_A_0 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i) (x0 : Vec F S625x8x32 .f32) (x1 : Vec F S625x8x32 .f32) (x2 : Vec F S625x8x32 .f32) (x3 : Vec F S3x32x32 .f32) (x4 : Vec F S32 .f32) (y : S1x8x32.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.1 S1x8x32.size (by sl_kernel_rfl) y
def sout0_A_0 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i) (x0 : Vec F S625x8x32 .f32) (x1 : Vec F S625x8x32 .f32) (x2 : Vec F S625x8x32 .f32) (x3 : Vec F S3x32x32 .f32) (x4 : Vec F S32 .f32) : Vec F S1x8x32 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.1)

theorem scover0_A_1 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i) (x0 : Vec F S625x8x32 .f32) (x1 : Vec F S625x8x32 .f32) (x2 : Vec F S625x8x32 .f32) (x3 : Vec F S3x32x32 .f32) (x4 : Vec F S32 .f32) (y : S1x8x32.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.1 S1x8x32.size (by sl_kernel_rfl) y
def sout0_A_1 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i) (x0 : Vec F S625x8x32 .f32) (x1 : Vec F S625x8x32 .f32) (x2 : Vec F S625x8x32 .f32) (x3 : Vec F S3x32x32 .f32) (x4 : Vec F S32 .f32) : Vec F S1x8x32 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.1)

theorem cover0_B_5 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S625x8x32.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).1 S625x8x32.size (by sl_kernel_rfl) y
def out0_B_5 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S625x8x32 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)

theorem scover0_B_0 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S1x8x32.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1 S1x8x32.size (by sl_kernel_rfl) y
def sout0_B_0 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S1x8x32 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1)

theorem scover0_B_1 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S1x8x32.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1 S1x8x32.size (by sl_kernel_rfl) y
def sout0_B_1 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S1x8x32 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1)

theorem cover0_C_5 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S625x8x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).1 S625x8x32.size (by sl_kernel_rfl) y
def out0_C_5 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S625x8x32 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)

theorem cover0_C_6 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S1x8x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 S1x8x32.size (by sl_kernel_rfl) y
def out0_C_6 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S1x8x32 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)

theorem cover0_C_7 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S1x8x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 S1x8x32.size (by sl_kernel_rfl) y
def out0_C_7 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S1x8x32 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)

theorem scover0_C_0 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S1x8x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x8x32.size (by sl_kernel_rfl) y
def sout0_C_0 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S1x8x32 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)

theorem scover0_C_1 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) (y : S1x8x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x8x32.size (by sl_kernel_rfl) y
def sout0_C_1 (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : Vec F S1x8x32 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

section Region0
variable (V : (c : Dev nD) → (b : Ref sig .tc) → Buf (Elt F) ((c : Thread nD τ).loc b))

/-- THE ACCUMULATION. After the body at position `n`: the raw output block, the two one-row outputs (written at the
    last point only; elsewhere a placeholder nothing consults), and the two accumulators, each from what the point
    before left in the accumulators. -/
def outsAt0 (c : Dev nD) : (n : ℕ) → n < cfg0.N → Vec F S625x8x32 .f32 × Vec F S1x8x32 .f32 × Vec F S1x8x32 .f32 × Vec F S1x8x32 .f32 × Vec F S1x8x32 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 80 = 0 then
      False.elim (by have hN : n + 1 < 80 := lt_of_lt_of_eq hn (show cfg0.N = 80 from N_0); omega)
    else
      if h1 : (n + 1) % 80 = 79 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 80 = 0) (h1 : ¬t.val % 80 = 79) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (by exfalso; have hN : n + 1 < 80 := lt_of_lt_of_eq hn (show cfg0.N = 80 from N_0); (try dsimp only at h0); omega)

theorem outsAt0_B (c : Dev nD) (t : Fin cfg0.N) (h0 : ¬t.val % 80 = 0) (h1 : ¬t.val % 80 = 79) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 80 = 0) (h1 : t.val % 80 = 79) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The other scoped buffers (the second region's staging buffers), each whole at some contents. -/
def Rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest8 c) ∗ (∃ r, prngReg c r)) := by
  unfold Pipeline.ΦA Rest8; rw [scopedRest0_eq]; simp only [scM0_0, scM0_1, owns_whole]; try rfl

/-- The region invariant before position `n`: before the first point the class's; afterwards each accumulator at what
    the point before left in it, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ Rest8 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ Rest8 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ Rest8 c) ∗ (∃ r, prngReg c r)) := by
  cases n with
  | zero => exact absurd rfl hz
  | succ n => rfl

/-- The region's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

end Region0

end Cert.KernelIdeal.Reg

end
-- ==== Proof.KernelIdealR0Body.lean ====
import proofs.«156046_j7490422964881_2_alg».proof.Proof.KernelIdealR0Frame

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The accumulating region: the body obligation at a generic point, case by case. -/

section Region0
variable (V : (c : Dev nD) → (b : Ref sig .tc) → Buf (Elt F) ((c : Thread nD τ).loc b))

set_option maxHeartbeats 16000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 80 := lt_of_lt_of_eq t.isLt (show cfg0.N = 80 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val % 80 = 0
  · by_cases h1 : t.val % 80 = 79
    · exfalso; omega
    ·
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_A V c t h0 h1]
      unfold out0_A_5 sout0_A_0 sout0_A_1; (try dsimp only)
      have hz : t.val = 0 := by omega
      rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]; · iexists _; iexact H6
      iexists _; iexact H7
  · by_cases h1 : t.val % 80 = 79
    ·
      rw [show (dat0 V c).leavesExact 6 t = owns (c : Thread nD τ) (ms0_6 t) fullShare ((dat0 V c).after 6 t) from by
        unfold Dat.leavesExact; rw [liveAt0_6_C t ((hcond0_1 t).mpr h1)], after0_6]
      rw [show (dat0 V c).leavesExact 7 t = owns (c : Thread nD τ) (ms0_7 t) fullShare ((dat0 V c).after 7 t) from by
        unfold Dat.leavesExact; rw [liveAt0_7_C t ((hcond0_1 t).mpr h1)], after0_7]
      rw [outsAt0_C V c t h0 h1]
      unfold out0_C_5 out0_C_6 out0_C_7 sout0_C_0 sout0_C_1; (try dsimp only)
      have hz : t.val ≠ 0 := by omega
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _)
    ·
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_B V c t h0 h1]
      unfold out0_B_5 sout0_B_0 sout0_B_1; (try dsimp only)
      have hz : t.val ≠ 0 := by omega
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _)
      isplitl [H6]; · iexists _; iexact H6
      iexists _; iexact H7

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 80 := N_0; omega)

end Region0

end Cert.KernelIdeal.Reg

end
-- ==== Proof.KernelIdealR1.lean ====
import proofs.«156046_j7490422964881_2_alg».proof.Proof.Gen.KernelIdeal.Launch
import proofs.«156046_j7490422964881_2_alg».proof.Proof.Gen.KernelIdeal.Skeleton
import proofs.«156046_j7490422964881_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The normalising region (the second pallas_call), at the buffer contents `V` it is entered from.
Every point loads the raw block, the two one-row statistics and the affine pair whole, and stores one
pointwise expression of them over the whole output block. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rB1 : Rect S625x8x32 := Rect.unit (s := S625x8x32) ![0, 0, 0] S625x8x32.size inb_S625x8x32_S625x8x32_0_0_0
abbrev rS1 : Rect S1x8x32 := Rect.unit (s := S1x8x32) ![0, 0, 0] S1x8x32.size inb_S1x8x32_S1x8x32_0_0_0
abbrev rV1 : Rect S32 := Rect.unit (s := S32) ![0] S32.size inb_S32_S32_0

/-- The output block after the body: its one store, of the normalised, scaled, shifted, rectified block. -/
def out1_5 (x0 : Vec F S625x8x32 .f32) (x1 : Vec F S1x8x32 .f32) (x2 : Vec F S1x8x32 .f32) (x3 : Vec F S32 .f32) (x4 : Vec F S32 .f32) : Vec F S625x8x32 .f32 :=
  View.canon [⟨rB1, k1_pay1 (View.ld x1 rS1) (View.ld x2 rS1) (View.ld x3 rV1) (View.ld x4 rV1) (View.ld x0 rB1)⟩]

theorem cover1_5 (p0 : Vec F S625x8x32 .f32) (y : S625x8x32.Idx) :
    ∃ pc ∈ ([⟨rB1, p0⟩] : List (View.Piece (Elt F) S625x8x32 .f32)), y ∈ pc.1.set :=
  View.cover_of_tiled [⟨rB1, p0⟩] S625x8x32.size (by rfl) y

set_option maxHeartbeats 4000000 in
/-- The body on whole staging memrefs: the inputs stay, the output holds `out1_5` of them. -/
theorem sound_kernel1 (c : Dev nD) (E : Set ℕ) (i : grid1.Coords) (arg1 : Memref sig .tc .vmem S625x8x32 .f32) (harg1 : arg1.IsWhole) (arg2 : Memref sig .tc .vmem S1x8x32 .f32) (harg2 : arg2.IsWhole) (arg3 : Memref sig .tc .vmem S1x8x32 .f32) (harg3 : arg3.IsWhole) (arg4 : Memref sig .tc .vmem S32 .f32) (harg4 : arg4.IsWhole) (arg5 : Memref sig .tc .vmem S32 .f32) (harg5 : arg5.IsWhole) (arg6 : Memref sig .tc .vmem S625x8x32 .f32) (harg6 : arg6.IsWhole)
    (x0 : Vec F S625x8x32 .f32) (x1 : Vec F S1x8x32 .f32) (x2 : Vec F S1x8x32 .f32) (x3 : Vec F S32 .f32) (x4 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data: the arrays as entered; after the body each input's buffer at its block, the output's at
    `out1_5` of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Region1

end Cert.KernelIdeal.Reg

end
-- ==== Proof.KernelIdealRun.lean ====
import proofs.«156046_j7490422964881_2_alg».proof.Proof.KernelIdealR0Body
import proofs.«156046_j7490422964881_2_alg».proof.Proof.KernelIdealR1
import proofs.«156046_j7490422964881_2_alg».proof.Proof.Gen.KernelIdeal.Regions

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of @main: host stretches, the accumulating region, the normalising region, the host tail.
At each boundary every unscoped buffer is held at named contents: the launch memory, then each host stretch's
`StableHlo.after`, then each region's arrays at what its write-backs leave. -/

variable (m : (ℓ : Loc nD τ sig) → Buf (Elt F) ℓ) (ρ : Dev nD → PrngReg)

/-- The first region's entry contents (after the five host stretches), read at the TensorCore's references. -/
abbrev VE0 : (c : Dev nD) → (b : Ref sig .tc) → Buf (Elt F) ((c : Thread nD τ).loc b) := fun c b => Gen.V5 m c b
/-- At the first region's exit: its arrays at what the pipeline leaves, every other buffer as entered. -/
def W6 (c : Dev nD) : Valuation τ sig (Elt F) :=
  Pipeline.withArrays spec0 c (Gen.V5 m c) fun w => (dat0 (VE0 m) c).arrAt w cfg0.N
theorem W6_arr (c : Dev nD) (w : Fin cfg0.W) :
    W6 m c (Proc.devRef .tc (Pipeline.arrRef spec0 w)) = (dat0 (VE0 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = Gen.V5 m c (Proc.devRef .tc b) := by
  unfold W6; exact Pipeline.withArrays_of_ne spec0 c _ _ b hb
abbrev VX0 : (c : Dev nD) → (b : Ref sig .tc) → Buf (Elt F) ((c : Thread nD τ).loc b) := fun c b => W6 m c b
theorem hF0 (c : Dev nD) (w : Fin cfg0.W) : (dat0 (VE0 m) c).arrAt w cfg0.N = VX0 m c (Pipeline.arrRef spec0 w) :=
  (W6_arr m c w).symm
theorem hrest0 (c : Dev nD) : ∀ b, b ∉ Finset.univ.image (Pipeline.arrRef spec0) → VX0 m c b = VE0 m c b :=
  fun b hb => W6_of_ne m c b fun w e => hb (Finset.mem_image.mpr ⟨w, Finset.mem_univ _, e⟩)

/-- At the second region's exit. -/
def W7 (c : Dev nD) : Valuation τ sig (Elt F) :=
  Pipeline.withArrays spec1 c (W6 m c) fun w => (dat1 (VX0 m) c).arrAt w cfg1.N
theorem W7_arr (c : Dev nD) (w : Fin cfg1.W) :
    W7 m c (Proc.devRef .tc (Pipeline.arrRef spec1 w)) = (dat1 (VX0 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev VX1 : (c : Dev nD) → (b : Ref sig .tc) → Buf (Elt F) ((c : Thread nD τ).loc b) := fun c b => W7 m c b
theorem hF1 (c : Dev nD) (w : Fin cfg1.W) : (dat1 (VX0 m) c).arrAt w cfg1.N = VX1 m c (Pipeline.arrRef spec1 w) :=
  (W7_arr m c w).symm
theorem hrest1 (c : Dev nD) : ∀ b, b ∉ Finset.univ.image (Pipeline.arrRef spec1) → VX1 m c b = VX0 m c b :=
  fun b hb => W7_of_ne m c b fun w e => hb (Finset.mem_image.mpr ⟨w, Finset.mem_univ _, e⟩)

/-- After the host tail. -/
abbrev W8 : Dev nD → Valuation τ sig (Elt F) := fun c => StableHlo.after hostOps2 (W7 m c)

abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VX0 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

set_option backward.isDefEq.respectTransparency.types false in
/-- Region 0 over the thread state: entered from every unscoped buffer at `Gen.V5`, left at `W6`. Its arrays are
    split out of the unscoped buffers and put back at the exit contents; the generator register goes into the region's
    invariant and comes back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (show (pdats m 0 c).Φ (Fin.last _) ⊢ (Pipeline.ΦA spec0 c : sProp 𝕄) from hout0 (VE0 m) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W6`, left at `W7`. Its arrays are
    split out of the unscoped buffers and put back at the exit contents; the generator register goes into the region's
    invariant and comes back; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VX0 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (VX0 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VX0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VX0 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's eight segments in order. -/
abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .region (reg0 m),
    .region (reg1 m),
    .host (hseg hostOps2 hostOps2_sub Gen.hostOps2_fresh (W7 m)) ]

set_option backward.isDefEq.respectTransparency.types false in
set_option maxHeartbeats 4000000 in
/-- THE RUN. From any memory with zero counters every weakly fair execution of @main terminates, nothing faulting,
    and the final memory holds every unscoped buffer at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := fun c => ⟨.rfl, .rfl, .rfl, .rfl, .rfl, .rfl, .rfl, .rfl,
      (show (iprop(StableHlo.held (c : Thread nD τ) (Pipeline.ucRefs τ sig) (W8 m c) ∗ R c) : sProp 𝕄)
          ⊢ iprop(Tₙ m c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.KernelIdeal.Reg

end
-- ==== Proof.KTail.lean ====
/-
  The last boundary of the run, read back.

  The program is five stretches of host operations, the accumulating region, the normalising region and a host tail
  (a reshape [50000, 8, 32] → [50000, 2, 4, 32], then a transpose to [2, 4, 50000, 32]). No host operation writes an
  argument, and a region touches an argument only through an input window, whose array is never written back: so each
  of the seven arguments ends as launched, and the regions read the weights, the bias, the scale and the shift as
  launched. The result buffer ends holding the transpose of the reshape of what the normalising region leaves in its
  output array; the reference ends with the same reshape and transpose of its rectified array, so the two results
  agree as soon as those two arrays agree entry by entry.
-/
import proofs.«156046_j7490422964881_2_alg».proof.Proof.KernelIdealRun
import proofs.«156046_j7490422964881_2_alg».proof.Proof.Gen.ReferenceIdeal.Read
import Idealize.ShloMosaic.Lib.StableHlo.Run
import Idealize.ShloMosaic.Lib.ValueIdx

set_option maxRecDepth 16384

noncomputable section

namespace Cert.KTail

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

section Generic

variable {F : FTy → Type} [FloatOps F]
variable (m : (ℓ : Loc nD τ sig) → Buf (Elt F) ℓ)

/-! ### What the two regions read of the arguments is what was launched -/

theorem V5_main_arg3 (c : Dev nD) : Gen.V5 m c (Proc.devRef .tc main_arg3) = m ((c : Thread nD τ).loc main_arg3) :=
  (Gen.V5_of m c main_arg3 (by decide)).trans <| (Gen.V4_of m c main_arg3 (by decide)).trans <|
    (Gen.V3_of m c main_arg3 (by decide)).trans <| (Gen.V2_of m c main_arg3 (by decide)).trans <|
    (Gen.V1_of m c main_arg3 (by decide)).trans rfl
theorem V5_main_arg4 (c : Dev nD) : Gen.V5 m c (Proc.devRef .tc main_arg4) = m ((c : Thread nD τ).loc main_arg4) :=
  (Gen.V5_of m c main_arg4 (by decide)).trans <| (Gen.V4_of m c main_arg4 (by decide)).trans <|
    (Gen.V3_of m c main_arg4 (by decide)).trans <| (Gen.V2_of m c main_arg4 (by decide)).trans <|
    (Gen.V1_of m c main_arg4 (by decide)).trans rfl
theorem V5_main_arg5 (c : Dev nD) : Gen.V5 m c (Proc.devRef .tc main_arg5) = m ((c : Thread nD τ).loc main_arg5) :=
  (Gen.V5_of m c main_arg5 (by decide)).trans <| (Gen.V4_of m c main_arg5 (by decide)).trans <|
    (Gen.V3_of m c main_arg5 (by decide)).trans <| (Gen.V2_of m c main_arg5 (by decide)).trans <|
    (Gen.V1_of m c main_arg5 (by decide)).trans rfl
theorem V5_main_arg6 (c : Dev nD) : Gen.V5 m c (Proc.devRef .tc main_arg6) = m ((c : Thread nD τ).loc main_arg6) :=
  (Gen.V5_of m c main_arg6 (by decide)).trans <| (Gen.V4_of m c main_arg6 (by decide)).trans <|
    (Gen.V3_of m c main_arg6 (by decide)).trans <| (Gen.V2_of m c main_arg6 (by decide)).trans <|
    (Gen.V1_of m c main_arg6 (by decide)).trans rfl

/-- The weights as the accumulating region finds them. -/
theorem VE0_main_arg3 (c : Dev nD) : Reg.VE0 m c main_arg3 = m ((c : Thread nD τ).loc main_arg3) := V5_main_arg3 m c
/-- The bias as the accumulating region finds it. -/
theorem VE0_main_arg4 (c : Dev nD) : Reg.VE0 m c main_arg4 = m ((c : Thread nD τ).loc main_arg4) := V5_main_arg4 m c
/-- The scale as the normalising region finds it. -/
theorem VX0_main_arg5 (c : Dev nD) : Reg.VX0 m c main_arg5 = m ((c : Thread nD τ).loc main_arg5) :=
  (Reg.W6_of_ne m c main_arg5 (by decide)).trans (V5_main_arg5 m c)
/-- The shift as the normalising region finds it. -/
theorem VX0_main_arg6 (c : Dev nD) : Reg.VX0 m c main_arg6 = m ((c : Thread nD τ).loc main_arg6) :=
  (Reg.W6_of_ne m c main_arg6 (by decide)).trans (V5_main_arg6 m c)

/-! ### The arguments end as launched: no host operation writes one, and a region reads it through an input window or
    not at all -/

/-- Argument 0 reaches the end as launched. -/
theorem W8_main_arg0 (c : Dev nD) : Reg.W8 m c (Proc.devRef .tc main_arg0) = m ((c : Thread nD τ).loc main_arg0) :=
  (StableHlo.after_of_writes_sub hostOps2 _ Gen.hostOps2_writes (by decide)).trans <| (Reg.W7_of_ne m c main_arg0 (by decide)).trans <|
    (Reg.W6_of_ne m c main_arg0 (by decide)).trans <| (Gen.V5_of m c main_arg0 (by decide)).trans <| (Gen.V4_of m c main_arg0 (by decide)).trans <|
    (Gen.V3_of m c main_arg0 (by decide)).trans <| (Gen.V2_of m c main_arg0 (by decide)).trans <|
    (Gen.V1_of m c main_arg0 (by decide)).trans rfl

/-- Argument 1 reaches the end as launched. -/
theorem W8_main_arg1 (c : Dev nD) : Reg.W8 m c (Proc.devRef .tc main_arg1) = m ((c : Thread nD τ).loc main_arg1) :=
  (StableHlo.after_of_writes_sub hostOps2 _ Gen.hostOps2_writes (by decide)).trans <| (Reg.W7_of_ne m c main_arg1 (by decide)).trans <|
    (Reg.W6_of_ne m c main_arg1 (by decide)).trans <| (Gen.V5_of m c main_arg1 (by decide)).trans <| (Gen.V4_of m c main_arg1 (by decide)).trans <|
    (Gen.V3_of m c main_arg1 (by decide)).trans <| (Gen.V2_of m c main_arg1 (by decide)).trans <|
    (Gen.V1_of m c main_arg1 (by decide)).trans rfl

/-- Argument 2 reaches the end as launched. -/
theorem W8_main_arg2 (c : Dev nD) : Reg.W8 m c (Proc.devRef .tc main_arg2) = m ((c : Thread nD τ).loc main_arg2) :=
  (StableHlo.after_of_writes_sub hostOps2 _ Gen.hostOps2_writes (by decide)).trans <| (Reg.W7_of_ne m c main_arg2 (by decide)).trans <|
    (Reg.W6_of_ne m c main_arg2 (by decide)).trans <| (Gen.V5_of m c main_arg2 (by decide)).trans <| (Gen.V4_of m c main_arg2 (by decide)).trans <|
    (Gen.V3_of m c main_arg2 (by decide)).trans <| (Gen.V2_of m c main_arg2 (by decide)).trans <|
    (Gen.V1_of m c main_arg2 (by decide)).trans rfl

/-- Argument 3 reaches the end as launched. -/
theorem W8_main_arg3 (c : Dev nD) : Reg.W8 m c (Proc.devRef .tc main_arg3) = m ((c : Thread nD τ).loc main_arg3) :=
  (StableHlo.after_of_writes_sub hostOps2 _ Gen.hostOps2_writes (by decide)).trans <| (Reg.W7_of_ne m c main_arg3 (by decide)).trans <|
    ((Reg.W6_arr m c 3).trans (((Reg.dat0 (Reg.VE0 m) c).arrAt_in 3 rfl _).trans (Reg.A_eq0 (Reg.VE0 m) c 3))).trans <|
    V5_main_arg3 m c

/-- Argument 4 reaches the end as launched. -/
theorem W8_main_arg4 (c : Dev nD) : Reg.W8 m c (Proc.devRef .tc main_arg4) = m ((c : Thread nD τ).loc main_arg4) :=
  (StableHlo.after_of_writes_sub hostOps2 _ Gen.hostOps2_writes (by decide)).trans <| (Reg.W7_of_ne m c main_arg4 (by decide)).trans <|
    ((Reg.W6_arr m c 4).trans (((Reg.dat0 (Reg.VE0 m) c).arrAt_in 4 rfl _).trans (Reg.A_eq0 (Reg.VE0 m) c 4))).trans <|
    V5_main_arg4 m c

/-- Argument 5 reaches the end as launched. -/
theorem W8_main_arg5 (c : Dev nD) : Reg.W8 m c (Proc.devRef .tc main_arg5) = m ((c : Thread nD τ).loc main_arg5) :=
  (StableHlo.after_of_writes_sub hostOps2 _ Gen.hostOps2_writes (by decide)).trans <| ((Reg.W7_arr m c 3).trans (((Reg.dat1 (Reg.VX0 m) c).arrAt_in 3 rfl _).trans (Reg.A_eq1 (Reg.VX0 m) c 3))).trans <|
    VX0_main_arg5 m c

/-- Argument 6 reaches the end as launched. -/
theorem W8_main_arg6 (c : Dev nD) : Reg.W8 m c (Proc.devRef .tc main_arg6) = m ((c : Thread nD τ).loc main_arg6) :=
  (StableHlo.after_of_writes_sub hostOps2 _ Gen.hostOps2_writes (by decide)).trans <| ((Reg.W7_arr m c 4).trans (((Reg.dat1 (Reg.VX0 m) c).arrAt_in 4 rfl _).trans (Reg.A_eq1 (Reg.VX0 m) c 4))).trans <|
    VX0_main_arg6 m c

/-! ### The result: the host tail reshapes and transposes what the normalising region leaves -/

/-- The normalised array is the normalising region's output array after its last point. -/
theorem W7_main_v65 (c : Dev nD) : Reg.W7 m c (Proc.devRef .tc main_v65) = (Reg.dat1 (Reg.VX0 m) c).arrAt 5 cfg1.N :=
  Reg.W7_arr m c 5
/-- The raw array is the accumulating region's first output array after its last point. -/
theorem W6_main_v64_0 (c : Dev nD) : Reg.W6 m c (Proc.devRef .tc main_v64_0) = (Reg.dat0 (Reg.VE0 m) c).arrAt 5 cfg0.N :=
  Reg.W6_arr m c 5
/-- The column sums are its second. -/
theorem W6_main_v64_1 (c : Dev nD) : Reg.W6 m c (Proc.devRef .tc main_v64_1) = (Reg.dat0 (Reg.VE0 m) c).arrAt 6 cfg0.N :=
  Reg.W6_arr m c 6
/-- The column sums of squares are its third. -/
theorem W6_main_v64_2 (c : Dev nD) : Reg.W6 m c (Proc.devRef .tc main_v64_2) = (Reg.dat0 (Reg.VE0 m) c).arrAt 7 cfg0.N :=
  Reg.W6_arr m c 7

/-- The result buffer: the normalised array [50000, 8, 32] reshaped to [50000, 2, 4, 32] and transposed to [2, 4, 50000, 32]. -/
theorem W8_result (c : Dev nD) : Reg.W8 m c (Proc.devRef .tc main_v67)
    = transpose S2x4x50000x32 [1, 2, 0, 3]
        (shapeCast S50000x2x4x32 (Reg.W7 m c (Proc.devRef .tc main_v65) : S50000x8x32.Idx → Elt F .f32)
          shapeCasts_S50000x8x32_S50000x2x4x32)
        transposes_S50000x2x4x32_S2x4x50000x32_1_2_0_3 := by
  show StableHlo.after hostOps2 (Reg.W7 m c) (Proc.devRef .tc main_v67) = _
  after_results
  rfl

end Generic

/-! ### The two tails agree -/

open Idealize.ShloMosaic.ValueIdx in
/-- If the normalised array is the reference's rectified array entry by entry, the result buffer is the reference's result:
    both apply the same reshape and the same transpose. -/
theorem tails_agree (m : (ℓ : Loc nD τ sig) → Buf (Elt Ideal) ℓ) (c : Dev nD)
    (x0 : (⟨Cert.ReferenceIdeal.S2x4x50000x32, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S3x32x32, .f32⟩ : BufTy).Contents (Elt Ideal))
    (x4 x5 x6 : (⟨Cert.ReferenceIdeal.S32, .f32⟩ : BufTy).Contents (Elt Ideal))
    (h : ∀ (n : Fin 50000) (j : Fin 8) (o : Fin 32),
      (Reg.W7 m c (Proc.devRef .tc main_v65) : S50000x8x32.Idx → EReal) (ix3 n j o)
        = Cert.ReferenceIdeal.Read.val_main_v102 (F := Ideal) x0 x1 x2 x3 x4 x5 x6 (ix3 n j o)) :
    Reg.W8 m c (Proc.devRef .tc main_v67) = Cert.ReferenceIdeal.Read.val_main_v104 (F := Ideal) x0 x1 x2 x3 x4 x5 x6 := by
  have e : (Reg.W7 m c (Proc.devRef .tc main_v65) : S50000x8x32.Idx → EReal)
      = Cert.ReferenceIdeal.Read.val_main_v102 (F := Ideal) x0 x1 x2 x3 x4 x5 x6 :=
    funext fun i => by rw [eq_ix3 i]; exact h _ _ _
  rw [W8_result, e]
  unfold Cert.ReferenceIdeal.Read.val_main_v104 Cert.ReferenceIdeal.Read.val_main_v103
  rfl

end Cert.KTail

end
-- ==== Proof.KFrameIdeal.lean ====
/-
  The idealized kernel program runs and leaves its arguments as launched.

  The run ends with every unscoped buffer at the last boundary's contents; at an argument's buffer those contents are
  the launch memory's, because no host operation writes an argument and a region reads one only through an input window.
-/
import proofs.«156046_j7490422964881_2_alg».proof.Proof.KTail

set_option maxRecDepth 16384

noncomputable section

namespace Cert.KFrameIdeal

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- The program runs — every weakly fair execution terminates, nothing faulting — and its seven argument arrays end as
    launched. -/
theorem frame : θ_run (Cert.KernelIdeal.defs (F := F)) (onTc (τ := τ) (Cert.KernelIdeal.main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (Reg.mem_uc main_arg0 (by decide))).trans (Cert.KTail.W8_main_arg0 m c),
      (h c _ (Reg.mem_uc main_arg1 (by decide))).trans (Cert.KTail.W8_main_arg1 m c),
      (h c _ (Reg.mem_uc main_arg2 (by decide))).trans (Cert.KTail.W8_main_arg2 m c),
      (h c _ (Reg.mem_uc main_arg3 (by decide))).trans (Cert.KTail.W8_main_arg3 m c),
      (h c _ (Reg.mem_uc main_arg4 (by decide))).trans (Cert.KTail.W8_main_arg4 m c),
      (h c _ (Reg.mem_uc main_arg5 (by decide))).trans (Cert.KTail.W8_main_arg5 m c),
      (h c _ (Reg.mem_uc main_arg6 (by decide))).trans (Cert.KTail.W8_main_arg6 m c)⟩)
    (Reg.run_all m ρ)

/-- The same run with the result named: the result buffer ends at the last boundary's contents, the arguments as launched. -/
theorem run_value : θ_run (Cert.KernelIdeal.defs (F := F)) (onTc (τ := τ) (Cert.KernelIdeal.main (F := F))) ⟨m, fun _ => 0, ρ⟩ (fun r => ∀ c : Dev nD,
      r.2.mem ((c.tc : Thread nD τ).loc main_v67) = Reg.W8 m c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (Reg.mem_uc main_v67 (by decide)),
      (h c _ (Reg.mem_uc main_arg0 (by decide))).trans (Cert.KTail.W8_main_arg0 m c),
      (h c _ (Reg.mem_uc main_arg1 (by decide))).trans (Cert.KTail.W8_main_arg1 m c),
      (h c _ (Reg.mem_uc main_arg2 (by decide))).trans (Cert.KTail.W8_main_arg2 m c),
      (h c _ (Reg.mem_uc main_arg3 (by decide))).trans (Cert.KTail.W8_main_arg3 m c),
      (h c _ (Reg.mem_uc main_arg4 (by decide))).trans (Cert.KTail.W8_main_arg4 m c),
      (h c _ (Reg.mem_uc main_arg5 (by decide))).trans (Cert.KTail.W8_main_arg5 m c),
      (h c _ (Reg.mem_uc main_arg6 (by decide))).trans (Cert.KTail.W8_main_arg6 m c)⟩)
    (Reg.run_all m ρ)

end Cert.KFrameIdeal

end
-- ==== Proof.KernelIdealPieces.lean ====
import proofs.«156046_j7490422964881_2_alg».proof.Proof.KernelIdealR0Frame
import Idealize.ShloMosaic.Lib.Pipeline.Value

set_option maxRecDepth 16384
set_option maxHeartbeats 2000000
noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # What each control case of the accumulating body leaves, as the body's arithmetic of what it loaded:
the raw block is one expression of the three input blocks, the weights' three slabs and the bias; each
accumulator is what it held (zero at the first point) plus the block's column sums (of squares). -/

theorem hz3 : (![0, 0, 0] : Fin 3 → Nat) = fun _ => 0 := funext fun a => by fin_cases a <;> rfl
theorem hz1 : (![0] : Fin 1 → Nat) = fun _ => 0 := funext fun a => by fin_cases a <;> rfl

/-- The three [1,32,32] slabs of the weights the body loads. -/
abbrev W0 (x3 : Vec F S3x32x32 .f32) : Vec F S1x32x32 .f32 := View.ld x3 (Rect.unit (s := S3x32x32) ![0, 0, 0] S1x32x32.size inb_S3x32x32_S1x32x32_0_0_0)
abbrev W1 (x3 : Vec F S3x32x32 .f32) : Vec F S1x32x32 .f32 := View.ld x3 (Rect.unit (s := S3x32x32) ![1, 0, 0] S1x32x32.size inb_S3x32x32_S1x32x32_1_0_0)
abbrev W2 (x3 : Vec F S3x32x32 .f32) : Vec F S1x32x32 .f32 := View.ld x3 (Rect.unit (s := S3x32x32) ![2, 0, 0] S1x32x32.size inb_S3x32x32_S1x32x32_2_0_0)
/-- The three products' sum over the block (before the bias). -/
def P6 (x0 x1 x2 : Vec F S625x8x32 .f32) (x3 : Vec F S3x32x32 .f32) : FVec F S625x8x32 .f32 :=
  k0_pay6 x0 (W0 x3) x1 (W1 x3) x2 (W2 x3)

theorem out0_A_5_eq (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i) (x0 : Vec F S625x8x32 .f32) (x1 : Vec F S625x8x32 .f32) (x2 : Vec F S625x8x32 .f32) (x3 : Vec F S3x32x32 .f32) (x4 : Vec F S32 .f32) : out0_A_5 c i arg1 harg1 arg2 harg2 arg3 harg3 arg4 harg4 arg5 harg5 arg6 harg6 arg7 harg7 arg8 harg8 arg9 harg9 arg10 harg10 hc0 hc1 x0 x1 x2 x3 x4 = k0_pay1 (P6 x0 x1 x2 x3) x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero hz3]
  (try simp only [View.readCov_unit_zero (S := S1x8x32) _ hz3])
  unfold P6 W0 W1 W2
  simp only [View.readAt_eq_ld, harg1.read_unread, harg2.read_unread, harg3.read_unread, harg4.read_unread, harg5.read_unread, harg9.read_unread, harg10.read_unread, View.ld_unit_zero (S := S625x8x32) hz3, View.ld_unit_zero (S := S1x8x32) hz3, View.ld_unit_zero (S := S32) hz1]
theorem sout0_A_0_eq (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i) (x0 : Vec F S625x8x32 .f32) (x1 : Vec F S625x8x32 .f32) (x2 : Vec F S625x8x32 .f32) (x3 : Vec F S3x32x32 .f32) (x4 : Vec F S32 .f32) : sout0_A_0 c i arg1 harg1 arg2 harg2 arg3 harg3 arg4 harg4 arg5 harg5 arg6 harg6 arg7 harg7 arg8 harg8 arg9 harg9 arg10 harg10 hc0 hc1 x0 x1 x2 x3 x4 = k0_pay2 (P6 x0 x1 x2 x3) x4 (k0_pay4 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x8x32) hz3]
  (try simp only [View.readCov_unit_zero (S := S1x8x32) _ hz3])
  unfold P6 W0 W1 W2
  simp only [View.readAt_eq_ld, harg1.read_unread, harg2.read_unread, harg3.read_unread, harg4.read_unread, harg5.read_unread, harg9.read_unread, harg10.read_unread, View.ld_unit_zero (S := S625x8x32) hz3, View.ld_unit_zero (S := S1x8x32) hz3, View.ld_unit_zero (S := S32) hz1]
theorem sout0_A_1_eq (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : cond0_0 i) (hc1 : ¬cond0_1 i) (x0 : Vec F S625x8x32 .f32) (x1 : Vec F S625x8x32 .f32) (x2 : Vec F S625x8x32 .f32) (x3 : Vec F S3x32x32 .f32) (x4 : Vec F S32 .f32) : sout0_A_1 c i arg1 harg1 arg2 harg2 arg3 harg3 arg4 harg4 arg5 harg5 arg6 harg6 arg7 harg7 arg8 harg8 arg9 harg9 arg10 harg10 hc0 hc1 x0 x1 x2 x3 x4 = k0_pay3 (P6 x0 x1 x2 x3) x4 (k0_pay5 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x8x32) hz3]
  (try simp only [View.readCov_unit_zero (S := S1x8x32) _ hz3])
  unfold P6 W0 W1 W2
  simp only [View.readAt_eq_ld, harg1.read_unread, harg2.read_unread, harg3.read_unread, harg4.read_unread, harg5.read_unread, harg9.read_unread, harg10.read_unread, View.ld_unit_zero (S := S625x8x32) hz3, View.ld_unit_zero (S := S1x8x32) hz3, View.ld_unit_zero (S := S32) hz1]
theorem out0_B_5_eq (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : out0_B_5 c i arg1 harg1 arg2 harg2 arg3 harg3 arg4 harg4 arg5 harg5 arg6 harg6 arg7 harg7 arg8 harg8 arg9 harg9 arg10 harg10 hc0 hc1 x0 x1 x2 x3 x4 xs0 xs1 = k0_pay1 (P6 x0 x1 x2 x3) x4 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz3]
  (try simp only [View.readCov_unit_zero (S := S1x8x32) _ hz3])
  unfold P6 W0 W1 W2
  simp only [View.readAt_eq_ld, harg1.read_unread, harg2.read_unread, harg3.read_unread, harg4.read_unread, harg5.read_unread, harg9.read_unread, harg10.read_unread, View.ld_unit_zero (S := S625x8x32) hz3, View.ld_unit_zero (S := S1x8x32) hz3, View.ld_unit_zero (S := S32) hz1]
theorem sout0_B_0_eq (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : sout0_B_0 c i arg1 harg1 arg2 harg2 arg3 harg3 arg4 harg4 arg5 harg5 arg6 harg6 arg7 harg7 arg8 harg8 arg9 harg9 arg10 harg10 hc0 hc1 x0 x1 x2 x3 x4 xs0 xs1 = k0_pay2 (P6 x0 x1 x2 x3) x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz3]
  (try simp only [View.readCov_unit_zero (S := S1x8x32) _ hz3])
  unfold P6 W0 W1 W2
  simp only [View.readAt_eq_ld, harg1.read_unread, harg2.read_unread, harg3.read_unread, harg4.read_unread, harg5.read_unread, harg9.read_unread, harg10.read_unread, View.ld_unit_zero (S := S625x8x32) hz3, View.ld_unit_zero (S := S1x8x32) hz3, View.ld_unit_zero (S := S32) hz1]
theorem sout0_B_1_eq (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : ¬cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : sout0_B_1 c i arg1 harg1 arg2 harg2 arg3 harg3 arg4 harg4 arg5 harg5 arg6 harg6 arg7 harg7 arg8 harg8 arg9 harg9 arg10 harg10 hc0 hc1 x0 x1 x2 x3 x4 xs0 xs1 = k0_pay3 (P6 x0 x1 x2 x3) x4 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz3]
  (try simp only [View.readCov_unit_zero (S := S1x8x32) _ hz3])
  unfold P6 W0 W1 W2
  simp only [View.readAt_eq_ld, harg1.read_unread, harg2.read_unread, harg3.read_unread, harg4.read_unread, harg5.read_unread, harg9.read_unread, harg10.read_unread, View.ld_unit_zero (S := S625x8x32) hz3, View.ld_unit_zero (S := S1x8x32) hz3, View.ld_unit_zero (S := S32) hz1]
theorem out0_C_5_eq (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : out0_C_5 c i arg1 harg1 arg2 harg2 arg3 harg3 arg4 harg4 arg5 harg5 arg6 harg6 arg7 harg7 arg8 harg8 arg9 harg9 arg10 harg10 hc0 hc1 x0 x1 x2 x3 x4 xs0 xs1 = k0_pay1 (P6 x0 x1 x2 x3) x4 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz3]
  (try simp only [View.readCov_unit_zero (S := S1x8x32) _ hz3])
  unfold P6 W0 W1 W2
  simp only [View.readAt_eq_ld, harg1.read_unread, harg2.read_unread, harg3.read_unread, harg4.read_unread, harg5.read_unread, harg9.read_unread, harg10.read_unread, View.ld_unit_zero (S := S625x8x32) hz3, View.ld_unit_zero (S := S1x8x32) hz3, View.ld_unit_zero (S := S32) hz1]
theorem sout0_C_0_eq (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : sout0_C_0 c i arg1 harg1 arg2 harg2 arg3 harg3 arg4 harg4 arg5 harg5 arg6 harg6 arg7 harg7 arg8 harg8 arg9 harg9 arg10 harg10 hc0 hc1 x0 x1 x2 x3 x4 xs0 xs1 = k0_pay2 (P6 x0 x1 x2 x3) x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz3]
  (try simp only [View.readCov_unit_zero (S := S1x8x32) _ hz3])
  unfold P6 W0 W1 W2
  simp only [View.readAt_eq_ld, harg1.read_unread, harg2.read_unread, harg3.read_unread, harg4.read_unread, harg5.read_unread, harg9.read_unread, harg10.read_unread, View.ld_unit_zero (S := S625x8x32) hz3, View.ld_unit_zero (S := S1x8x32) hz3, View.ld_unit_zero (S := S32) hz1]
theorem sout0_C_1_eq (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : sout0_C_1 c i arg1 harg1 arg2 harg2 arg3 harg3 arg4 harg4 arg5 harg5 arg6 harg6 arg7 harg7 arg8 harg8 arg9 harg9 arg10 harg10 hc0 hc1 x0 x1 x2 x3 x4 xs0 xs1 = k0_pay3 (P6 x0 x1 x2 x3) x4 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz3]
  (try simp only [View.readCov_unit_zero (S := S1x8x32) _ hz3])
  unfold P6 W0 W1 W2
  simp only [View.readAt_eq_ld, harg1.read_unread, harg2.read_unread, harg3.read_unread, harg4.read_unread, harg5.read_unread, harg9.read_unread, harg10.read_unread, View.ld_unit_zero (S := S625x8x32) hz3, View.ld_unit_zero (S := S1x8x32) hz3, View.ld_unit_zero (S := S32) hz1]
theorem out0_C_6_eq (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : out0_C_6 c i arg1 harg1 arg2 harg2 arg3 harg3 arg4 harg4 arg5 harg5 arg6 harg6 arg7 harg7 arg8 harg8 arg9 harg9 arg10 harg10 hc0 hc1 x0 x1 x2 x3 x4 xs0 xs1 = k0_pay2 (P6 x0 x1 x2 x3) x4 xs0 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz3]
  (try simp only [View.readCov_unit_zero (S := S1x8x32) _ hz3])
  unfold P6 W0 W1 W2
  simp only [View.readAt_eq_ld, harg1.read_unread, harg2.read_unread, harg3.read_unread, harg4.read_unread, harg5.read_unread, harg9.read_unread, harg10.read_unread, View.ld_unit_zero (S := S625x8x32) hz3, View.ld_unit_zero (S := S1x8x32) hz3, View.ld_unit_zero (S := S32) hz1]
theorem out0_C_7_eq (c : Dev nD) (i : grid0.Coords) (arg1 : Memref sig .tc .vmem S625x8x32 .f32) (harg1 : arg1.IsWhole) (arg2 : Memref sig .tc .vmem S625x8x32 .f32) (harg2 : arg2.IsWhole) (arg3 : Memref sig .tc .vmem S625x8x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S625x8x32 .f32) (harg6 : arg6.IsWhole) (arg7 : Memref sig .tc .vmem S1x8x32 .f32) (harg7 : arg7.IsWhole) (arg8 : Memref sig .tc .vmem S1x8x32 .f32) (harg8 : arg8.IsWhole) (arg9 : Memref sig .tc .vmem S1x8x32 .f32) (harg9 : arg9.IsWhole) (arg10 : Memref sig .tc .vmem S1x8x32 .f32) (harg10 : arg10.IsWhole) (hc0 : ¬cond0_0 i) (hc1 : cond0_1 i) (x0 : Vec F S625x8x32 .f32) (x1 : Vec F S625x8x32 .f32) (x2 : Vec F S625x8x32 .f32) (x3 : Vec F S3x32x32 .f32) (x4 : Vec F S32 .f32) (xs0 : Vec F S1x8x32 .f32) (xs1 : Vec F S1x8x32 .f32) : out0_C_7 c i arg1 harg1 arg2 harg2 arg3 harg3 arg4 harg4 arg5 harg5 arg6 harg6 arg7 harg7 arg8 harg8 arg9 harg9 arg10 harg10 hc0 hc1 x0 x1 x2 x3 x4 xs0 xs1 = k0_pay3 (P6 x0 x1 x2 x3) x4 xs1 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz3]
  (try simp only [View.readCov_unit_zero (S := S1x8x32) _ hz3])
  unfold P6 W0 W1 W2
  simp only [View.readAt_eq_ld, harg1.read_unread, harg2.read_unread, harg3.read_unread, harg4.read_unread, harg5.read_unread, harg9.read_unread, harg10.read_unread, View.ld_unit_zero (S := S625x8x32) hz3, View.ld_unit_zero (S := S1x8x32) hz3, View.ld_unit_zero (S := S32) hz1]

end Cert.KernelIdeal.Reg

end
-- ==== Proof.KernelIdealChain.lean ====
import proofs.«156046_j7490422964881_2_alg».proof.Proof.KernelIdealPieces

set_option maxRecDepth 16384
set_option maxHeartbeats 1000000
noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The accumulators point by point, as a plain recursion over the body's arithmetic:
at the first point zero plus the block's column sums (of squares), then each point adds its block's. -/

section Region0
variable (V : (c : Dev nD) → (b : Ref sig .tc) → Buf (Elt F) ((c : Thread nD τ).loc b))

/-- The three products' sum over the block the point `t` stages. -/
def B6 (c : Dev nD) (t : Fin cfg0.N) : FVec F S625x8x32 .f32 :=
  P6 (iblk0 V c 0 t) (iblk0 V c 1 t) (iblk0 V c 2 t) (iblk0 V c 3 t)

/-- The two accumulators after point `n`. -/
def chain (c : Dev nD) : (n : ℕ) → n < cfg0.N → Vec F S1x8x32 .f32 × Vec F S1x8x32 .f32
  | 0, h => (k0_pay2 (B6 V c ⟨0, h⟩) (iblk0 V c 4 ⟨0, h⟩) (k0_pay4 (F := F)), k0_pay3 (B6 V c ⟨0, h⟩) (iblk0 V c 4 ⟨0, h⟩) (k0_pay5 (F := F)))
  | n + 1, h => (k0_pay2 (B6 V c ⟨n + 1, h⟩) (iblk0 V c 4 ⟨n + 1, h⟩) (chain c n (Nat.lt_of_succ_lt h)).1,
                 k0_pay3 (B6 V c ⟨n + 1, h⟩) (iblk0 V c 4 ⟨n + 1, h⟩) (chain c n (Nat.lt_of_succ_lt h)).2)

/-- What each point leaves in the accumulators is that recursion. -/
theorem outsAt_acc (c : Dev nD) : ∀ (n : ℕ) (h : n < cfg0.N),
    (outsAt0 V c n h).2.2.2.1 = (chain V c n h).1 ∧ (outsAt0 V c n h).2.2.2.2 = (chain V c n h).2
  | 0, h => by
    rw [outsAt0_A V c ⟨0, h⟩ rfl (by dsimp only; omega)]
    dsimp only
    rw [sout0_A_0_eq, sout0_A_1_eq]
    exact ⟨rfl, rfl⟩
  | n + 1, h => by
    have hN : cfg0.N = 80 := N_0
    obtain ⟨ih1, ih2⟩ := outsAt_acc c n (Nat.lt_of_succ_lt h)
    have h0 : ¬(⟨n + 1, h⟩ : Fin cfg0.N).val % 80 = 0 := by dsimp only; omega
    by_cases h1 : (⟨n + 1, h⟩ : Fin cfg0.N).val % 80 = 79
    · rw [outsAt0_C V c ⟨n + 1, h⟩ h0 h1]
      dsimp only
      rw [sout0_C_0_eq, sout0_C_1_eq]
      refine ⟨?_, ?_⟩
      · show k0_pay2 _ _ (outsAt0 V c n _).2.2.2.1 = k0_pay2 _ _ (chain V c n _).1
        rw [ih1]; rfl
      · show k0_pay3 _ _ (outsAt0 V c n _).2.2.2.2 = k0_pay3 _ _ (chain V c n _).2
        rw [ih2]; rfl
    · rw [outsAt0_B V c ⟨n + 1, h⟩ h0 h1]
      dsimp only
      rw [sout0_B_0_eq, sout0_B_1_eq]
      refine ⟨?_, ?_⟩
      · show k0_pay2 _ _ (outsAt0 V c n _).2.2.2.1 = k0_pay2 _ _ (chain V c n _).1
        rw [ih1]; rfl
      · show k0_pay3 _ _ (outsAt0 V c n _).2.2.2.2 = k0_pay3 _ _ (chain V c n _).2
        rw [ih2]; rfl

/-- The raw block every point stores. -/
theorem outsAt_raw (c : Dev nD) (t : Fin cfg0.N) :
    (outsAt0 V c t.val t.isLt).1 = k0_pay1 (B6 V c t) (iblk0 V c 4 t) := by
  have hN : t.val < 80 := lt_of_lt_of_eq t.isLt (show cfg0.N = 80 from N_0)
  by_cases h0 : t.val % 80 = 0
  · have h1 : ¬t.val % 80 = 79 := by omega
    rw [outsAt0_A V c t h0 h1]; dsimp only; rw [out0_A_5_eq]; rfl
  · by_cases h1 : t.val % 80 = 79
    · rw [outsAt0_C V c t h0 h1]; dsimp only; rw [out0_C_5_eq]; rfl
    · rw [outsAt0_B V c t h0 h1]; dsimp only; rw [out0_B_5_eq]; rfl

/-- At the last point the two one-row outputs receive the accumulators. -/
theorem outsAt_last (c : Dev nD) (t : Fin cfg0.N) (h79 : t.val = 79) :
    (outsAt0 V c t.val t.isLt).2.1 = (chain V c t.val t.isLt).1 ∧ (outsAt0 V c t.val t.isLt).2.2.1 = (chain V c t.val t.isLt).2 := by
  obtain ⟨a1, a2⟩ := outsAt_acc V c t.val t.isLt
  have h0 : ¬t.val % 80 = 0 := by omega
  have h1 : t.val % 80 = 79 := by omega
  rw [← a1, ← a2, outsAt0_C V c t h0 h1]
  dsimp only
  rw [out0_C_6_eq, out0_C_7_eq, sout0_C_0_eq, sout0_C_1_eq]
  exact ⟨rfl, rfl⟩

end Region0

end Cert.KernelIdeal.Reg

end
-- ==== Proof.KBlocks0.lean ====
/-
  The first kernel region's blocks and arrays, coordinate by coordinate.

  The region walks 80 grid points. At point t its three big input windows hold rows 625 t … 625 t + 624 of the three
  [50000, 8, 32] arrays they stage (the block index is (t, 0, 0) and the block is [625, 8, 32]); the weights
  [3, 32, 32] and the bias [32] are staged whole (block index zero on every axis); a load of the 1 x 32 x 32 slab at
  offset (s, 0, 0) of the weights reads the weights at leading coordinate s. The first output is written back at
  every point, block t to rows 625 t … 625 t + 624, and these 80 blocks tile the array: row n is in block n / 625.
  So if what every point leaves in the output's staging buffer is that block of ONE function G of the array index,
  the array ends holding G. The two one-row outputs have a single block, the whole [1, 8, 32] array, written back
  after the last point only: the array ends holding what that point left in the staging buffer.
-/
import proofs.«156046_j7490422964881_2_alg».proof.Proof.KernelIdealR0Frame
import Idealize.ShloMosaic.Lib.Pipeline.Value
import Idealize.ShloMosaic.Lib.ValueIdx

noncomputable section

namespace Cert.KBlocks0

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-- Window 0's block index at point t is (t, 0, 0). -/
theorem idx0_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
/-- Window 1's block index at point t is (t, 0, 0). -/
theorem idx0_1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
/-- Window 2's block index at point t is (t, 0, 0). -/
theorem idx0_2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- Row p of block t is a row of the array: 625 t + p < 50000 for t < 80, p < 625. -/
theorem row_lt (t : Fin cfg0.N) (p : Fin 625) : 625 * t.val + p.val < 50000 := by
  have hN : cfg0.N = 80 := N_0
  have := t.isLt; have := p.isLt; omega

/-- Window 0's block at point t is rows 625 t … 625 t + 624 of its array. -/
theorem rows0 (c : Dev nD) (t : Fin cfg0.N) (p : Fin 625) (j : Fin 8) (k : Fin 32) :
    Reg.iblk0 V c 0 t (ix3 p j k) = (V c main_v34 : S50000x8x32.Idx → Elt F .f32) (ix3 (⟨625 * t.val + p.val, row_lt t p⟩ : Fin 50000) j k) := by
  unfold Reg.iblk0
  show (V c main_v34 : S50000x8x32.Idx → Elt F .f32) (((cfg0.win 0).blk t).view.emb (ix3 p j k)) = _
  congr 1
  funext a
  apply Fin.ext
  obtain ⟨h0, h1, h2⟩ := idx0_0 t
  match a with
  | ⟨0, _⟩ => show win0_0.index t 0 * 625 + 1 * p.val = 625 * t.val + p.val; rw [h0]; omega
  | ⟨1, _⟩ => show win0_0.index t 1 * 8 + 1 * j.val = j.val; rw [h1]; omega
  | ⟨2, _⟩ => show win0_0.index t 2 * 32 + 1 * k.val = k.val; rw [h2]; omega

/-- Window 1's block at point t is rows 625 t … 625 t + 624 of its array. -/
theorem rows1 (c : Dev nD) (t : Fin cfg0.N) (p : Fin 625) (j : Fin 8) (k : Fin 32) :
    Reg.iblk0 V c 1 t (ix3 p j k) = (V c main_v47 : S50000x8x32.Idx → Elt F .f32) (ix3 (⟨625 * t.val + p.val, row_lt t p⟩ : Fin 50000) j k) := by
  unfold Reg.iblk0
  show (V c main_v47 : S50000x8x32.Idx → Elt F .f32) (((cfg0.win 1).blk t).view.emb (ix3 p j k)) = _
  congr 1
  funext a
  apply Fin.ext
  obtain ⟨h0, h1, h2⟩ := idx0_1 t
  match a with
  | ⟨0, _⟩ => show win0_1.index t 0 * 625 + 1 * p.val = 625 * t.val + p.val; rw [h0]; omega
  | ⟨1, _⟩ => show win0_1.index t 1 * 8 + 1 * j.val = j.val; rw [h1]; omega
  | ⟨2, _⟩ => show win0_1.index t 2 * 32 + 1 * k.val = k.val; rw [h2]; omega

/-- Window 2's block at point t is rows 625 t … 625 t + 624 of its array. -/
theorem rows2 (c : Dev nD) (t : Fin cfg0.N) (p : Fin 625) (j : Fin 8) (k : Fin 32) :
    Reg.iblk0 V c 2 t (ix3 p j k) = (V c main_v63 : S50000x8x32.Idx → Elt F .f32) (ix3 (⟨625 * t.val + p.val, row_lt t p⟩ : Fin 50000) j k) := by
  unfold Reg.iblk0
  show (V c main_v63 : S50000x8x32.Idx → Elt F .f32) (((cfg0.win 2).blk t).view.emb (ix3 p j k)) = _
  congr 1
  funext a
  apply Fin.ext
  obtain ⟨h0, h1, h2⟩ := idx0_2 t
  match a with
  | ⟨0, _⟩ => show win0_2.index t 0 * 625 + 1 * p.val = 625 * t.val + p.val; rw [h0]; omega
  | ⟨1, _⟩ => show win0_2.index t 1 * 8 + 1 * j.val = j.val; rw [h1]; omega
  | ⟨2, _⟩ => show win0_2.index t 2 * 32 + 1 * k.val = k.val; rw [h2]; omega

/-- The weights' window has block index zero at every point. -/
theorem idx0_3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
/-- The bias window has block index zero at every point. -/
theorem idx0_4 : ∀ t : Fin cfg0.N, win0_4.index t 0 = 0 :=
  (by decide +kernel : ∀ t : Fin grid0.N, win0_4.index t 0 = 0)

/-- The weights' window holds the whole weight array at every point. -/
theorem whole3 (c : Dev nD) (t : Fin cfg0.N) (i : S3x32x32.Idx) :
    Reg.iblk0 V c 3 t i = (V c main_arg3 : S3x32x32.Idx → Elt F .f32) i := by
  unfold Reg.iblk0
  show (V c main_arg3 : S3x32x32.Idx → Elt F .f32) (((cfg0.win 3).blk t).view.emb i) = _
  congr 1
  funext a
  apply Fin.ext
  obtain ⟨h0, h1, h2⟩ := idx0_3 t
  match a with
  | ⟨0, _⟩ => show win0_3.index t 0 * 3 + 1 * (i 0).val = (i 0).val; rw [h0]; omega
  | ⟨1, _⟩ => show win0_3.index t 1 * 32 + 1 * (i 1).val = (i 1).val; rw [h1]; omega
  | ⟨2, _⟩ => show win0_3.index t 2 * 32 + 1 * (i 2).val = (i 2).val; rw [h2]; omega

/-- The bias window holds the whole bias array at every point. -/
theorem whole4 (c : Dev nD) (t : Fin cfg0.N) (i : S32.Idx) :
    Reg.iblk0 V c 4 t i = (V c main_arg4 : S32.Idx → Elt F .f32) i := by
  unfold Reg.iblk0
  show (V c main_arg4 : S32.Idx → Elt F .f32) (((cfg0.win 4).blk t).view.emb i) = _
  congr 1
  funext a
  apply Fin.ext
  have h0 := idx0_4 t
  match a with
  | ⟨0, _⟩ => show win0_4.index t 0 * 32 + 1 * (i 0).val = (i 0).val; rw [h0]; omega

/-- The 1 x 32 x 32 slab of the weights at offset (0, 0, 0) reads the weights at leading coordinate 0. -/
theorem slab0 (x3 : Vec F S3x32x32 .f32) (k o : Fin 32) :
    View.ld x3 (Rect.unit (s := S3x32x32) ![0, 0, 0] S1x32x32.size inb_S3x32x32_S1x32x32_0_0_0) (ix3 (0 : Fin 1) k o) = x3 (ix3 (0 : Fin 3) k o) := by
  show x3 _ = x3 _
  congr 1
  funext a
  apply Fin.ext
  match a with
  | ⟨0, _⟩ => show 0 + 1 * 0 = 0; rfl
  | ⟨1, _⟩ => show 0 + 1 * k.val = k.val; omega
  | ⟨2, _⟩ => show 0 + 1 * o.val = o.val; omega

/-- The 1 x 32 x 32 slab of the weights at offset (1, 0, 0) reads the weights at leading coordinate 1. -/
theorem slab1 (x3 : Vec F S3x32x32 .f32) (k o : Fin 32) :
    View.ld x3 (Rect.unit (s := S3x32x32) ![1, 0, 0] S1x32x32.size inb_S3x32x32_S1x32x32_1_0_0) (ix3 (0 : Fin 1) k o) = x3 (ix3 (1 : Fin 3) k o) := by
  show x3 _ = x3 _
  congr 1
  funext a
  apply Fin.ext
  match a with
  | ⟨0, _⟩ => show 1 + 1 * 0 = 1; rfl
  | ⟨1, _⟩ => show 0 + 1 * k.val = k.val; omega
  | ⟨2, _⟩ => show 0 + 1 * o.val = o.val; omega

/-- The 1 x 32 x 32 slab of the weights at offset (2, 0, 0) reads the weights at leading coordinate 2. -/
theorem slab2 (x3 : Vec F S3x32x32 .f32) (k o : Fin 32) :
    View.ld x3 (Rect.unit (s := S3x32x32) ![2, 0, 0] S1x32x32.size inb_S3x32x32_S1x32x32_2_0_0) (ix3 (0 : Fin 1) k o) = x3 (ix3 (2 : Fin 3) k o) := by
  show x3 _ = x3 _
  congr 1
  funext a
  apply Fin.ext
  match a with
  | ⟨0, _⟩ => show 2 + 1 * 0 = 2; rfl
  | ⟨1, _⟩ => show 0 + 1 * k.val = k.val; omega
  | ⟨2, _⟩ => show 0 + 1 * o.val = o.val; omega

/-- The first output's block index at point t is (t, 0, 0). -/
theorem idx0_5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

/-- An array index is in the first output's block at point t iff each coordinate is in the block's range on its axis. -/
theorem mem_blk5 (t : Fin cfg0.N) (i : S50000x8x32.Idx) :
    i ∈ ((cfg0.win 5).blk t).view.set ↔ ∀ a : Fin 3, win0_5.index t a * S625x8x32.size a ≤ (i a).val ∧ (i a).val < win0_5.index t a * S625x8x32.size a + S625x8x32.size a := by
  show i ∈ ((View.whole main_v64_0).slice (win0_5.rect t)).set ↔ _
  rw [View.set_slice_whole, Rect.mem_set_unit]
  exact Iff.rfl

/-- If every point leaves in the first output's staging buffer its own block of one function G of the array index, then what point t writes back is block t of G. -/
theorem flushed5_eq (c : Dev nD) (G : S50000x8x32.Idx → Elt F .f32)
    (hblk : ∀ (t : Fin cfg0.N) (p : Fin 625) (j : Fin 8) (o : Fin 32),
      (Reg.dat0 V c).after 5 t (ix3 p j o) = G (ix3 (⟨625 * t.val + p.val, row_lt t p⟩ : Fin 50000) j o))
    (t : Fin cfg0.N) :
    (Reg.dat0 V c).flushed 5 t = ((cfg0.win 5).blk t).view.read (Elt F) G := by
  show (cfg0.win 5).cut (grid0.coords t) ((Reg.dat0 V c).after 5 t) = _
  funext y
  obtain ⟨p, j, o, rfl⟩ : ∃ (p : Fin 625) (j : Fin 8) (o : Fin 32), y = ix3 p j o := ⟨y 0, y 1, y 2, eq_ix3 (n0 := 625) (n1 := 8) (n2 := 32) y⟩
  show (Reg.dat0 V c).after 5 t (ix3 p j o) = G (((cfg0.win 5).blk t).view.emb (ix3 p j o))
  rw [hblk t p j o]
  congr 1
  funext a
  apply Fin.ext
  obtain ⟨h0, h1, h2⟩ := idx0_5 t
  match a with
  | ⟨0, _⟩ => show 625 * t.val + p.val = win0_5.index t 0 * 625 + 1 * p.val; rw [h0]; omega
  | ⟨1, _⟩ => show j.val = win0_5.index t 1 * 8 + 1 * j.val; rw [h1]; omega
  | ⟨2, _⟩ => show o.val = win0_5.index t 2 * 32 + 1 * o.val; rw [h2]; omega

/-- The first output array from its blocks: the 80 blocks tile the array (row n is in block n / 625), so it ends holding G. -/
theorem final5 (c : Dev nD) (G : S50000x8x32.Idx → Elt F .f32)
    (hblk : ∀ (t : Fin cfg0.N) (p : Fin 625) (j : Fin 8) (o : Fin 32),
      (Reg.dat0 V c).after 5 t (ix3 p j o) = G (ix3 (⟨625 * t.val + p.val, row_lt t p⟩ : Fin 50000) j o)) :
    (Reg.dat0 V c).arrAt 5 cfg0.N = G := by
  refine (Reg.dat0 V c).arrAt_eq_of_cover 5 G (fun t _ => flushed5_eq V c G hblk t) (fun i => ?_)
  have hN : cfg0.N = 80 := N_0
  have hi0 : (i 0).val < 50000 := (i 0).isLt
  have hi1 : (i 1).val < 8 := (i 1).isLt
  have hi2 : (i 2).val < 32 := (i 2).isLt
  refine ⟨⟨(i 0).val / 625, by omega⟩, flush0_5 _, ?_⟩
  rw [mem_blk5]
  obtain ⟨h0, h1, h2⟩ := idx0_5 ⟨(i 0).val / 625, by omega⟩
  intro a
  match a with
  | ⟨0, _⟩ => show win0_5.index ⟨(i 0).val / 625, _⟩ 0 * 625 ≤ (i 0).val ∧ (i 0).val < win0_5.index ⟨(i 0).val / 625, _⟩ 0 * 625 + 625; rw [h0]; dsimp only; omega
  | ⟨1, _⟩ => show win0_5.index ⟨(i 0).val / 625, _⟩ 1 * 8 ≤ (i 1).val ∧ (i 1).val < win0_5.index ⟨(i 0).val / 625, _⟩ 1 * 8 + 8; rw [h1]; omega
  | ⟨2, _⟩ => show win0_5.index ⟨(i 0).val / 625, _⟩ 2 * 32 ≤ (i 2).val ∧ (i 2).val < win0_5.index ⟨(i 0).val / 625, _⟩ 2 * 32 + 32; rw [h2]; omega

/-- 79 is a grid point. -/
theorem last_lt : 79 < cfg0.N := by have hN : cfg0.N = 80 := N_0; omega
/-- The last grid point. -/
abbrev tLast : Fin cfg0.N := ⟨79, last_lt⟩

/-- The second output's one block has index zero at every point. -/
theorem idx0_6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

/-- Membership in the second output's block, axis by axis. -/
theorem mem_blk6 (t : Fin cfg0.N) (i : S1x8x32.Idx) :
    i ∈ ((cfg0.win 6).blk t).view.set ↔ ∀ a : Fin 3, win0_6.index t a * S1x8x32.size a ≤ (i a).val ∧ (i a).val < win0_6.index t a * S1x8x32.size a + S1x8x32.size a := by
  show i ∈ ((View.whole main_v64_1).slice (win0_6.rect t)).set ↔ _
  rw [View.set_slice_whole, Rect.mem_set_unit]
  exact Iff.rfl

/-- The second output is written back at the last point only, and what is written is what that point left in the staging buffer, read as the whole [1, 8, 32] array. -/
theorem flushed6_eq (c : Dev nD) (Y : Vec F S1x8x32 .f32) (h : (Reg.dat0 V c).after 6 tLast = Y)
    (t : Fin cfg0.N) (hf : (cfg0.win 6).flush t = true) :
    (Reg.dat0 V c).flushed 6 t = ((cfg0.win 6).blk t).view.read (Elt F) Y := by
  have hN : cfg0.N = 80 := N_0
  have h79 : t.val = 79 := by have := (flush0_6 t).mp hf; have := t.isLt; omega
  obtain rfl : t = tLast := Fin.ext h79
  show (cfg0.win 6).cut (grid0.coords tLast) ((Reg.dat0 V c).after 6 tLast) = _
  rw [h]
  funext y
  obtain ⟨p, j, o, rfl⟩ : ∃ (p : Fin 1) (j : Fin 8) (o : Fin 32), y = ix3 p j o := ⟨y 0, y 1, y 2, eq_ix3 (n0 := 1) (n1 := 8) (n2 := 32) y⟩
  show Y _ = Y (((cfg0.win 6).blk tLast).view.emb (ix3 p j o))
  congr 1
  funext a
  apply Fin.ext
  obtain ⟨h0, h1, h2⟩ := idx0_6 tLast
  match a with
  | ⟨0, _⟩ => show p.val = win0_6.index tLast 0 * 1 + 1 * p.val; rw [h0]; omega
  | ⟨1, _⟩ => show j.val = win0_6.index tLast 1 * 8 + 1 * j.val; rw [h1]; omega
  | ⟨2, _⟩ => show o.val = win0_6.index tLast 2 * 32 + 1 * o.val; rw [h2]; omega

/-- The second output array ends holding what the last point left in its staging buffer. -/
theorem final6 (c : Dev nD) (Y : Vec F S1x8x32 .f32) (h : (Reg.dat0 V c).after 6 tLast = Y) :
    (Reg.dat0 V c).arrAt 6 cfg0.N = Y := by
  refine (Reg.dat0 V c).arrAt_eq_of_cover 6 Y (flushed6_eq V c Y h) (fun i => ?_)
  have hi0 : (i 0).val < 1 := (i 0).isLt
  have hi1 : (i 1).val < 8 := (i 1).isLt
  have hi2 : (i 2).val < 32 := (i 2).isLt
  refine ⟨tLast, (flush0_6 tLast).mpr rfl, ?_⟩
  rw [mem_blk6]
  obtain ⟨h0, h1, h2⟩ := idx0_6 tLast
  intro a
  match a with
  | ⟨0, _⟩ => show win0_6.index tLast 0 * 1 ≤ (i 0).val ∧ (i 0).val < win0_6.index tLast 0 * 1 + 1; rw [h0]; omega
  | ⟨1, _⟩ => show win0_6.index tLast 1 * 8 ≤ (i 1).val ∧ (i 1).val < win0_6.index tLast 1 * 8 + 8; rw [h1]; omega
  | ⟨2, _⟩ => show win0_6.index tLast 2 * 32 ≤ (i 2).val ∧ (i 2).val < win0_6.index tLast 2 * 32 + 32; rw [h2]; omega

/-- The third output's one block has index zero at every point. -/
theorem idx0_7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)

/-- Membership in the third output's block, axis by axis. -/
theorem mem_blk7 (t : Fin cfg0.N) (i : S1x8x32.Idx) :
    i ∈ ((cfg0.win 7).blk t).view.set ↔ ∀ a : Fin 3, win0_7.index t a * S1x8x32.size a ≤ (i a).val ∧ (i a).val < win0_7.index t a * S1x8x32.size a + S1x8x32.size a := by
  show i ∈ ((View.whole main_v64_2).slice (win0_7.rect t)).set ↔ _
  rw [View.set_slice_whole, Rect.mem_set_unit]
  exact Iff.rfl

/-- The third output is written back at the last point only, and what is written is what that point left in the staging buffer, read as the whole [1, 8, 32] array. -/
theorem flushed7_eq (c : Dev nD) (Y : Vec F S1x8x32 .f32) (h : (Reg.dat0 V c).after 7 tLast = Y)
    (t : Fin cfg0.N) (hf : (cfg0.win 7).flush t = true) :
    (Reg.dat0 V c).flushed 7 t = ((cfg0.win 7).blk t).view.read (Elt F) Y := by
  have hN : cfg0.N = 80 := N_0
  have h79 : t.val = 79 := by have := (flush0_7 t).mp hf; have := t.isLt; omega
  obtain rfl : t = tLast := Fin.ext h79
  show (cfg0.win 7).cut (grid0.coords tLast) ((Reg.dat0 V c).after 7 tLast) = _
  rw [h]
  funext y
  obtain ⟨p, j, o, rfl⟩ : ∃ (p : Fin 1) (j : Fin 8) (o : Fin 32), y = ix3 p j o := ⟨y 0, y 1, y 2, eq_ix3 (n0 := 1) (n1 := 8) (n2 := 32) y⟩
  show Y _ = Y (((cfg0.win 7).blk tLast).view.emb (ix3 p j o))
  congr 1
  funext a
  apply Fin.ext
  obtain ⟨h0, h1, h2⟩ := idx0_7 tLast
  match a with
  | ⟨0, _⟩ => show p.val = win0_7.index tLast 0 * 1 + 1 * p.val; rw [h0]; omega
  | ⟨1, _⟩ => show j.val = win0_7.index tLast 1 * 8 + 1 * j.val; rw [h1]; omega
  | ⟨2, _⟩ => show o.val = win0_7.index tLast 2 * 32 + 1 * o.val; rw [h2]; omega

/-- The third output array ends holding what the last point left in its staging buffer. -/
theorem final7 (c : Dev nD) (Y : Vec F S1x8x32 .f32) (h : (Reg.dat0 V c).after 7 tLast = Y) :
    (Reg.dat0 V c).arrAt 7 cfg0.N = Y := by
  refine (Reg.dat0 V c).arrAt_eq_of_cover 7 Y (flushed7_eq V c Y h) (fun i => ?_)
  have hi0 : (i 0).val < 1 := (i 0).isLt
  have hi1 : (i 1).val < 8 := (i 1).isLt
  have hi2 : (i 2).val < 32 := (i 2).isLt
  refine ⟨tLast, (flush0_7 tLast).mpr rfl, ?_⟩
  rw [mem_blk7]
  obtain ⟨h0, h1, h2⟩ := idx0_7 tLast
  intro a
  match a with
  | ⟨0, _⟩ => show win0_7.index tLast 0 * 1 ≤ (i 0).val ∧ (i 0).val < win0_7.index tLast 0 * 1 + 1; rw [h0]; omega
  | ⟨1, _⟩ => show win0_7.index tLast 1 * 8 ≤ (i 1).val ∧ (i 1).val < win0_7.index tLast 1 * 8 + 8; rw [h1]; omega
  | ⟨2, _⟩ => show win0_7.index tLast 2 * 32 ≤ (i 2).val ∧ (i 2).val < win0_7.index tLast 2 * 32 + 32; rw [h2]; omega

end Cert.KBlocks0
end
-- ==== Proof.Spec.lean ====
/-
  The layer both programs compute, entry by entry on the extended reals, from the three Chebyshev
  terms t0, t1, t2 : [50000, 8, 32], the weights W : [3, 32, 32], the bias and the affine pair
  gamma, beta : [32].

  raw(n, j, o)  = sum_k t0(n,j,k) W(0,k,o) + sum_k t1(n,j,k) W(1,k,o) + sum_k t2(n,j,k) W(2,k,o) + bias(o)
  mean(j, o)    = (sum_n raw(n,j,o)) / 50000
  the variance, in two spellings:
    varRef(j,o) = (sum_n (raw(n,j,o) - mean(j,o))^2) / 50000            (mean of squared deviations)
    varKer(j,o) = max ((sum_n raw(n,j,o)^2) / 50000 - mean(j,o)^2) 0    (mean of squares minus squared mean, clamped)
  norm v (n,j,o) = max (gamma(o) * (raw(n,j,o) - mean(j,o)) * rsqrt (v(j,o) + eps) + beta(o)) 0

  On real entries the two variances agree (the mean of squared deviations IS the mean of squares
  minus the squared mean, and it is non-negative, so the clamp does nothing).
-/
import Idealize.ShloMosaic.PureOps.Ideal
import Idealize.ShloMosaic.Lib.ValueIdx

noncomputable section

namespace Cert.Spec

open Idealize.ShloMosaic Idealize.ShloMosaic.ValueIdx

abbrev SX : Shape := ⟨3, ![50000, 8, 32]⟩
abbrev SW : Shape := ⟨3, ![3, 32, 32]⟩
abbrev SV : Shape := ⟨1, ![32]⟩

/-- The number of nodes as the program writes it: the f32 word of 50000.0. -/
def cN : EReal := Ideal.ofBits .f32 0x47435000#32
/-- The normalisation's epsilon as the program writes it: the f32 word nearest 1e-5. -/
def cEps : EReal := Ideal.ofBits .f32 0x3727C5AC#32

/-- The layer before normalisation. -/
def raw (t0 t1 t2 : SX.Idx → EReal) (W : SW.Idx → EReal) (b : SV.Idx → EReal)
    (n : Fin 50000) (j : Fin 8) (o : Fin 32) : EReal :=
  (∑ k : Fin 32, t0 (ix3 n j k) * W (ix3 (0 : Fin 3) k o)) + (∑ k : Fin 32, t1 (ix3 n j k) * W (ix3 (1 : Fin 3) k o))
    + (∑ k : Fin 32, t2 (ix3 n j k) * W (ix3 (2 : Fin 3) k o)) + b (ix1 o)

section
variable (r : Fin 50000 → Fin 8 → Fin 32 → EReal)

/-- The mean over the nodes. -/
def mean (j : Fin 8) (o : Fin 32) : EReal := Ideal.div (∑ n : Fin 50000, r n j o) cN

/-- The variance as the mean of squared deviations. -/
def varRef (j : Fin 8) (o : Fin 32) : EReal :=
  Ideal.div (∑ n : Fin 50000, (r n j o - mean r j o) * (r n j o - mean r j o)) cN

/-- The variance as the mean of squares minus the squared mean, clamped at zero. -/
def varKer (j : Fin 8) (o : Fin 32) : EReal :=
  max (Ideal.div (∑ n : Fin 50000, r n j o * r n j o) cN - mean r j o * mean r j o) 0

/-- Normalise by a given variance, scale, shift, rectify. -/
def norm (v : Fin 8 → Fin 32 → EReal) (g b : SV.Idx → EReal) (n : Fin 50000) (j : Fin 8) (o : Fin 32) : EReal :=
  max (g (ix1 o) * (r n j o - mean r j o) * Ideal.rsqrt (v j o + cEps) + b (ix1 o)) 0

end

end Cert.Spec

end
-- ==== Proof.LibStackLayout.lean ====
/-
  Unit axes of a stack of matrices, added, dropped and broadcast, each read at an index given by coordinates.

  A vector [c] is viewed as [1, 1, c]; a stack with a unit middle axis [a, 1, c] is viewed as the matrix [a, c]; a matrix
  [a, b] is viewed as the stack [a, b, 1] and back; and a stack [a, b, 1] is broadcast along its last axis to [a, b, c].
  A shape cast keeps the row-major position; a broadcast reads coordinate 0 on the operand's unit axes.
  Nothing here mentions a program.
-/
import Idealize.ShloMosaic.Lib.ValueLayout

namespace Cert.Lib.StackLayout

open Idealize.ShloMosaic Idealize.ShloMosaic.ValueIdx

variable {α : Type}

/-- A vector `[c]` viewed as `[1, 1, c]` reads, at `(u, v, k)`, the vector's entry `k`. -/
theorem cast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; omega)

/-- A `[1, 1, c]` array broadcast to `[a, b, c]` reads, at `(i, j, k)`, the operand at `(0, 0, k)`. -/
theorem bcast_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector `[c]` viewed as `[1, 1, c]` and broadcast to `[a, b, c]` reads, at `(i, j, k)`, the vector's entry `k`. -/
theorem vec_over_stack_apply {a b c : ℕ} (x : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ x h1) h2 (ix3 i j k) = x (ix1 k) :=
  (bcast_11c_abc_apply _ h2 i j k).trans (cast_c_11c_apply x h1 0 0 k)

/-- An `[a, 1, c]` stack viewed as the matrix `[a, c]` reads, at `(i, k)`, the stack at `(i, 0, k)`. -/
theorem cast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- A matrix `[a, b]` viewed as the stack `[a, b, 1]` reads, at `(i, j, u)`, the matrix at `(i, j)`. -/
theorem cast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A stack `[a, b, 1]` viewed as the matrix `[a, b]` reads, at `(i, j)`, the stack at `(i, j, 0)`. -/
theorem cast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- A stack `[a, b, 1]` broadcast to `[a, b, c]` reads, at `(i, j, k)`, the operand at `(i, j, 0)`. -/
theorem bcast_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.Lib.StackLayout
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.KPayloads.lean ====
/-
  The kernel bodies' arithmetic on the extended reals, read entry by entry.

  The first kernel, per block of 625 nodes: each of the three Chebyshev terms [625, 8, 32] is viewed as the matrix
  [5000, 32] (row 8 p + j), multiplied by its [32, 32] weight slab, the three products are added, the sum is viewed
  again as [625, 8, 32] and the bias is added along the last axis. Entry (p, j, o) of the result is therefore
    sum_k x0(p,j,k) w0(k,o) + sum_k x1(p,j,k) w1(k,o) + sum_k x2(p,j,k) w2(k,o) + bias(o).
  The body then adds, to the running column sums [1, 8, 32], the block's sum over its 625 nodes of that value and of
  its square. The second kernel turns the two column sums s, q into mean = s / N and
  variance = max (q / N - mean^2) 0 and writes max (gamma (x - mean) rsqrt (variance + eps) + beta) 0.

  A shape cast keeps the row-major position, a broadcast reads coordinate 0 on the operand's unit axes, and a
  conversion of format is the identity on the extended reals.
-/
import proofs.«156046_j7490422964881_2_alg».proof.Proof.Gen.KernelIdeal.Skeleton
import proofs.«156046_j7490422964881_2_alg».proof.Proof.Spec
import proofs.«156046_j7490422964881_2_alg».proof.Proof.LibStackLayout
import proofs.«156046_j7490422964881_2_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KPay

open Idealize.ShloMosaic Idealize.ShloMosaic.ValueIdx Cert.KernelIdeal

/-! ### Layout operations read at an index -/

/-- A `[1, b, c]` array broadcast to `[a, b, c]` reads, at `(i, j, k)`, the operand at `(0, j, k)`. -/
theorem bcast_1bc_abc_apply {α : Type} {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Row `b * i + j` of a matrix with `a * b` rows, as a row number. -/
def row {a b n : ℕ} (hn : n = a * b) (i : Fin a) (j : Fin b) : Fin n :=
  ⟨i.val * b + j.val, by
    subst hn
    calc i.val * b + j.val < i.val * b + b := Nat.add_lt_add_left j.isLt _
      _ = (i.val + 1) * b := (Nat.succ_mul _ _).symm
      _ ≤ a * b := Nat.mul_le_mul_right _ i.isLt⟩

/-- An `[a, b, c]` stack viewed as the matrix `[n, c]` (`n = a · b`) reads, at row `i · b + j` and column `k`, the
    stack at `(i, j, k)`: both are position `(i · b + j) · c + k` in row-major order. -/
theorem flatten_apply {α : Type} {a b c n : ℕ} (hn : n = a * b) (x : (⟨3, ![a, b, c]⟩ : Shape).Idx → α)
    (h : (⟨3, ![a, b, c]⟩ : Shape).ShapeCasts ⟨2, ![n, c]⟩) (i : Fin a) (j : Fin b) (k : Fin c) :
    shapeCast ⟨2, ![n, c]⟩ x h (ix2 (row hn i j) k) = x (ix3 i j k) :=
  shapeCast_apply x h _ _ (by
    rw [Shape.rowMajor_val_three, Shape.rowMajor_val_two]
    rfl)

/-- An `[n, c]` matrix (`n = a · b`) viewed as the stack `[a, b, c]` reads, at `(i, j, k)`, the matrix at row
    `i · b + j` and column `k`. -/
theorem unflatten_apply {α : Type} {a b c n : ℕ} (hn : n = a * b) (x : (⟨2, ![n, c]⟩ : Shape).Idx → α)
    (h : (⟨2, ![n, c]⟩ : Shape).ShapeCasts ⟨3, ![a, b, c]⟩) (i : Fin a) (j : Fin b) (k : Fin c) :
    shapeCast ⟨3, ![a, b, c]⟩ x h (ix3 i j k) = x (ix2 (row hn i j) k) :=
  shapeCast_apply x h _ _ (by
    rw [Shape.rowMajor_val_three, Shape.rowMajor_val_two]
    rfl)

/-! ### The zero payloads -/

/-- The first accumulator's initial value is zero everywhere. -/
theorem k0_pay4_apply (i : S1x8x32.Idx) : Gen.k0_pay4 (F := Ideal) i = 0 := by
  unfold Gen.k0_pay4
  rw [shapeCast_self]
  exact Ideal.ofBits_zero_f32

/-- The second accumulator's initial value is zero everywhere. -/
theorem k0_pay5_apply (i : S1x8x32.Idx) : Gen.k0_pay5 (F := Ideal) i = 0 := by
  unfold Gen.k0_pay5
  rw [shapeCast_self]
  exact Ideal.ofBits_zero_f32

/-! ### The normalising body -/

/-- The second kernel's stored value at `(p, j, o)`: from the column sum `s` and the column sum of squares `q`, the mean
    `s / N`, the clamped variance `max (q / N - mean²) 0`, and `max (γ (x - mean) rsqrt (variance + ε) + β) 0`. -/
theorem k1_pay1_apply (s q : Vec Ideal S1x8x32 .f32) (g b : Vec Ideal S32 .f32) (x : Vec Ideal S625x8x32 .f32)
    (p : Fin 625) (j : Fin 8) (o : Fin 32) :
    Gen.k1_pay1 s q g b x (ix3 p j o)
      = max (g (ix1 o) * (x (ix3 p j o) - Ideal.div (s (ix3 0 j o)) Cert.Spec.cN)
            * Ideal.rsqrt (max (Ideal.div (q (ix3 0 j o)) Cert.Spec.cN
                - Ideal.div (s (ix3 0 j o)) Cert.Spec.cN * Ideal.div (s (ix3 0 j o)) Cert.Spec.cN) 0 + Cert.Spec.cEps)
          + b (ix1 o)) 0 := by
  unfold Gen.k1_pay1
  simp only [shapeCast_self]
  rw [maximumf_apply, addf_apply, mulf_apply, mulf_apply, subf_apply,
    Cert.Lib.StackLayout.vec_over_stack_apply, Cert.Lib.StackLayout.vec_over_stack_apply,
    bcast_1bc_abc_apply, bcast_1bc_abc_apply]
  simp only [rsqrt, addf_apply, maximumf_apply, subf_apply, mulf_apply, divf_apply, broadcast_apply, Ideal.ofBits_def,
    Ideal.ofBits_zero_f32, Ideal.rsqrt_def]
  rfl

/-! ### The column sums -/

/-- The sum over the leading axis of a `[625, 8, 32]` stack, started from the zero word, read at `(j, o)`. -/
theorem colsum_apply (src : FVec Ideal S625x8x32 .f32) (h : S625x8x32.Reduces [0] S8x32) (hφ : FKind.Formats .f32)
    (hacc : (0x00000000#32 : BitVec 32) = FKind.add.neutral .f32 hφ) (j : Fin 8) (o : Fin 32) :
    multiReduction (F := Ideal) .add [0] S8x32 src 0x00000000#32 h hφ hacc (ix2 j o) = ∑ p : Fin 625, src (ix3 p j o) := by
  refine (Ideal.multiReduction_add_single src 0x00000000#32 h hφ hacc (ix2 j o)).trans ?_
  refine Finset.sum_congr rfl fun p _ => congrArg src (funext fun c => Fin.ext ?_)
  match c with
  | ⟨0, _⟩ => rfl
  | ⟨1, _⟩ => rfl
  | ⟨2, _⟩ => rfl

/-- The first accumulator's new value at `(0, j, o)`: its old value plus the block's sum, over its 625 nodes, of the
    pre-normalisation value. -/
theorem k0_pay2_apply (v31 : FVec Ideal S625x8x32 .f32) (v32 : Vec Ideal S32 .f32) (v42 : Vec Ideal S1x8x32 .f32)
    (j : Fin 8) (o : Fin 32) :
    Gen.k0_pay2 v31 v32 v42 (ix3 (0 : Fin 1) j o)
      = v42 (ix3 0 j o) + ∑ p : Fin 625, Gen.k0_pay1 v31 v32 (ix3 p j o) := by
  unfold Gen.k0_pay2
  simp only [shapeCast_self]
  rw [addf_apply, shapeCast_ab_1ab_apply]
  exact congrArg (v42 (ix3 0 j o) + ·) (colsum_apply _ _ _ _ j o)

/-- The second accumulator's new value at `(0, j, o)`: its old value plus the block's sum of the squared
    pre-normalisation values. -/
theorem k0_pay3_apply (v31 : FVec Ideal S625x8x32 .f32) (v32 : Vec Ideal S32 .f32) (v47 : Vec Ideal S1x8x32 .f32)
    (j : Fin 8) (o : Fin 32) :
    Gen.k0_pay3 v31 v32 v47 (ix3 (0 : Fin 1) j o)
      = v47 (ix3 0 j o) + ∑ p : Fin 625, Gen.k0_pay1 v31 v32 (ix3 p j o) * Gen.k0_pay1 v31 v32 (ix3 p j o) := by
  unfold Gen.k0_pay3
  simp only [shapeCast_self]
  rw [addf_apply, shapeCast_ab_1ab_apply]
  exact congrArg (v47 (ix3 0 j o) + ·) (colsum_apply _ _ _ _ j o)

/-! ### The block of the layer before normalisation -/

/-- Adding the bias along the last axis: the value at `(p, j, o)` plus `bias(o)`. -/
theorem k0_pay1_apply (v31 : FVec Ideal S625x8x32 .f32) (bv : Vec Ideal S32 .f32) (p : Fin 625) (j : Fin 8) (o : Fin 32) :
    Gen.k0_pay1 v31 bv (ix3 p j o) = v31 (ix3 p j o) + bv (ix1 o) := by
  unfold Gen.k0_pay1
  simp only [addf_apply, Cert.Lib.StackLayout.vec_over_stack_apply]

/-- One term's product: the `[625, 8, 32]` block viewed as `[5000, 32]` times the `[1, 32, 32]` slab viewed as
    `[32, 32]`, into the zero accumulator, read at row `8 p + j` and column `o`, is `Σ_k x(p, j, k) · w(0, k, o)`:
    the conversions of format are the identity and the casts keep the row-major position. -/
theorem term_apply (x : Vec Ideal S625x8x32 .f32) (w : Vec Ideal S1x32x32 .f32)
    (hx : S625x8x32.ShapeCasts S5000x32) (hw : S1x32x32.ShapeCasts S32x32) (hlt : FTy.bits .bf16 < FTy.bits .f32)
    (p : Fin 625) (j : Fin 8) (o : Fin 32) :
    matmul (F := Ideal) dot_S5000x32_S32x32_S5000x32_1_0_0_1_n_n none
        (truncf .bf16 (shapeCast S5000x32 x hx) hlt) (truncf .bf16 (shapeCast S32x32 w hw) hlt)
        (constant S5000x32 .f32 0x00000000#32) (ix2 (row (a := 625) (b := 8) (n := 5000) (by norm_num) p j) o)
      = ∑ k : Fin 32, x (ix3 p j k) * w (ix3 (0 : Fin 1) k o) := by
  refine (Cert.PlainMatmul.matmul_zero_apply (m := 5000) (K := 32) (n := 32)
    dot_S5000x32_S32x32_S5000x32_1_0_0_1_n_n.wf none _ _ _ o).trans ?_
  refine Finset.sum_congr rfl fun k _ => ?_
  rw [truncf_apply, truncf_apply, flatten_apply, shapeCast_1ab_ab_apply]

/-- The three products added, viewed again as `[625, 8, 32]`, read at `(p, j, o)`. -/
theorem k0_pay6_apply (x0 : Vec Ideal S625x8x32 .f32) (w0 : Vec Ideal S1x32x32 .f32) (x1 : Vec Ideal S625x8x32 .f32)
    (w1 : Vec Ideal S1x32x32 .f32) (x2 : Vec Ideal S625x8x32 .f32) (w2 : Vec Ideal S1x32x32 .f32)
    (p : Fin 625) (j : Fin 8) (o : Fin 32) :
    Gen.k0_pay6 x0 w0 x1 w1 x2 w2 (ix3 p j o)
      = (∑ k : Fin 32, x0 (ix3 p j k) * w0 (ix3 (0 : Fin 1) k o)) + (∑ k : Fin 32, x1 (ix3 p j k) * w1 (ix3 (0 : Fin 1) k o))
        + (∑ k : Fin 32, x2 (ix3 p j k) * w2 (ix3 (0 : Fin 1) k o)) := by
  unfold Gen.k0_pay6
  simp only [shapeCast_self]
  rw [unflatten_apply (a := 625) (b := 8) (c := 32) (n := 5000) (by norm_num), addf_apply, addf_apply, addf_apply,
    broadcast_apply, term_apply, term_apply, term_apply]
  show Ideal.ofBits .f32 0x00000000#32 + _ + _ + _ = _
  rw [Ideal.ofBits_zero_f32, zero_add]

/-- The block of the layer before normalisation at `(p, j, o)`, in the association of the specification. -/
theorem k0_pay1_pay6_apply (x0 : Vec Ideal S625x8x32 .f32) (w0 : Vec Ideal S1x32x32 .f32) (x1 : Vec Ideal S625x8x32 .f32)
    (w1 : Vec Ideal S1x32x32 .f32) (x2 : Vec Ideal S625x8x32 .f32) (w2 : Vec Ideal S1x32x32 .f32) (bv : Vec Ideal S32 .f32)
    (p : Fin 625) (j : Fin 8) (o : Fin 32) :
    Gen.k0_pay1 (Gen.k0_pay6 x0 w0 x1 w1 x2 w2) bv (ix3 p j o)
      = (∑ k : Fin 32, x0 (ix3 p j k) * w0 (ix3 (0 : Fin 1) k o)) + (∑ k : Fin 32, x1 (ix3 p j k) * w1 (ix3 (0 : Fin 1) k o))
        + (∑ k : Fin 32, x2 (ix3 p j k) * w2 (ix3 (0 : Fin 1) k o)) + bv (ix1 o) := by
  rw [k0_pay1_apply, k0_pay6_apply]

end Cert.KPay

end
-- ==== Proof.LibNormCollapse.lean ====
/-
  A BatchNorm layer followed by a GraphNorm layer over one graph, per feature, is ONE affine map of the input.

  For a feature column h over the finite node set, with n the number of nodes, write m for the mean of h and v for the
  mean of the squared deviations (h - m)^2. BatchNorm gives y = (h - m) * r * g + b with r = 1 / sqrt (v + eps).
  The mean of y is exactly b, because the deviations h - m sum to zero; so GraphNorm's centred value is
  xs = y - a * b = (h - m) * r * g + c with c = b * (1 - a), and the mean of xs^2 is g^2 * r^2 * v + c^2
  = g^2 * v / (v + eps) + c^2, the cross term vanishing for the same reason and r^2 being 1 / (v + eps).
  Hence GraphNorm's output xs * r' * g' + b' (r' the reciprocal root of that mean plus eps) equals h * A + B with
  A = r * g * r' * g' and B = c * r' * g' + b' - m * A, and v itself is (mean of h^2) - m^2.
-/
import Mathlib.Analysis.SpecialFunctions.Pow.Real
import Mathlib.Algebra.BigOperators.Group.Finset.Basic
import Mathlib.Tactic

open scoped BigOperators

namespace NormCollapse

variable {ι : Type} [Fintype ι]

/-- The deviations from the mean sum to zero. -/
theorem sum_dev (h : ι → ℝ) (n : ℝ) (hn : n = Fintype.card ι) (hn0 : n ≠ 0) :
    ∑ j, (h j - (∑ k, h k) / n) = 0 := by
  rw [Finset.sum_sub_distrib, Finset.sum_const, Finset.card_univ, nsmul_eq_mul, ← hn]
  field_simp
  ring

/-- The mean of the squared deviations is the mean of the squares minus the square of the mean. -/
theorem var_eq (h : ι → ℝ) (n : ℝ) (hn : n = Fintype.card ι) (hn0 : n ≠ 0) :
    (∑ j, (h j - (∑ k, h k) / n) * (h j - (∑ k, h k) / n)) / n
      = (∑ j, h j * h j) / n - ((∑ k, h k) / n) * ((∑ k, h k) / n) := by
  have e : ∀ j, (h j - (∑ k, h k) / n) * (h j - (∑ k, h k) / n)
      = h j * h j - 2 * ((∑ k, h k) / n) * h j + ((∑ k, h k) / n) * ((∑ k, h k) / n) := fun j => by ring
  simp only [e, Finset.sum_add_distrib, Finset.sum_sub_distrib, ← Finset.mul_sum, Finset.sum_const,
    Finset.card_univ, nsmul_eq_mul, ← hn]
  field_simp
  ring

/-- The mean of the squared deviations is not negative. -/
theorem var_nonneg (h : ι → ℝ) (n : ℝ) (hn0 : 0 < n) (m : ℝ) :
    0 ≤ (∑ j, (h j - m) * (h j - m)) / n :=
  div_nonneg (Finset.sum_nonneg fun j _ => mul_self_nonneg _) hn0.le

noncomputable section

/-- The mean of a column over the nodes, with n the number of nodes. -/
def mean (n : ℝ) (f : ι → ℝ) : ℝ := (∑ k, f k) / n

/-- BatchNorm of a column: centre by the mean, scale by the reciprocal root of the variance plus eps, then g and b. -/
def bnorm (n ε g b : ℝ) (h : ι → ℝ) : ι → ℝ := fun i =>
  (h i - mean n h) * (Real.sqrt (mean n (fun j => (h j - mean n h) * (h j - mean n h)) + ε))⁻¹ * g + b

/-- GraphNorm of a column over one graph: subtract a times the mean, scale by the reciprocal root of the mean
    square plus eps, then g and b. -/
def gnorm (n ε g b a : ℝ) (y : ι → ℝ) : ι → ℝ := fun i =>
  (y i - a * mean n y)
    * (Real.sqrt (mean n (fun j => (y j - a * mean n y) * (y j - a * mean n y)) + ε))⁻¹ * g + b

/-- The slope of the collapsed affine map, from the column's sum s and sum of squares q. -/
def slope (n ε g b gg a s q : ℝ) : ℝ :=
  (Real.sqrt ((q / n - (s / n) * (s / n)) + ε))⁻¹ * g
    * (Real.sqrt ((g * g * (q / n - (s / n) * (s / n)) / ((q / n - (s / n) * (s / n)) + ε)
        + b * (1 - a) * (b * (1 - a))) + ε))⁻¹ * gg

/-- The intercept of the collapsed affine map. -/
def icept (n ε g b gg gb a s q : ℝ) : ℝ :=
  b * (1 - a)
    * (Real.sqrt ((g * g * (q / n - (s / n) * (s / n)) / ((q / n - (s / n) * (s / n)) + ε)
        + b * (1 - a) * (b * (1 - a))) + ε))⁻¹ * gg + gb
    - s / n * slope n ε g b gg a s q

/-- The mean of a BatchNorm output is exactly its shift b. -/
theorem mean_bnorm (h : ι → ℝ) (n ε g b : ℝ) (hn : n = Fintype.card ι) (hn0 : n ≠ 0) :
    mean n (bnorm n ε g b h) = b := by
  unfold mean bnorm mean
  have e : ∀ i, (h i - (∑ k, h k) / n) * (Real.sqrt ((∑ k, (h k - (∑ k, h k) / n) * (h k - (∑ k, h k) / n)) / n + ε))⁻¹ * g + b
      = (Real.sqrt ((∑ k, (h k - (∑ k, h k) / n) * (h k - (∑ k, h k) / n)) / n + ε))⁻¹ * g * (h i - (∑ k, h k) / n) + b :=
    fun i => by ring
  simp only [e, Finset.sum_add_distrib, ← Finset.mul_sum, sum_dev h n hn hn0, Finset.sum_const, Finset.card_univ,
    nsmul_eq_mul, ← hn, mul_zero, zero_add]
  field_simp

/-- BatchNorm then GraphNorm is the affine map with the collapsed slope and intercept. -/
theorem collapse (h : ι → ℝ) (n ε g b gg gb a : ℝ) (hn : n = Fintype.card ι) (hn0 : 0 < n) (hε : 0 < ε) (i : ι) :
    gnorm n ε gg gb a (bnorm n ε g b h) i
      = h i * slope n ε g b gg a (∑ k, h k) (∑ k, h k * h k)
        + icept n ε g b gg gb a (∑ k, h k) (∑ k, h k * h k) := by
  have hn0' : n ≠ 0 := hn0.ne'
  -- the variance in its two spellings
  set m := (∑ k, h k) / n with hm
  have hv : (∑ k, h k * h k) / n - m * m = (∑ j, (h j - m) * (h j - m)) / n := (var_eq h n hn hn0').symm
  set v := (∑ j, (h j - m) * (h j - m)) / n with hvdef
  have hv0 : 0 ≤ v := var_nonneg h n hn0 m
  have hpos : 0 < v + ε := by linarith
  set r := (Real.sqrt (v + ε))⁻¹ with hr
  have hr2 : r * r = (v + ε)⁻¹ := by rw [hr, ← mul_inv, Real.mul_self_sqrt hpos.le]
  -- the BatchNorm output and its mean
  have hb : ∀ j, bnorm n ε g b h j = (h j - m) * r * g + b := fun j => rfl
  have hmean : mean n (bnorm n ε g b h) = b := mean_bnorm h n ε g b hn hn0'
  -- the centred value and its mean square
  have hxs : ∀ j, bnorm n ε g b h j - a * mean n (bnorm n ε g b h) = (h j - m) * r * g + b * (1 - a) := fun j => by
    rw [hmean, hb]; ring
  have hsq : mean n (fun j => (bnorm n ε g b h j - a * mean n (bnorm n ε g b h))
      * (bnorm n ε g b h j - a * mean n (bnorm n ε g b h)))
      = g * g * v / (v + ε) + b * (1 - a) * (b * (1 - a)) := by
    have e : ∀ j, (bnorm n ε g b h j - a * mean n (bnorm n ε g b h)) * (bnorm n ε g b h j - a * mean n (bnorm n ε g b h))
        = r * r * (g * g) * ((h j - m) * (h j - m)) + 2 * r * g * (b * (1 - a)) * (h j - m)
          + b * (1 - a) * (b * (1 - a)) := fun j => by rw [hxs]; ring
    have hdev : ∑ j, (h j - m) = 0 := sum_dev h n hn hn0'
    rw [funext e]
    unfold mean
    simp only [Finset.sum_add_distrib, ← Finset.mul_sum, hdev, Finset.sum_const,
      Finset.card_univ, nsmul_eq_mul, ← hn, mul_zero, add_zero]
    rw [hr2]
    have : ∑ j, (h j - m) * (h j - m) = n * v := by rw [hvdef]; field_simp
    rw [this]
    field_simp
  unfold gnorm
  rw [hsq, hxs]
  unfold icept slope
  rw [hv]
  ring

end

end NormCollapse
-- ==== Proof.LibRealSums.lean ====
/-
  Finite sums of real numbers inside the extended reals, and the few float constants a mean over 64 rows and a
  batch-norm scale spell.

  On the extended reals multiplication does not distribute over a sum that mixes `⊤` and `⊥`; on real numbers it
  does. So a sum of products of real numbers, scaled by a real number, is the sum of the products with the scale moved
  inside each term:  (Σ_k x_k · w_k) · v = Σ_k x_k · (w_k · v).  A sum over `a + b` consecutive terms is the sum of its
  two stretches (associativity only, no finiteness). A quotient by the real 64 is the product with 1/64. For a real
  `s ≥ 0` and the f32 constant `ε = 0x3727C5AC > 0`, `γ · rsqrt (s + ε)` is a real number when `γ` is.
-/
import Mathlib.Algebra.BigOperators.Fin
import Idealize.ShloMosaic.PureOps.Ideal

noncomputable section

namespace Cert.LibRealSums

open Idealize.ShloMosaic

/-- An extended real that is a real number. -/
def IsReal (x : EReal) : Prop := ∃ r : ℝ, x = (r : EReal)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, times a real, is the sum with the factor moved inside each product. -/
theorem sum_mul_real {n : ℕ} (x w : Fin n → EReal) (v : EReal) (hx : ∀ k, IsReal (x k)) (hw : ∀ k, IsReal (w k))
    (hv : IsReal v) : (∑ k, x k * w k) * v = ∑ k, x k * (w k * v) := by
  choose xr hxr using hx
  choose wr hwr using hw
  obtain ⟨vr, rfl⟩ := hv
  simp only [hxr, hwr, ← EReal.coe_mul, ← coe_sum]
  congr 1
  rw [Finset.sum_mul]
  exact Finset.sum_congr rfl fun k _ => mul_assoc _ _ _

/-- A sum of products of reals is a real. -/
theorem isReal_sum_mul {n : ℕ} (x w : Fin n → EReal) (hx : ∀ k, IsReal (x k)) (hw : ∀ k, IsReal (w k)) :
    IsReal (∑ k, x k * w k) := by
  choose xr hxr using hx
  choose wr hwr using hw
  refine ⟨∑ k, xr k * wr k, ?_⟩
  simp only [hxr, hwr, ← EReal.coe_mul, ← coe_sum]

/-- On real numbers multiplication distributes over a sum of two. -/
theorem add_mul_real (a b v : EReal) (ha : IsReal a) (hb : IsReal b) (hv : IsReal v) : (a + b) * v = a * v + b * v := by
  obtain ⟨ar, rfl⟩ := ha
  obtain ⟨br, rfl⟩ := hb
  obtain ⟨vr, rfl⟩ := hv
  rw [← EReal.coe_add, ← EReal.coe_mul, ← EReal.coe_mul, ← EReal.coe_mul, ← EReal.coe_add, add_mul]

/-- The sum of two reals is a real. -/
theorem isReal_add (a b : EReal) (ha : IsReal a) (hb : IsReal b) : IsReal (a + b) := by
  obtain ⟨ar, rfl⟩ := ha
  obtain ⟨br, rfl⟩ := hb
  exact ⟨ar + br, (EReal.coe_add ar br).symm⟩

/-- `∑ k < a + b, f k = ∑ k < a, f k + ∑ k < b, f (a + k)`. -/
theorem sum_two {M : Type*} [AddCommMonoid M] (a b n : ℕ) (h : n = a + b) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- The f32 pattern of `+0.0` is the real zero. -/
theorem ofBits_zero : Ideal.ofBits .f32 0x00000000#32 = (0 : EReal) := by
  simp [Ideal.ofBits, Ideal.ieee]

/-- The f32 pattern `0x42800000` is the real 64. -/
theorem ofBits_64 : Ideal.ofBits .f32 0x42800000#32 = ((64 : ℝ) : EReal) := by
  simp [Ideal.ofBits, Ideal.ieee, -EReal.coe_mul]; norm_num

/-- The f32 pattern `0x3C800000` is the real 1/64. -/
theorem ofBits_inv64 : Ideal.ofBits .f32 0x3C800000#32 = ((1 / 64 : ℝ) : EReal) := by
  simp [Ideal.ofBits, Ideal.ieee, -EReal.coe_mul]; norm_num

/-- A quotient by the f32 constant 64 is the product with the f32 constant 1/64. -/
theorem div_64 (x : EReal) :
    Ideal.div x (Ideal.ofBits .f32 0x42800000#32) = x * Ideal.ofBits .f32 0x3C800000#32 := by
  rw [ofBits_64, ofBits_inv64]
  exact Ideal.div_coe (by norm_num) x

/-- The f32 pattern `0x3727C5AC` (the batch-norm ε) is a positive real. -/
theorem eps_pos : ∃ e : ℝ, 0 < e ∧ Ideal.ofBits .f32 0x3727C5AC#32 = (e : EReal) := by
  refine ⟨(10995116 : ℝ) / 2 ^ 40, by positivity, ?_⟩
  simp [Ideal.ofBits, Ideal.ieee, -EReal.coe_mul]; norm_num

/-- For real `γ`, real `s ≥ 0` and the constant ε, `γ · rsqrt (s + ε)` is a real number. -/
theorem scale_isReal (g s : EReal) (hg : IsReal g) (hs : ∃ r : ℝ, 0 ≤ r ∧ s = (r : EReal)) :
    IsReal (g * Ideal.rsqrt (s + Ideal.ofBits .f32 0x3727C5AC#32)) := by
  obtain ⟨gr, rfl⟩ := hg
  obtain ⟨sr, hs0, rfl⟩ := hs
  obtain ⟨e, he, hE⟩ := eps_pos
  rw [hE, ← EReal.coe_add, Ideal.rsqrt_coe, if_neg (by linarith), if_neg (by linarith), ← EReal.coe_mul]
  exact ⟨_, rfl⟩

end Cert.LibRealSums

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.LibVarianceForms.lean ====
/-
  A variance in two spellings, and sums taken step by step or block by block.

  For real numbers x_i over a finite index set of N elements, with s = sum_i x_i, q = sum_i x_i^2 and m = s / N:
    (sum_i (x_i - m)^2) / N  =  q / N - m^2,
  and the left side is a mean of squares, hence not negative, so clamping the right side at zero changes nothing.
  Inside the extended reals the same holds as long as every x_i is a real number: every sum, product,
  difference and quotient by the real N then stays a real number and is the coercion of the real expression.

  A sum accumulated one term at a time is the sum of the terms seen so far, and a sum over a * b consecutive
  positions is the sum over a blocks of b of each block's sum; both use only associativity and commutativity,
  so they hold in the extended reals at the infinities too.
-/
import proofs.«156046_j7490422964881_2_alg».proof.Proof.Spec
import proofs.«156046_j7490422964881_2_alg».proof.Proof.LibNormCollapse
import proofs.«156046_j7490422964881_2_alg».proof.Proof.LibRealSums
import proofs.«156046_j7490422964881_2_alg».proof.Proof.LibSumBlocks

noncomputable section

namespace Cert.Spec

open Idealize.ShloMosaic

/-- The f32 word `0x47435000` is the real number 50000 (2^15 * (1 + 4411392 / 2^23)). -/
theorem cN_eq : cN = ((50000 : ℝ) : EReal) := by
  simp [cN, Ideal.ofBits, Ideal.ieee, -EReal.coe_mul]; norm_num

/-- For real numbers `x i` over a finite index set of `N` elements, inside the extended reals: the mean of the
    squares minus the squared mean, clamped at zero, is the mean of the squared deviations from the mean. -/
theorem var_forms {ι : Type} [Fintype ι] (x : ι → ℝ) (N : ℝ) (hN : N = Fintype.card ι) (hN0 : 0 < N) :
    max (Ideal.div (∑ i, (x i : EReal) * (x i : EReal)) (N : EReal)
          - Ideal.div (∑ i, (x i : EReal)) (N : EReal) * Ideal.div (∑ i, (x i : EReal)) (N : EReal)) 0
      = Ideal.div (∑ i, ((x i : EReal) - Ideal.div (∑ k, (x k : EReal)) (N : EReal))
            * ((x i : EReal) - Ideal.div (∑ k, (x k : EReal)) (N : EReal))) (N : EReal) := by
  have hN0' : N ≠ 0 := hN0.ne'
  have key := NormCollapse.var_eq x N hN hN0'
  have nn := NormCollapse.var_nonneg x N hN0 ((∑ k, x k) / N)
  simp only [Ideal.div_coe hN0', ← EReal.coe_mul, ← Cert.LibRealSums.coe_sum, ← EReal.coe_sub, mul_one_div]
  rw [← key, max_eq_left (EReal.coe_nonneg.mpr nn)]

/-- On real entries the clamped "mean of squares minus squared mean" variance is the "mean of squared
    deviations" variance. -/
theorem varKer_eq_varRef (r : Fin 50000 → Fin 8 → Fin 32 → EReal)
    (hr : ∀ n j o, ∃ x : ℝ, r n j o = (x : EReal)) : varKer r = varRef r := by
  funext j o
  choose x hx using fun n => hr n j o
  simp only [varKer, varRef, mean, hx, cN_eq]
  exact var_forms x 50000 (by simp) (by norm_num)

/-! ### Sums taken step by step, and block by block -/

/-- A sum accumulated one term at a time, started at its first term, is after step `t` the sum of the terms
    `0, …, t`. Only the monoid laws are used. -/
theorem running_sum {M : Type*} [AddCommMonoid M] (p acc : ℕ → M) (h0 : acc 0 = p 0)
    (hs : ∀ t, acc (t + 1) = acc t + p (t + 1)) (t : ℕ) : acc t = ∑ i ∈ Finset.range (t + 1), p i := by
  induction t with
  | zero => simp [h0]
  | succ t ih => rw [hs, ih, Finset.sum_range_succ _ (t + 1)]

/-- The same when the accumulation starts at zero plus the first term. -/
theorem running_sum_zero {M : Type*} [AddCommMonoid M] (p acc : ℕ → M) (h0 : acc 0 = 0 + p 0)
    (hs : ∀ t, acc (t + 1) = acc t + p (t + 1)) (t : ℕ) : acc t = ∑ i ∈ Finset.range (t + 1), p i :=
  running_sum p acc (by rw [h0, zero_add]) hs t

/-- After the last of `n + 1` steps the accumulated sum is the sum over all `n + 1` steps, indexed by `Fin`. -/
theorem running_sum_fin {M : Type*} [AddCommMonoid M] (p acc : ℕ → M) (h0 : acc 0 = p 0)
    (hs : ∀ t, acc (t + 1) = acc t + p (t + 1)) (n : ℕ) : acc n = ∑ i : Fin (n + 1), p i.val := by
  rw [running_sum p acc h0 hs n, Fin.sum_univ_eq_sum_range p (n + 1)]

/-- The bounded form: when only the first `T` steps obey the accumulation law, the accumulated sum after step
    `t < T` is still the sum of the terms `0, …, t`. -/
theorem running_sum_lt {M : Type*} [AddCommMonoid M] (p acc : ℕ → M) (T : ℕ) (h0 : acc 0 = p 0)
    (hs : ∀ t, t + 1 < T → acc (t + 1) = acc t + p (t + 1)) (t : ℕ) (ht : t < T) :
    acc t = ∑ i ∈ Finset.range (t + 1), p i := by
  induction t with
  | zero => simp [h0]
  | succ t ih => rw [hs t ht, ih (by omega), Finset.sum_range_succ _ (t + 1)]

/-- Position `i` of block `t`, among `a` blocks of `b` consecutive positions, lies below `a * b`. -/
theorem block_lt {a b : ℕ} (t : Fin a) (i : Fin b) : b * t.val + i.val < a * b := by
  have ht := t.isLt
  have hi := i.isLt
  calc b * t.val + i.val < b * t.val + b := by omega
    _ = b * (t.val + 1) := by ring
    _ ≤ b * a := Nat.mul_le_mul_left b ht
    _ = a * b := Nat.mul_comm b a

/-- A sum over `n = a * b` positions is the sum over the `a` blocks of the sum over each block's `b` positions,
    position `i` of block `t` being `b * t + i`. Only the monoid laws are used. -/
theorem sum_blocks {M : Type*} [AddCommMonoid M] {n : ℕ} (a b : ℕ) (hn : n = a * b) (f : Fin n → M) :
    ∑ t : Fin a, ∑ i : Fin b, f ⟨b * t.val + i.val, (block_lt t i).trans_eq hn.symm⟩ = ∑ k : Fin n, f k := by
  rw [Cert.Lib.SumBlocks.sum_fin_blocks a b hn f,
    ← Fin.sum_univ_eq_sum_range (fun s => ∑ q : Fin b, Cert.Lib.SumBlocks.onNat f (s * b + q.val)) a]
  refine Finset.sum_congr rfl fun t _ => Finset.sum_congr rfl fun i _ => ?_
  have hlt : t.val * b + i.val < n := by rw [Nat.mul_comm]; exact (block_lt t i).trans_eq hn.symm
  rw [Cert.Lib.SumBlocks.onNat_of_lt f _ hlt]
  congr 1
  exact Fin.ext (by simp [Nat.mul_comm])

/-- The 50000 positions as 80 blocks of 625. -/
theorem sum_80_625 {M : Type*} [AddCommMonoid M] (f : Fin 50000 → M) :
    ∑ t : Fin 80, ∑ i : Fin 625, f ⟨625 * t.val + i.val, by have := t.isLt; have := i.isLt; omega⟩
      = ∑ n : Fin 50000, f n :=
  sum_blocks 80 625 (by norm_num) f

/-- Eighty blocks of 625, accumulated block by block from the first block's sum, total the sum over all 50000
    positions: if `p t` is the sum of `f` over block `t` and `acc` adds one block per step, then after the last
    step `acc` is the whole sum. -/
theorem acc_blocks_total {M : Type*} [AddCommMonoid M] (f : Fin 50000 → M) (p acc : ℕ → M)
    (hp : ∀ t : Fin 80, p t.val
      = ∑ i : Fin 625, f ⟨625 * t.val + i.val, by have := t.isLt; have := i.isLt; omega⟩)
    (h0 : acc 0 = p 0) (hs : ∀ t, t + 1 < 80 → acc (t + 1) = acc t + p (t + 1)) :
    acc 79 = ∑ n : Fin 50000, f n := by
  rw [running_sum_lt p acc 80 h0 hs 79 (by norm_num), ← Fin.sum_univ_eq_sum_range p 80, ← sum_80_625 f]
  exact Finset.sum_congr rfl fun t _ => hp t

/-! ### The layer on real entries -/

/-- On real entries, normalising by either spelling of the variance gives the same layer. -/
theorem norm_varKer_eq (r : Fin 50000 → Fin 8 → Fin 32 → EReal)
    (hr : ∀ n j o, ∃ x : ℝ, r n j o = (x : EReal)) (g b : SV.Idx → EReal) :
    norm r (varKer r) g b = norm r (varRef r) g b := by
  rw [varKer_eq_varRef r hr]

end Cert.Spec

end
-- ==== Proof.KAccum.lean ====
/-
  From the kernel's block-by-block accumulation to the column sums of the whole layer, and the normalising body in
  the specification's words.

  The first kernel visits the 50000 nodes in 80 blocks of 625. Block t holds rows 625 t … 625 t + 624 of the three
  Chebyshev terms, so the value it computes at (p, j, o) is the layer before normalisation at node 625 t + p. Each
  visit adds the block's sum over its nodes (of the value, and of its square) to an accumulator that starts at zero;
  after the last block the accumulators hold the sums over all 50000 nodes: a sum over 80 · 625 consecutive positions
  is the sum of its 80 blocks' sums, by associativity and commutativity alone.

  The second kernel's value, written with those sums, is the specification's normalised layer with the variance in
  its "mean of squares minus squared mean, clamped" spelling.
-/
import proofs.«156046_j7490422964881_2_alg».proof.Proof.KPayloads
import proofs.«156046_j7490422964881_2_alg».proof.Proof.LibVarianceForms

noncomputable section

namespace Cert.KPay

open Idealize.ShloMosaic Idealize.ShloMosaic.ValueIdx Cert.KernelIdeal

/-- Block `t` of the first kernel computes, at `(p, j, o)`, the layer before normalisation at node `625 t + p`:
    the block's operands are rows `625 t + p` of the three terms and the three slabs of the weights. -/
theorem raw_block (T0 T1 T2 : Vec Ideal S50000x8x32 .f32) (W : Vec Ideal S3x32x32 .f32) (bv : Vec Ideal S32 .f32)
    (X0 X1 X2 : ℕ → Vec Ideal S625x8x32 .f32) (w0 w1 w2 : Vec Ideal S1x32x32 .f32)
    (hX0 : ∀ (t : ℕ) (ht : t < 80) (p : Fin 625) (j : Fin 8) (k : Fin 32),
      X0 t (ix3 p j k) = T0 (ix3 (⟨625 * t + p.val, by have := p.isLt; omega⟩ : Fin 50000) j k))
    (hX1 : ∀ (t : ℕ) (ht : t < 80) (p : Fin 625) (j : Fin 8) (k : Fin 32),
      X1 t (ix3 p j k) = T1 (ix3 (⟨625 * t + p.val, by have := p.isLt; omega⟩ : Fin 50000) j k))
    (hX2 : ∀ (t : ℕ) (ht : t < 80) (p : Fin 625) (j : Fin 8) (k : Fin 32),
      X2 t (ix3 p j k) = T2 (ix3 (⟨625 * t + p.val, by have := p.isLt; omega⟩ : Fin 50000) j k))
    (hw0 : ∀ (k o : Fin 32), w0 (ix3 (0 : Fin 1) k o) = W (ix3 (0 : Fin 3) k o))
    (hw1 : ∀ (k o : Fin 32), w1 (ix3 (0 : Fin 1) k o) = W (ix3 (1 : Fin 3) k o))
    (hw2 : ∀ (k o : Fin 32), w2 (ix3 (0 : Fin 1) k o) = W (ix3 (2 : Fin 3) k o))
    (t : ℕ) (ht : t < 80) (p : Fin 625) (j : Fin 8) (o : Fin 32) :
    Gen.k0_pay1 (Gen.k0_pay6 (X0 t) w0 (X1 t) w1 (X2 t) w2) bv (ix3 p j o)
      = Cert.Spec.raw T0 T1 T2 W bv ⟨625 * t + p.val, by have := p.isLt; omega⟩ j o := by
  rw [k0_pay1_pay6_apply]
  unfold Cert.Spec.raw
  simp only [hX0 t ht, hX1 t ht, hX2 t ht, hw0, hw1, hw2]

/-- After the 80th block the two accumulators hold, at `(0, j, o)`, the sum over all 50000 nodes of the layer before
    normalisation and of its square. -/
theorem acc_total (T0 T1 T2 : Vec Ideal S50000x8x32 .f32) (W : Vec Ideal S3x32x32 .f32) (bv : Vec Ideal S32 .f32)
    (X0 X1 X2 : ℕ → Vec Ideal S625x8x32 .f32) (w0 w1 w2 : Vec Ideal S1x32x32 .f32)
    (hX0 : ∀ (t : ℕ) (ht : t < 80) (p : Fin 625) (j : Fin 8) (k : Fin 32),
      X0 t (ix3 p j k) = T0 (ix3 (⟨625 * t + p.val, by have := p.isLt; omega⟩ : Fin 50000) j k))
    (hX1 : ∀ (t : ℕ) (ht : t < 80) (p : Fin 625) (j : Fin 8) (k : Fin 32),
      X1 t (ix3 p j k) = T1 (ix3 (⟨625 * t + p.val, by have := p.isLt; omega⟩ : Fin 50000) j k))
    (hX2 : ∀ (t : ℕ) (ht : t < 80) (p : Fin 625) (j : Fin 8) (k : Fin 32),
      X2 t (ix3 p j k) = T2 (ix3 (⟨625 * t + p.val, by have := p.isLt; omega⟩ : Fin 50000) j k))
    (hw0 : ∀ (k o : Fin 32), w0 (ix3 (0 : Fin 1) k o) = W (ix3 (0 : Fin 3) k o))
    (hw1 : ∀ (k o : Fin 32), w1 (ix3 (0 : Fin 1) k o) = W (ix3 (1 : Fin 3) k o))
    (hw2 : ∀ (k o : Fin 32), w2 (ix3 (0 : Fin 1) k o) = W (ix3 (2 : Fin 3) k o))
    (accS accQ : ℕ → Vec Ideal S1x8x32 .f32)
    (hS0 : accS 0 = Gen.k0_pay2 (Gen.k0_pay6 (X0 0) w0 (X1 0) w1 (X2 0) w2) bv (Gen.k0_pay4 (F := Ideal)))
    (hSs : ∀ t, t + 1 < 80 →
      accS (t + 1) = Gen.k0_pay2 (Gen.k0_pay6 (X0 (t + 1)) w0 (X1 (t + 1)) w1 (X2 (t + 1)) w2) bv (accS t))
    (hQ0 : accQ 0 = Gen.k0_pay3 (Gen.k0_pay6 (X0 0) w0 (X1 0) w1 (X2 0) w2) bv (Gen.k0_pay5 (F := Ideal)))
    (hQs : ∀ t, t + 1 < 80 →
      accQ (t + 1) = Gen.k0_pay3 (Gen.k0_pay6 (X0 (t + 1)) w0 (X1 (t + 1)) w1 (X2 (t + 1)) w2) bv (accQ t))
    (j : Fin 8) (o : Fin 32) :
    accS 79 (ix3 (0 : Fin 1) j o) = ∑ n : Fin 50000, Cert.Spec.raw T0 T1 T2 W bv n j o
      ∧ accQ 79 (ix3 (0 : Fin 1) j o)
          = ∑ n : Fin 50000, Cert.Spec.raw T0 T1 T2 W bv n j o * Cert.Spec.raw T0 T1 T2 W bv n j o := by
  have blk : ∀ (t : ℕ) (ht : t < 80) (p : Fin 625),
      Gen.k0_pay1 (Gen.k0_pay6 (X0 t) w0 (X1 t) w1 (X2 t) w2) bv (ix3 p j o)
        = Cert.Spec.raw T0 T1 T2 W bv ⟨625 * t + p.val, by have := p.isLt; omega⟩ j o :=
    fun t ht p => raw_block T0 T1 T2 W bv X0 X1 X2 w0 w1 w2 hX0 hX1 hX2 hw0 hw1 hw2 t ht p j o
  constructor
  · refine Cert.Spec.acc_blocks_total (fun n => Cert.Spec.raw T0 T1 T2 W bv n j o)
      (fun t => ∑ p : Fin 625, Gen.k0_pay1 (Gen.k0_pay6 (X0 t) w0 (X1 t) w1 (X2 t) w2) bv (ix3 p j o))
      (fun t => accS t (ix3 (0 : Fin 1) j o)) ?_ ?_ ?_
    · intro t
      exact Finset.sum_congr rfl fun p _ => blk t.val t.isLt p
    · show accS 0 (ix3 (0 : Fin 1) j o) = _
      rw [hS0, k0_pay2_apply, k0_pay4_apply, zero_add]
    · intro t ht
      show accS (t + 1) (ix3 (0 : Fin 1) j o) = accS t (ix3 (0 : Fin 1) j o) + _
      rw [hSs t ht, k0_pay2_apply]
  · refine Cert.Spec.acc_blocks_total
      (fun n => Cert.Spec.raw T0 T1 T2 W bv n j o * Cert.Spec.raw T0 T1 T2 W bv n j o)
      (fun t => ∑ p : Fin 625, Gen.k0_pay1 (Gen.k0_pay6 (X0 t) w0 (X1 t) w1 (X2 t) w2) bv (ix3 p j o)
        * Gen.k0_pay1 (Gen.k0_pay6 (X0 t) w0 (X1 t) w1 (X2 t) w2) bv (ix3 p j o))
      (fun t => accQ t (ix3 (0 : Fin 1) j o)) ?_ ?_ ?_
    · intro t
      exact Finset.sum_congr rfl fun p _ => by rw [blk t.val t.isLt p]
    · show accQ 0 (ix3 (0 : Fin 1) j o) = _
      rw [hQ0, k0_pay3_apply, k0_pay5_apply, zero_add]
    · intro t ht
      show accQ (t + 1) (ix3 (0 : Fin 1) j o) = accQ t (ix3 (0 : Fin 1) j o) + _
      rw [hQs t ht, k0_pay3_apply]

/-- The second kernel's value, written with the column sums of an array `r` of the layer before normalisation, is the
    specification's normalised layer with the clamped variance. -/
theorem kernel_norm_eq (r : Fin 50000 → Fin 8 → Fin 32 → EReal) (X : Vec Ideal S50000x8x32 .f32)
    (S Q : Vec Ideal S1x8x32 .f32) (g b : Vec Ideal S32 .f32)
    (hX : ∀ n j o, X (ix3 n j o) = r n j o)
    (hS : ∀ j o, S (ix3 (0 : Fin 1) j o) = ∑ n : Fin 50000, r n j o)
    (hQ : ∀ j o, Q (ix3 (0 : Fin 1) j o) = ∑ n : Fin 50000, r n j o * r n j o)
    (n : Fin 50000) (j : Fin 8) (o : Fin 32) :
    max (g (ix1 o) * (X (ix3 n j o) - Ideal.div (S (ix3 0 j o)) Cert.Spec.cN)
          * Ideal.rsqrt (max (Ideal.div (Q (ix3 0 j o)) Cert.Spec.cN
              - Ideal.div (S (ix3 0 j o)) Cert.Spec.cN * Ideal.div (S (ix3 0 j o)) Cert.Spec.cN) 0 + Cert.Spec.cEps)
          + b (ix1 o)) 0
      = Cert.Spec.norm r (Cert.Spec.varKer r) g b n j o := by
  rw [hX, hS, hQ]
  rfl

end Cert.KPay

end
-- ==== Proof.KFinal1.lean ====
/-
  From the 80 blocks of the normalising region to the whole array.

  The region walks 80 points; at point t it reads rows 625 t … 625 t + 624 of the raw array [50000, 8, 32], the two
  one-row statistics (the column sums S and the column sums of squares Q, [1, 8, 32]) and the affine pair (γ, β : [32])
  whole, and writes back rows 625 t … 625 t + 624 of the output. Each written entry is a pointwise expression of the raw
  entry at the same place and of the statistics and the affine pair at its column:
      out(n, j, o) = max (γ(o) · (raw(n, j, o) − S(j, o)/N) · rsqrt (max (Q(j, o)/N − (S(j, o)/N)², 0) + ε) + β(o), 0).
  So every block the region writes back is the restriction of ONE function of the whole arrays to the block's rows, and
  the 80 blocks tile the 50000 rows (row n lies in block n / 625): the output array ends holding that function.
-/
import proofs.«156046_j7490422964881_2_alg».proof.Proof.KernelIdealR1
import proofs.«156046_j7490422964881_2_alg».proof.Proof.Spec
import Idealize.ShloMosaic.Lib.Pipeline.Value
import Idealize.ShloMosaic.Lib.ValueIdx

set_option maxRecDepth 16384

noncomputable section

namespace Cert.KFinal1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Reg

/-- The normalised, scaled, shifted and rectified array, entry by entry. -/
def normAll (X : Vec Ideal S50000x8x32 .f32) (S Q : Vec Ideal S1x8x32 .f32) (g b : Vec Ideal S32 .f32) :
    S50000x8x32.Idx → EReal := fun i =>
  max (g (ix1 (i 2)) * (X i - Ideal.div (S (ix3 (0 : Fin 1) (i 1) (i 2))) Cert.Spec.cN)
      * Ideal.rsqrt (max (Ideal.div (Q (ix3 (0 : Fin 1) (i 1) (i 2))) Cert.Spec.cN
          - Ideal.div (S (ix3 (0 : Fin 1) (i 1) (i 2))) Cert.Spec.cN * Ideal.div (S (ix3 (0 : Fin 1) (i 1) (i 2))) Cert.Spec.cN) 0
        + Cert.Spec.cEps)
    + b (ix1 (i 2))) 0

theorem hz3 : (![0, 0, 0] : Fin 3 → Nat) = fun _ => 0 := funext fun a => by fin_cases a <;> rfl
theorem hz1 : (![0] : Fin 1 → Nat) = fun _ => 0 := funext fun a => by fin_cases a <;> rfl

theorem idx_facts : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 1) = 0 ∧ win1_4.index t (0 : Fin 1) = 0
    ∧ win1_5.index t (0 : Fin 3) = t.val ∧ win1_5.index t (1 : Fin 3) = 0 ∧ win1_5.index t (2 : Fin 3) = 0 :=
  (by decide +kernel : ∀ t : Fin grid1.N, _)

/-- The array's entry at explicit coordinates. -/
theorem normAll_apply (X : Vec Ideal S50000x8x32 .f32) (S Q : Vec Ideal S1x8x32 .f32) (g b : Vec Ideal S32 .f32)
    (n : Fin 50000) (j : Fin 8) (o : Fin 32) :
    normAll X S Q g b (ix3 n j o) = max (g (ix1 o) * (X (ix3 n j o) - Ideal.div (S (ix3 (0 : Fin 1) j o)) Cert.Spec.cN)
      * Ideal.rsqrt (max (Ideal.div (Q (ix3 (0 : Fin 1) j o)) Cert.Spec.cN
          - Ideal.div (S (ix3 (0 : Fin 1) j o)) Cert.Spec.cN * Ideal.div (S (ix3 (0 : Fin 1) j o)) Cert.Spec.cN) 0
        + Cert.Spec.cEps)
    + b (ix1 o)) 0 := rfl

variable (V : (c : Dev nD) → (b : Ref sig .tc) → Buf (Elt Ideal) ((c : Thread nD τ).loc b))

/-- The raw block at point t is rows 625 t … 625 t + 624 of the raw array. -/
theorem iblk_raw (c : Dev nD) (t : Fin cfg1.N) (p : Fin 625) (j : Fin 8) (o : Fin 32) (n : Fin 50000)
    (hn : n.val = 625 * t.val + p.val) :
    (iblk1 V c 0 t : Vec Ideal S625x8x32 .f32) (ix3 p j o) = (V c main_v64_0 : S50000x8x32.Idx → EReal) (ix3 n j o) := by
  obtain ⟨e0, e1, e2, -⟩ := idx_facts t
  unfold iblk1
  rw [View.read_apply]
  show V c main_v64_0 _ = V c main_v64_0 _
  congr 1
  funext a
  apply Fin.ext
  match a with
  | ⟨0, _⟩ => show win1_0.index t (0 : Fin 3) * 625 + 1 * p.val = n.val; rw [e0, hn]; omega
  | ⟨1, _⟩ => show win1_0.index t (1 : Fin 3) * 8 + 1 * j.val = j.val; rw [e1]; omega
  | ⟨2, _⟩ => show win1_0.index t (2 : Fin 3) * 32 + 1 * o.val = o.val; rw [e2]; omega

/-- The two statistics, the scale and the shift are read whole at every point. -/
theorem iblk_sum (c : Dev nD) (t : Fin cfg1.N) (j : Fin 8) (o : Fin 32) :
    (iblk1 V c 1 t : Vec Ideal S1x8x32 .f32) (ix3 (0 : Fin 1) j o)
      = (V c main_v64_1 : S1x8x32.Idx → EReal) (ix3 (0 : Fin 1) j o) := by
  obtain ⟨-, -, -, e0, e1, e2, -⟩ := idx_facts t
  unfold iblk1
  rw [View.read_apply]
  show V c main_v64_1 _ = V c main_v64_1 _
  congr 1
  funext a
  apply Fin.ext
  match a with
  | ⟨0, _⟩ => show win1_1.index t (0 : Fin 3) * 1 + 1 * 0 = 0; rw [e0]
  | ⟨1, _⟩ => show win1_1.index t (1 : Fin 3) * 8 + 1 * j.val = j.val; rw [e1]; omega
  | ⟨2, _⟩ => show win1_1.index t (2 : Fin 3) * 32 + 1 * o.val = o.val; rw [e2]; omega

theorem iblk_sq (c : Dev nD) (t : Fin cfg1.N) (j : Fin 8) (o : Fin 32) :
    (iblk1 V c 2 t : Vec Ideal S1x8x32 .f32) (ix3 (0 : Fin 1) j o)
      = (V c main_v64_2 : S1x8x32.Idx → EReal) (ix3 (0 : Fin 1) j o) := by
  obtain ⟨-, -, -, -, -, -, e0, e1, e2, -⟩ := idx_facts t
  unfold iblk1
  rw [View.read_apply]
  show V c main_v64_2 _ = V c main_v64_2 _
  congr 1
  funext a
  apply Fin.ext
  match a with
  | ⟨0, _⟩ => show win1_2.index t (0 : Fin 3) * 1 + 1 * 0 = 0; rw [e0]
  | ⟨1, _⟩ => show win1_2.index t (1 : Fin 3) * 8 + 1 * j.val = j.val; rw [e1]; omega
  | ⟨2, _⟩ => show win1_2.index t (2 : Fin 3) * 32 + 1 * o.val = o.val; rw [e2]; omega

theorem iblk_scale (c : Dev nD) (t : Fin cfg1.N) (o : Fin 32) :
    (iblk1 V c 3 t : Vec Ideal S32 .f32) (ix1 o) = (V c main_arg5 : S32.Idx → EReal) (ix1 o) := by
  obtain ⟨-, -, -, -, -, -, -, -, -, e0, -⟩ := idx_facts t
  unfold iblk1
  rw [View.read_apply]
  show V c main_arg5 _ = V c main_arg5 _
  congr 1
  funext a
  apply Fin.ext
  match a with
  | ⟨0, _⟩ => show win1_3.index t (0 : Fin 1) * 32 + 1 * o.val = o.val; rw [e0]; omega

theorem iblk_shift (c : Dev nD) (t : Fin cfg1.N) (o : Fin 32) :
    (iblk1 V c 4 t : Vec Ideal S32 .f32) (ix1 o) = (V c main_arg6 : S32.Idx → EReal) (ix1 o) := by
  obtain ⟨-, -, -, -, -, -, -, -, -, -, e0, -⟩ := idx_facts t
  unfold iblk1
  rw [View.read_apply]
  show V c main_arg6 _ = V c main_arg6 _
  congr 1
  funext a
  apply Fin.ext
  match a with
  | ⟨0, _⟩ => show win1_4.index t (0 : Fin 1) * 32 + 1 * o.val = o.val; rw [e0]; omega

/-- An entry of the output block at point t sits at row 625 t + its own row. -/
theorem emb_out (t : Fin cfg1.N) (p : Fin 625) (j : Fin 8) (o : Fin 32) (n : Fin 50000)
    (hn : n.val = 625 * t.val + p.val) :
    (((cfg1.win 5).blk t).view.emb (ix3 p j o) : S50000x8x32.Idx) = ix3 n j o := by
  obtain ⟨-, -, -, -, -, -, -, -, -, -, -, e0, e1, e2⟩ := idx_facts t
  funext a
  apply Fin.ext
  match a with
  | ⟨0, _⟩ => show win1_5.index t (0 : Fin 3) * 625 + 1 * p.val = n.val; rw [e0, hn]; omega
  | ⟨1, _⟩ => show win1_5.index t (1 : Fin 3) * 8 + 1 * j.val = j.val; rw [e1]; omega
  | ⟨2, _⟩ => show win1_5.index t (2 : Fin 3) * 32 + 1 * o.val = o.val; rw [e2]; omega

theorem N_1 : cfg1.N = 80 := by decide

theorem flushed_eq (hpay : ∀ (s q : Vec Ideal S1x8x32 .f32) (g b : Vec Ideal S32 .f32) (x : Vec Ideal S625x8x32 .f32)
      (p : Fin 625) (j : Fin 8) (o : Fin 32),
      k1_pay1 (F := Ideal) s q g b x (ix3 p j o) = max (g (ix1 o) * (x (ix3 p j o) - Ideal.div (s (ix3 (0 : Fin 1) j o)) Cert.Spec.cN)
        * Ideal.rsqrt (max (Ideal.div (q (ix3 (0 : Fin 1) j o)) Cert.Spec.cN
            - Ideal.div (s (ix3 (0 : Fin 1) j o)) Cert.Spec.cN * Ideal.div (s (ix3 (0 : Fin 1) j o)) Cert.Spec.cN) 0
          + Cert.Spec.cEps)
        + b (ix1 o)) 0)
    (c : Dev nD) (t : Fin cfg1.N) :
    (dat1 V c).flushed 5 t = ((cfg1.win 5).blk t).view.read (Elt Ideal)
      (normAll (V c main_v64_0) (V c main_v64_1) (V c main_v64_2) (V c main_arg5) (V c main_arg6)) := by
  show (cfg1.win 5).cut (grid1.coords t) ((dat1 V c).after 5 t) = _
  rw [after1_5]
  unfold out1_5
  rw [View.canon_unit_zero hz3]
  simp only [View.ld_unit_zero (S := S625x8x32) hz3, View.ld_unit_zero (S := S1x8x32) hz3, View.ld_unit_zero (S := S32) hz1]
  funext y
  obtain ⟨p, j, o, rfl⟩ : ∃ (p : Fin 625) (j : Fin 8) (o : Fin 32), y = ix3 p j o := ⟨y 0, y 1, y 2, eq_ix3 y⟩
  have hN : cfg1.N = 80 := N_1
  have hn : 625 * t.val + p.val < 50000 := by have := t.isLt; have := p.isLt; omega
  show k1_pay1 (F := Ideal) (iblk1 V c 1 t) (iblk1 V c 2 t) (iblk1 V c 3 t) (iblk1 V c 4 t) (iblk1 V c 0 t) (ix3 p j o)
    = normAll (V c main_v64_0) (V c main_v64_1) (V c main_v64_2) (V c main_arg5) (V c main_arg6)
        (((cfg1.win 5).blk t).view.emb (ix3 p j o))
  rw [emb_out t p j o ⟨625 * t.val + p.val, hn⟩ rfl, normAll_apply, hpay,
    iblk_raw V c t p j o ⟨625 * t.val + p.val, hn⟩ rfl, iblk_sum V c t j o, iblk_sq V c t j o, iblk_scale V c t o,
    iblk_shift V c t o]

/-- An index of the array is in point t's block iff each coordinate is in the block's range on its axis. -/
theorem mem_blk (t : Fin cfg1.N) (i : S50000x8x32.Idx) :
    i ∈ ((cfg1.win 5).blk t).view.set ↔ ∀ a : Fin 3, win1_5.index t a * S625x8x32.size a ≤ (i a).val
      ∧ (i a).val < win1_5.index t a * S625x8x32.size a + S625x8x32.size a := by
  show i ∈ ((View.whole main_v65).slice (win1_5.rect t)).set ↔ _
  rw [View.set_slice_whole, Rect.mem_set_unit]
  exact Iff.rfl

/-- The 80 blocks of 625 rows tile the 50000 rows: row n is in the block of point n / 625. -/
theorem cover (i : S50000x8x32.Idx) :
    ∃ t : Fin cfg1.N, (cfg1.win 5).flush t = true ∧ i ∈ ((cfg1.win 5).blk t).view.set := by
  have hN : cfg1.N = 80 := N_1
  have h0 : (i 0).val < 50000 := (i 0).isLt
  have h1 : (i 1).val < 8 := (i 1).isLt
  have h2 : (i 2).val < 32 := (i 2).isLt
  have ht : (i 0).val / 625 < cfg1.N := by rw [hN]; omega
  refine ⟨⟨(i 0).val / 625, ht⟩, flush1_5 _, ?_⟩
  rw [mem_blk]
  obtain ⟨-, -, -, -, -, -, -, -, -, -, -, e0, e1, e2⟩ := idx_facts ⟨(i 0).val / 625, ht⟩
  intro a
  match a with
  | ⟨0, _⟩ =>
    show win1_5.index ⟨(i 0).val / 625, ht⟩ (0 : Fin 3) * 625 ≤ (i 0).val
      ∧ (i 0).val < win1_5.index ⟨(i 0).val / 625, ht⟩ (0 : Fin 3) * 625 + 625
    rw [e0]; show (i 0).val / 625 * 625 ≤ (i 0).val ∧ (i 0).val < (i 0).val / 625 * 625 + 625; omega
  | ⟨1, _⟩ =>
    show win1_5.index ⟨(i 0).val / 625, ht⟩ (1 : Fin 3) * 8 ≤ (i 1).val
      ∧ (i 1).val < win1_5.index ⟨(i 0).val / 625, ht⟩ (1 : Fin 3) * 8 + 8
    rw [e1]; omega
  | ⟨2, _⟩ =>
    show win1_5.index ⟨(i 0).val / 625, ht⟩ (2 : Fin 3) * 32 ≤ (i 2).val
      ∧ (i 2).val < win1_5.index ⟨(i 0).val / 625, ht⟩ (2 : Fin 3) * 32 + 32
    rw [e2]; omega

/-- THE ARRAY after the region: the normalised, scaled, shifted, rectified raw array, entry by entry. -/
theorem final1 (c : Dev nD)
    (hpay : ∀ (s q : Vec Ideal S1x8x32 .f32) (g b : Vec Ideal S32 .f32) (x : Vec Ideal S625x8x32 .f32)
      (p : Fin 625) (j : Fin 8) (o : Fin 32),
      k1_pay1 (F := Ideal) s q g b x (ix3 p j o) = max (g (ix1 o) * (x (ix3 p j o) - Ideal.div (s (ix3 (0 : Fin 1) j o)) Cert.Spec.cN)
        * Ideal.rsqrt (max (Ideal.div (q (ix3 (0 : Fin 1) j o)) Cert.Spec.cN
            - Ideal.div (s (ix3 (0 : Fin 1) j o)) Cert.Spec.cN * Ideal.div (s (ix3 (0 : Fin 1) j o)) Cert.Spec.cN) 0
          + Cert.Spec.cEps)
        + b (ix1 o)) 0) :
    (dat1 V c).arrAt 5 cfg1.N
      = normAll (V c main_v64_0) (V c main_v64_1) (V c main_v64_2) (V c main_arg5) (V c main_arg6) :=
  (dat1 V c).arrAt_eq_of_cover 5 (normAll (V c main_v64_0) (V c main_v64_1) (V c main_v64_2) (V c main_arg5) (V c main_arg6))
    (fun t _ => flushed_eq V hpay c t) cover

end Cert.KFinal1

end
-- ==== Proof.KPrelude.lean ====
/-
  The kernel program's host prelude computes the reference's three Chebyshev terms.

  Before its first kernel region the kernel program runs five stretches of host operations on the arguments
  x (the features), the edge index pair and the edge weights: the degree by a scatter-add, its inverse square root
  guarded by two selects, the normalised edge weight by two gathers, the features laid out as [50000, 8, 32], and then
  twice "gather the current term along the edges, weight it, scatter-add it back", the second time doubled and with the
  features subtracted. The reference program runs the same operations, in the same order, on the same arguments (it
  interleaves its three contractions with the weights, which read these terms and do not change them). So the contents
  of the kernel program's buffers for the three terms after the fifth stretch are, operation for operation, the
  reference's stages for the same terms: reading each buffer back through the stretches gives the nested term of its
  operations over the launch contents of the arguments, and that term is the reference stage's definition unfolded.
  Stated for every float instance; the ideal instance is the case used.
-/
import proofs.«156046_j7490422964881_2_alg».proof.Proof.Gen.KernelIdeal.Regions
import proofs.«156046_j7490422964881_2_alg».proof.Proof.Gen.ReferenceIdeal.Read

noncomputable section

namespace Cert.KPrelude

open Idealize.ShloMosaic Idealize.ShloMosaic.TcCoe Idealize.SL.Sem Idealize.ShloMosaic.StableHlo
open Cert.KernelIdeal Cert.KernelIdeal.Gen
open Cert.ReferenceIdeal.Read

section AnyInstance

variable {F : FTy → Type} [FloatOps F]
variable (m : (ℓ : Loc nD τ sig) → Buf (Elt F) ℓ) (c : Dev nD)

/-- The first term (the features as [50000, 8, 32]) after the prelude is the reference's. -/
theorem t0_eq :
    V5 m c (Proc.devRef .tc main_v34) = val_main_v34 (F := F) (m ((c.tc : Thread nD τ).loc main_arg0)) := by
  show StableHlo.after hostOps0_4 (V4 m c) (Proc.devRef .tc main_v34) = _
  after_results_simp
  rfl

/-- The second term (one weighted gather and scatter-add of the first) after the prelude is the reference's. -/
theorem t1_eq :
    V5 m c (Proc.devRef .tc main_v47)
      = val_main_v50 (F := F) (m ((c.tc : Thread nD τ).loc main_arg0)) (m ((c.tc : Thread nD τ).loc main_arg1))
          (m ((c.tc : Thread nD τ).loc main_arg2)) := by
  show StableHlo.after hostOps0_4 (V4 m c) (Proc.devRef .tc main_v47) = _
  after_results_simp
  rfl

/-- The third term (twice the weighted gather and scatter-add of the second, minus the first) after the prelude is
    the reference's. -/
theorem t2_eq :
    V5 m c (Proc.devRef .tc main_v63)
      = val_main_v70 (F := F) (m ((c.tc : Thread nD τ).loc main_arg0)) (m ((c.tc : Thread nD τ).loc main_arg1))
          (m ((c.tc : Thread nD τ).loc main_arg2)) := by
  show StableHlo.after hostOps0_4 (V4 m c) (Proc.devRef .tc main_v63) = _
  after_results_simp
  rfl

end AnyInstance

section AtIdeal

variable (m : (ℓ : Loc nD τ sig) → Buf (Elt Ideal) ℓ) (c : Dev nD)

/-- The first term at the ideal instance. -/
theorem t0_ideal :
    V5 (F := Ideal) m c (Proc.devRef .tc main_v34)
      = val_main_v34 (F := Ideal) (m ((c.tc : Thread nD τ).loc main_arg0)) :=
  t0_eq (F := Ideal) m c

/-- The second term at the ideal instance. -/
theorem t1_ideal :
    V5 (F := Ideal) m c (Proc.devRef .tc main_v47)
      = val_main_v50 (F := Ideal) (m ((c.tc : Thread nD τ).loc main_arg0)) (m ((c.tc : Thread nD τ).loc main_arg1))
          (m ((c.tc : Thread nD τ).loc main_arg2)) :=
  t1_eq (F := Ideal) m c

/-- The third term at the ideal instance. -/
theorem t2_ideal :
    V5 (F := Ideal) m c (Proc.devRef .tc main_v63)
      = val_main_v70 (F := Ideal) (m ((c.tc : Thread nD τ).loc main_arg0)) (m ((c.tc : Thread nD τ).loc main_arg1))
          (m ((c.tc : Thread nD τ).loc main_arg2)) :=
  t2_eq (F := Ideal) m c

end AtIdeal

end Cert.KPrelude

end
-- ==== Proof.LibGcnLayer.lean ====
/-
  The algebra of one graph-convolution layer on the extended reals.

  A layer sends node features `X` to `out v c = ∑_{e into v} (∑_k X (g e) k · W k c) · (s e · t)`: every edge `e` into node `v`
  carries the transformed features of its source `g e`, scaled by the source's normaliser `s e` and the target's `t`.
  Because the transform is linear, the same number is obtained by aggregating first and transforming afterwards:
  `∑_k ((∑_{e into v} X (g e) k · s e) · t) · W k c`. On the extended reals this exchange of two finite sums and the
  distribution of the products over them hold when every entry is a real number (at an infinity `(a + b) · c` need not be
  `a · c + b · c`), so the law is stated for entries that are real, and proved by moving the whole expression into `ℝ`.
-/
import Idealize.ShloMosaic.PureOps.Ideal

open scoped BigOperators

namespace Cert.GcnLaw

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- THE LAYER LAW: aggregating the scaled source features over the edges into a node and then applying the linear
    transform equals transforming each source's features and then aggregating with the edge weights `s e · t`,
    when all entries are real. `S` is the set of edges into the node, `a e k` the source features of edge `e`,
    `s e` the source's normaliser, `t` the node's own, `W k` one column of the transform. -/
theorem layer_law {E K : Type*} [Fintype K] (S : Finset E) (a : E → K → EReal) (s : E → EReal) (t : EReal)
    (W : K → EReal) (ha : ∀ e k, IsReal (a e k)) (hs : ∀ e, IsReal (s e)) (ht : IsReal t) (hW : ∀ k, IsReal (W k)) :
    ∑ k, ((∑ e ∈ S, a e k * s e) * t) * W k = ∑ e ∈ S, (∑ k, a e k * W k) * (s e * t) := by
  choose a' ha' using ha
  choose s' hs' using hs
  obtain ⟨t', rfl⟩ := ht
  choose W' hW' using hW
  have hL : ∑ k, ((∑ e ∈ S, a e k * s e) * (t' : EReal)) * W k
      = ((∑ k, ((∑ e ∈ S, a' e k * s' e) * t') * W' k : ℝ) : EReal) := by
    rw [coe_sum]
    refine Finset.sum_congr rfl fun k _ => ?_
    rw [EReal.coe_mul, EReal.coe_mul, coe_sum, hW' k]
    congr 2
    refine Finset.sum_congr rfl fun e _ => ?_
    rw [EReal.coe_mul, ha' e k, hs' e]
  have hR : ∑ e ∈ S, (∑ k, a e k * W k) * (s e * (t' : EReal))
      = ((∑ e ∈ S, (∑ k, a' e k * W' k) * (s' e * t') : ℝ) : EReal) := by
    rw [coe_sum]
    refine Finset.sum_congr rfl fun e _ => ?_
    rw [EReal.coe_mul, EReal.coe_mul, coe_sum, hs' e]
    congr 1
    refine Finset.sum_congr rfl fun k _ => ?_
    rw [EReal.coe_mul, ha' e k, hW' k]
  rw [hL, hR]
  congr 1
  simp only [Finset.sum_mul, Finset.mul_sum]
  rw [Finset.sum_comm]
  refine Finset.sum_congr rfl fun e _ => Finset.sum_congr rfl fun k _ => ?_
  ring

end Cert.GcnLaw
-- ==== Proof.RealInputs.lean ====
/-
  Every float input the precondition speaks of is a real number.

  The precondition is the conjunction, over the six float arguments, of "all entries have absolute value below +∞".
  On the extended reals the absolute value max (x, -x) is below the top element exactly when x is neither infinity,
  that is, when x is a real number. The conjunction is read back one "all" at a time: a reduction by "and" that
  came out true met a true at every entry.
-/
import proofs.«156046_j7490422964881_2_alg».proof.Pre_finite_inputs
import proofs.«156046_j7490422964881_2_alg».proof.Proof.LibGcnLayer
import Idealize.ShloMosaic.Lib.ReduceAll
import Idealize.ShloMosaic.Lib.ValueIdx
import Idealize.ShloMosaic.PureOps.Ideal.Laws

noncomputable section

namespace Cert.RealEntries

open Idealize.ShloMosaic Idealize.ShloMosaic.ValueIdx

abbrev IsReal := Cert.GcnLaw.IsReal

/-- The f32 word of +∞ denotes the top element. -/
theorem ofBits_inf : Ideal.ofBits .f32 0x7F800000#32 = (⊤ : EReal) := by
  simp [Ideal.ofBits, Ideal.ieee]

/-- An extended real whose absolute value is below +∞ is a real number. -/
theorem isReal_of_abs_lt_top (x : EReal) (h : Ideal.cmp .olt (max x (-x)) (⊤ : EReal) = 1#1) : IsReal x := by
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- One `all (|a| < +∞)` of the precondition, read back: every entry of `a` is a real number. -/
theorem isReal_of_all {s : Shape} {axes : List (Fin s.rank)}
    (bc : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32) (init : IVec Cert.Pre_finite_inputs.S_ 1) (j : Cert.Pre_finite_inputs.S_.Idx)
    (h : Host.reduce IntOp.andi (cmpf .olt (Host.absf a)
      (broadcastInDim s ![] bc (constant (F := Ideal) Cert.Pre_finite_inputs.S_ .f32 0x7F800000#32))) init hr hu j = 1#1)
    (i : s.Idx) : IsReal (a i) := by
  have e := Host.reduce_andi_all _ init hr hu j h i
  apply isReal_of_abs_lt_top
  rw [← ofBits_inf]
  exact e

theorem real_of_pre [Cert.Pre_finite_inputs.Facts]
    (a0 : FVec Ideal Cert.Pre_finite_inputs.S2x4x50000x32 .f32) (a1 : IVec Cert.Pre_finite_inputs.S2x800000 32)
    (a2 : FVec Ideal Cert.Pre_finite_inputs.S800000 .f32) (a3 : FVec Ideal Cert.Pre_finite_inputs.S3x32x32 .f32)
    (a4 a5 a6 : FVec Ideal Cert.Pre_finite_inputs.S32 .f32)
    (h : Cert.Pre_finite_inputs.fn (F := Ideal) a0 a1 a2 a3 a4 a5 a6 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) := by
  have h0 := congrFun h ix0
  dsimp only [Cert.Pre_finite_inputs.fn, Cert.Pre_finite_inputs.fn_part1] at h0
  simp only [Idealize.ShloMosaic.andi, IntOp.andi_eq_one] at h0
  obtain ⟨⟨⟨⟨⟨h0, h2⟩, h3⟩, h4⟩, h5⟩, h6⟩ := h0
  exact ⟨isReal_of_all _ _ _ a0 _ _ h0, isReal_of_all _ _ _ a2 _ _ h2, isReal_of_all _ _ _ a3 _ _ h3,
    isReal_of_all _ _ _ a4 _ _ h4, isReal_of_all _ _ _ a5 _ _ h5, isReal_of_all _ _ _ a6 _ _ h6⟩

end Cert.RealEntries
-- ==== Proof.RealEntries.lean ====
/-
  Every entry of the three Chebyshev terms is a real number.

  The terms are built from the features and the edge weights by transposes, reshapes, broadcasts, gathers,
  accumulating scatters, products, a negation, a subtraction, and the node normaliser deg^(-1/2) guarded at deg = 0.
  Real numbers are closed under each of these: a gather only copies entries of its operand, whatever the indices; an
  accumulating scatter adds to each entry a finite sum of updates, whatever the indices; and the guarded degree
  "deg where deg > 0, else 1" is a positive real, so one over its square root is a real. Hence, if every feature and
  every edge weight is real, so is every entry of T0 = X, T1 = L X and T2 = 2 L T1 - T0, for an arbitrary edge index.
-/
import proofs.«156046_j7490422964881_2_alg».proof.Proof.RealInputs
import proofs.«156046_j7490422964881_2_alg».proof.Proof.Gen.ReferenceIdeal.Read
import Idealize.ShloMosaic.Lib.StableHlo
import Idealize.ShloMosaic.PureOps
import Idealize.ShloMosaic.PureOps.Ideal.Laws

noncomputable section

namespace Cert.RealEntries

open Idealize.ShloMosaic

/-! ### Real numbers are closed under the operations of the chain -/

theorem isReal_neg {x : EReal} (hx : IsReal x) : IsReal (-x) := by
  obtain ⟨a, rfl⟩ := hx; exact ⟨-a, (EReal.coe_neg a).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_select (c : BitVec 1) {a b : EReal} (ha : IsReal a) (hb : IsReal b) : IsReal (Scalar.select c a b) := by
  unfold Scalar.select; split <;> assumption

/-- The f32 word of +0.0 denotes 0. -/
theorem ofBits_zero : Ideal.ofBits .f32 0x00000000#32 = (0 : EReal) := by
  simp [Ideal.ofBits, Ideal.ieee]

/-- The f32 word of 1.0 denotes 1. -/
theorem ofBits_one : Ideal.ofBits .f32 0x3F800000#32 = (1 : EReal) := by
  simp [Ideal.ofBits, Ideal.ieee, -EReal.coe_mul]; norm_num

/-- The f32 word of 2.0 denotes 2. -/
theorem ofBits_two : Ideal.ofBits .f32 0x40000000#32 = ((2 : ℝ) : EReal) := by
  simp [Ideal.ofBits, Ideal.ieee, -EReal.coe_mul]; norm_num

/-- A degree guarded against zero, "d where d > 0, else 1", is a positive real when d is a real. -/
theorem safe_pos {d : EReal} (hd : IsReal d) :
    ∃ r : ℝ, 0 < r ∧ Scalar.select (Ideal.cmp .ogt d 0) d 1 = (r : EReal) := by
  obtain ⟨r, rfl⟩ := hd
  unfold Scalar.select
  by_cases h : 0 < r
  · have hc : Ideal.cmp .ogt (r : EReal) 0 = (1 : BitVec 1) := by
      show BitVec.ofBool (decide ((0 : EReal) < (r : EReal))) = (1 : BitVec 1)
      rw [decide_eq_true (by exact_mod_cast h)]; rfl
    rw [if_pos hc]; exact ⟨r, h, rfl⟩
  · have hc : ¬ Ideal.cmp .ogt (r : EReal) 0 = (1 : BitVec 1) := by
      show ¬ BitVec.ofBool (decide ((0 : EReal) < (r : EReal))) = (1 : BitVec 1)
      rw [decide_eq_false (by exact_mod_cast h)]; decide
    rw [if_neg hc]; exact ⟨1, one_pos, EReal.coe_one.symm⟩

/-- The reciprocal of the square root of a positive real is a real. -/
theorem isReal_inv_sqrt {r : ℝ} (hr : 0 < r) : IsReal (Ideal.div 1 (Ideal.sqrt (r : EReal))) := by
  rw [Ideal.sqrt_coe, if_neg (not_lt.2 hr.le), Ideal.div_coe (Real.sqrt_pos.2 hr).ne', one_mul]
  exact ⟨_, rfl⟩

/-! ### A gather and an accumulating scatter keep real entries real, whatever the indices -/

/-- Every element of a gather is an element of its operand. -/
theorem gather_real {s si t : Shape} {w : Nat} (d : GatherDims s si t) (x : s.Idx → EReal) (idx : IVec si w)
    (hx : ∀ i, IsReal (x i)) (j : t.Idx) : IsReal (Host.gather d x idx j) := hx _

/-- Every element of an accumulating scatter is the operand's element plus a finite sum of updates. -/
theorem scatterAdd_real {s si u : Shape} {w : Nat} (d : ScatterDims s si u) (x : FVec Ideal s .f32) (idx : IVec si w)
    (upd : FVec Ideal u .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (Cert.GcnLaw.IsReal.sum _ _ fun j _ => hu j)

/-! ### The stages of the reference program, one at a time

  x0 is the feature array and x2 the edge weights, both real at every entry; x1, the edge index, is arbitrary. -/

section Stages

open Cert.ReferenceIdeal Cert.ReferenceIdeal.Read

variable (x0 : (⟨S2x4x50000x32, .f32⟩ : BufTy).Contents (Elt Ideal))
  (x1 : (⟨S2x800000, .i32⟩ : BufTy).Contents (Elt Ideal))
  (x2 : (⟨S800000, .f32⟩ : BufTy).Contents (Elt Ideal))

/-- The zero the degree accumulates into. -/
theorem real_v4 : ∀ i, IsReal (val_main_v4 (F := Ideal) i) := fun i => by
  rw [val_main_v4_apply, val_main_cst_apply]
  show IsReal (Ideal.ofBits .f32 0x00000000#32)
  rw [ofBits_zero]; exact Cert.GcnLaw.IsReal.zero

/-- The degree: the edge weights accumulated at the source nodes. -/
theorem real_v6 (hx2 : ∀ i, IsReal (x2 i)) : ∀ i, IsReal (val_main_v6 (F := Ideal) x1 x2 i) := fun i => by
  unfold val_main_v6
  exact scatterAdd_real _ _ _ _ real_v4 hx2 i

/-- The guarded degree, "deg where deg > 0, else 1", is a positive real. -/
theorem pos_v9 (hx2 : ∀ i, IsReal (x2 i)) :
    ∀ i, ∃ r : ℝ, 0 < r ∧ val_main_v9 (F := Ideal) x1 x2 i = (r : EReal) := fun i => by
  rw [val_main_v9_apply, val_main_v8_apply, val_main_v7_apply, val_main_cst_0_apply, val_main_call0_v1_apply,
    val_main_call0_v0_apply, val_main_cst_1_apply]
  show ∃ r : ℝ, 0 < r ∧ Scalar.select (Ideal.cmp .ogt (val_main_v6 (F := Ideal) x1 x2 i) (Ideal.ofBits .f32 0x00000000#32))
    (val_main_v6 (F := Ideal) x1 x2 i) (Ideal.ofBits .f32 0x3F800000#32) = (r : EReal)
  rw [ofBits_zero, ofBits_one]
  exact safe_pos (real_v6 x1 x2 hx2 i)

/-- One over the square root of the guarded degree. -/
theorem real_v14 (hx2 : ∀ i, IsReal (x2 i)) : ∀ i, IsReal (val_main_v14 (F := Ideal) x1 x2 i) := fun i => by
  obtain ⟨r, hr, e⟩ := pos_v9 x1 x2 hx2 i
  rw [val_main_v14_apply, val_main_v13_apply, val_main_cst_3_apply, val_main_v12_apply, e]
  show IsReal (Ideal.div (Ideal.ofBits .f32 0x3F800000#32) (Ideal.sqrt (r : EReal)))
  rw [ofBits_one]; exact isReal_inv_sqrt hr

/-- The node normaliser: deg^(-1/2) where deg > 0, else 0. -/
theorem real_v15 (hx2 : ∀ i, IsReal (x2 i)) : ∀ i, IsReal (val_main_v15 (F := Ideal) x1 x2 i) := fun i => by
  rw [val_main_v15_apply]
  refine isReal_select _ (real_v14 x1 x2 hx2 i) ?_
  rw [val_main_call1_v1_apply, val_main_call1_v0_apply, val_main_cst_4_apply]
  show IsReal (Ideal.ofBits .f32 0x00000000#32)
  rw [ofBits_zero]; exact Cert.GcnLaw.IsReal.zero

/-- The normaliser gathered at the source of each edge. -/
theorem real_v22 (hx2 : ∀ i, IsReal (x2 i)) : ∀ i, IsReal (val_main_v22 (F := Ideal) x1 x2 i) := fun i => by
  unfold val_main_v22
  exact gather_real _ _ _ (real_v15 x1 x2 hx2) i

theorem real_v23 (hx2 : ∀ i, IsReal (x2 i)) : ∀ i, IsReal (val_main_v23 (F := Ideal) x1 x2 i) := fun i => by
  rw [val_main_v23_apply]
  show IsReal (-(val_main_v22 (F := Ideal) x1 x2 i))
  exact isReal_neg (real_v22 x1 x2 hx2 i)

theorem real_v24 (hx2 : ∀ i, IsReal (x2 i)) : ∀ i, IsReal (val_main_v24 (F := Ideal) x1 x2 i) := fun i => by
  rw [val_main_v24_apply]
  show IsReal (val_main_v23 (F := Ideal) x1 x2 i * x2 i)
  exact (real_v23 x1 x2 hx2 i).mul (hx2 i)

/-- The normaliser gathered at the target of each edge. -/
theorem real_v31 (hx2 : ∀ i, IsReal (x2 i)) : ∀ i, IsReal (val_main_v31 (F := Ideal) x1 x2 i) := fun i => by
  unfold val_main_v31
  exact gather_real _ _ _ (real_v15 x1 x2 hx2) i

/-- The edge normaliser: minus the source's normaliser times the weight times the target's normaliser. -/
theorem real_v32 (hx2 : ∀ i, IsReal (x2 i)) : ∀ i, IsReal (val_main_v32 (F := Ideal) x1 x2 i) := fun i => by
  rw [val_main_v32_apply]
  show IsReal (val_main_v24 (F := Ideal) x1 x2 i * val_main_v31 (F := Ideal) x1 x2 i)
  exact (real_v24 x1 x2 hx2 i).mul (real_v31 x1 x2 hx2 i)

/-- The first Chebyshev term: the features, transposed and reshaped. -/
theorem real_v34 (hx0 : ∀ i, IsReal (x0 i)) : ∀ i, IsReal (val_main_v34 (F := Ideal) x0 i) := fun i => by
  rw [val_main_v34_apply, val_main_v33_apply]
  exact hx0 _

theorem real_v38 (hx2 : ∀ i, IsReal (x2 i)) : ∀ i, IsReal (val_main_v38 (F := Ideal) x1 x2 i) := fun i => by
  rw [val_main_v38_apply]
  exact real_v32 x1 x2 hx2 _

/-- The rows of the first term gathered at the source of each edge. -/
theorem real_v45 (hx0 : ∀ i, IsReal (x0 i)) : ∀ i, IsReal (val_main_v45 (F := Ideal) x0 x1 i) := fun i => by
  unfold val_main_v45
  exact gather_real _ _ _ (real_v34 x0 hx0) i

theorem real_v46 (hx2 : ∀ i, IsReal (x2 i)) : ∀ i, IsReal (val_main_v46 (F := Ideal) x1 x2 i) := fun i => by
  rw [val_main_v46_apply]
  exact real_v38 x1 x2 hx2 _

theorem real_v47 (hx0 : ∀ i, IsReal (x0 i)) (hx2 : ∀ i, IsReal (x2 i)) :
    ∀ i, IsReal (val_main_v47 (F := Ideal) x0 x1 x2 i) := fun i => by
  rw [val_main_v47_apply]
  show IsReal (val_main_v46 (F := Ideal) x1 x2 i * val_main_v45 (F := Ideal) x0 x1 i)
  exact (real_v46 x1 x2 hx2 i).mul (real_v45 x0 x1 hx0 i)

theorem real_v48 : ∀ i, IsReal (val_main_v48 (F := Ideal) i) := fun i => by
  rw [val_main_v48_apply, val_main_cst_10_apply]
  show IsReal (Ideal.ofBits .f32 0x00000000#32)
  rw [ofBits_zero]; exact Cert.GcnLaw.IsReal.zero

/-- The second Chebyshev term: the scaled source rows accumulated at the target nodes. -/
theorem real_v50 (hx0 : ∀ i, IsReal (x0 i)) (hx2 : ∀ i, IsReal (x2 i)) :
    ∀ i, IsReal (val_main_v50 (F := Ideal) x0 x1 x2 i) := fun i => by
  unfold val_main_v50
  exact scatterAdd_real _ _ _ _ real_v48 (real_v47 x0 x1 x2 hx0 hx2) i

theorem real_v55 (hx2 : ∀ i, IsReal (x2 i)) : ∀ i, IsReal (val_main_v55 (F := Ideal) x1 x2 i) := fun i => by
  rw [val_main_v55_apply]
  exact real_v32 x1 x2 hx2 _

/-- The rows of the second term gathered at the source of each edge. -/
theorem real_v62 (hx0 : ∀ i, IsReal (x0 i)) (hx2 : ∀ i, IsReal (x2 i)) :
    ∀ i, IsReal (val_main_v62 (F := Ideal) x0 x1 x2 i) := fun i => by
  unfold val_main_v62
  exact gather_real _ _ _ (real_v50 x0 x1 x2 hx0 hx2) i

theorem real_v63 (hx2 : ∀ i, IsReal (x2 i)) : ∀ i, IsReal (val_main_v63 (F := Ideal) x1 x2 i) := fun i => by
  rw [val_main_v63_apply]
  exact real_v55 x1 x2 hx2 _

theorem real_v64 (hx0 : ∀ i, IsReal (x0 i)) (hx2 : ∀ i, IsReal (x2 i)) :
    ∀ i, IsReal (val_main_v64 (F := Ideal) x0 x1 x2 i) := fun i => by
  rw [val_main_v64_apply]
  show IsReal (val_main_v63 (F := Ideal) x1 x2 i * val_main_v62 (F := Ideal) x0 x1 x2 i)
  exact (real_v63 x1 x2 hx2 i).mul (real_v62 x0 x1 x2 hx0 hx2 i)

theorem real_v65 : ∀ i, IsReal (val_main_v65 (F := Ideal) i) := fun i => by
  rw [val_main_v65_apply, val_main_cst_13_apply]
  show IsReal (Ideal.ofBits .f32 0x00000000#32)
  rw [ofBits_zero]; exact Cert.GcnLaw.IsReal.zero

theorem real_v67 (hx0 : ∀ i, IsReal (x0 i)) (hx2 : ∀ i, IsReal (x2 i)) :
    ∀ i, IsReal (val_main_v67 (F := Ideal) x0 x1 x2 i) := fun i => by
  unfold val_main_v67
  exact scatterAdd_real _ _ _ _ real_v65 (real_v64 x0 x1 x2 hx0 hx2) i

theorem real_v69 (hx0 : ∀ i, IsReal (x0 i)) (hx2 : ∀ i, IsReal (x2 i)) :
    ∀ i, IsReal (val_main_v69 (F := Ideal) x0 x1 x2 i) := fun i => by
  rw [val_main_v69_apply, val_main_v68_apply, val_main_cst_14_apply]
  show IsReal (Ideal.ofBits .f32 0x40000000#32 * val_main_v67 (F := Ideal) x0 x1 x2 i)
  rw [ofBits_two]
  exact (Cert.GcnLaw.IsReal.coe 2).mul (real_v67 x0 x1 x2 hx0 hx2 i)

/-- The third Chebyshev term: twice the propagated second term minus the first. -/
theorem real_v70 (hx0 : ∀ i, IsReal (x0 i)) (hx2 : ∀ i, IsReal (x2 i)) :
    ∀ i, IsReal (val_main_v70 (F := Ideal) x0 x1 x2 i) := fun i => by
  rw [val_main_v70_apply]
  show IsReal (val_main_v69 (F := Ideal) x0 x1 x2 i - val_main_v34 (F := Ideal) x0 i)
  exact isReal_sub (real_v69 x0 x1 x2 hx0 hx2 i) (real_v34 x0 hx0 i)

end Stages

/-! ### From the precondition -/

/-- Under the precondition (every float input finite) every entry of the three Chebyshev terms is a real number. -/
theorem real_terms_of_pre [Cert.Pre_finite_inputs.Facts]
    (a0 : FVec Ideal Cert.Pre_finite_inputs.S2x4x50000x32 .f32) (a1 : IVec Cert.Pre_finite_inputs.S2x800000 32)
    (a2 : FVec Ideal Cert.Pre_finite_inputs.S800000 .f32) (a3 : FVec Ideal Cert.Pre_finite_inputs.S3x32x32 .f32)
    (a4 a5 a6 : FVec Ideal Cert.Pre_finite_inputs.S32 .f32)
    (h : Cert.Pre_finite_inputs.fn (F := Ideal) a0 a1 a2 a3 a4 a5 a6 = fun _ => 1#1) :
    (∀ i, IsReal (Cert.ReferenceIdeal.Read.val_main_v34 (F := Ideal) a0 i))
      ∧ (∀ i, IsReal (Cert.ReferenceIdeal.Read.val_main_v50 (F := Ideal) a0 a1 a2 i))
      ∧ (∀ i, IsReal (Cert.ReferenceIdeal.Read.val_main_v70 (F := Ideal) a0 a1 a2 i)) := by
  obtain ⟨h0, h2, -⟩ := real_of_pre a0 a1 a2 a3 a4 a5 a6 h
  exact ⟨real_v34 a0 h0, real_v50 a0 a1 a2 h0 h2, real_v70 a0 a1 a2 h0 h2⟩

end Cert.RealEntries

end
-- ==== Proof.RawReal.lean ====
/-
  Every entry of the layer before normalisation is a real number when every entry of the three Chebyshev terms, of the
  weights and of the bias is: an entry is three sums of 32 products of reals, added together and to a bias entry, and
  the reals inside the extended reals are closed under products, finite sums and sums of two.
-/
import proofs.«156046_j7490422964881_2_alg».proof.Proof.Spec
import proofs.«156046_j7490422964881_2_alg».proof.Proof.LibRealSums

noncomputable section

namespace Cert.Spec

open Idealize.ShloMosaic Idealize.ShloMosaic.ValueIdx Cert.LibRealSums

/-- `raw` of real arrays is real, entry by entry. -/
theorem raw_real (t0 t1 t2 : SX.Idx → EReal) (W : SW.Idx → EReal) (b : SV.Idx → EReal)
    (h0 : ∀ i, ∃ x : ℝ, t0 i = (x : EReal)) (h1 : ∀ i, ∃ x : ℝ, t1 i = (x : EReal))
    (h2 : ∀ i, ∃ x : ℝ, t2 i = (x : EReal)) (hW : ∀ i, ∃ x : ℝ, W i = (x : EReal))
    (hb : ∀ i, ∃ x : ℝ, b i = (x : EReal)) (n : Fin 50000) (j : Fin 8) (o : Fin 32) :
    ∃ x : ℝ, raw t0 t1 t2 W b n j o = (x : EReal) := by
  unfold raw
  have s0 : IsReal (∑ k : Fin 32, t0 (ix3 n j k) * W (ix3 (0 : Fin 3) k o)) :=
    isReal_sum_mul (fun k => t0 (ix3 n j k)) (fun k => W (ix3 (0 : Fin 3) k o)) (fun _ => h0 _) (fun _ => hW _)
  have s1 : IsReal (∑ k : Fin 32, t1 (ix3 n j k) * W (ix3 (1 : Fin 3) k o)) :=
    isReal_sum_mul (fun k => t1 (ix3 n j k)) (fun k => W (ix3 (1 : Fin 3) k o)) (fun _ => h1 _) (fun _ => hW _)
  have s2 : IsReal (∑ k : Fin 32, t2 (ix3 n j k) * W (ix3 (2 : Fin 3) k o)) :=
    isReal_sum_mul (fun k => t2 (ix3 n j k)) (fun k => W (ix3 (2 : Fin 3) k o)) (fun _ => h2 _) (fun _ => hW _)
  exact isReal_add _ _ (isReal_add _ _ (isReal_add _ _ s0 s1) s2) (hb _)

end Cert.Spec

end
-- ==== Proof.RefNorm.lean ====
/-
  The reference program's tail, read entry by entry, is the shared specification.

  Write t0, t1, t2 : [50000, 8, 32] for the three Chebyshev terms the program has computed, W : [3, 32, 32] for the
  weights, and bias, gamma, beta : [32]. After the terms the program
    * contracts each term with its own 32 x 32 slice of W (the slice at leading coordinate 0, 1, 2, flattened to a
      matrix), adds the three products and the bias broadcast along the last axis:   raw(n, j, o);
    * sums raw over the nodes n from the initial value zero and divides by the word of 50000.0:   mean(j, o);
    * sums (raw(n, j, o) - mean(j, o))^2 over n from zero and divides by the same word:   var(j, o), the mean of
      squared deviations;
    * forms  max (gamma(o) * (raw(n, j, o) - mean(j, o)) * rsqrt (var(j, o) + eps) + beta(o)) 0.
  Each step is an elementwise operation, a broadcast, a one-axis contraction or a one-axis sum, so an entry of its
  result is a fixed expression in entries of its operands; composing these readings and identifying the indices
  (a flattened matrix index k * 32 + o has quotient k and remainder o; a broadcast reads coordinate 0 on the axes it
  adds) gives the specification's raw, mean, varRef and norm literally. The three terms are kept as opaque arrays.
-/
import proofs.«156046_j7490422964881_2_alg».proof.Proof.Spec
import proofs.«156046_j7490422964881_2_alg».proof.Proof.Gen.ReferenceIdeal.Read

noncomputable section

namespace Cert.RefNorm

open Idealize.ShloMosaic Idealize.ShloMosaic.ValueIdx Cert.ReferenceIdeal Cert.ReferenceIdeal.Read
open scoped BigOperators

variable (x0 : (⟨S2x4x50000x32, .f32⟩ : BufTy).Contents (Elt Ideal))
  (x1 : (⟨S2x800000, .i32⟩ : BufTy).Contents (Elt Ideal))
  (x2 : (⟨S800000, .f32⟩ : BufTy).Contents (Elt Ideal))
  (x3 : (⟨S3x32x32, .f32⟩ : BufTy).Contents (Elt Ideal))
  (x4 x5 x6 : (⟨S32, .f32⟩ : BufTy).Contents (Elt Ideal))

/-- The first weight slice, flattened to a matrix, reads the weight tensor at leading coordinate 0. -/
theorem w0_apply (k o : Fin 32) :
    val_main_v36 (F := Ideal) x3 (ix2 k o) = x3 (ix3 (0 : Fin 3) k o) := by
  rw [val_main_v36_apply, val_main_v35_apply]
  congr 1
  funext a
  match a with
  | ⟨0, _⟩ => exact Fin.ext rfl
  | ⟨1, _⟩ => exact Fin.ext (by show (k.val * 32 + o.val) / 32 % 32 = k.val; omega)
  | ⟨2, _⟩ => exact Fin.ext (by show (k.val * 32 + o.val) % 32 = o.val; omega)

/-- The second weight slice reads the weight tensor at leading coordinate 1. -/
theorem w1_apply (k o : Fin 32) :
    val_main_v52 (F := Ideal) x3 (ix2 k o) = x3 (ix3 (1 : Fin 3) k o) := by
  rw [val_main_v52_apply, val_main_v51_apply]
  congr 1
  funext a
  match a with
  | ⟨0, _⟩ => exact Fin.ext rfl
  | ⟨1, _⟩ => exact Fin.ext (by show (k.val * 32 + o.val) / 32 % 32 = k.val; omega)
  | ⟨2, _⟩ => exact Fin.ext (by show (k.val * 32 + o.val) % 32 = o.val; omega)

/-- The third weight slice reads the weight tensor at leading coordinate 2. -/
theorem w2_apply (k o : Fin 32) :
    val_main_v72 (F := Ideal) x3 (ix2 k o) = x3 (ix3 (2 : Fin 3) k o) := by
  rw [val_main_v72_apply, val_main_v71_apply]
  congr 1
  funext a
  match a with
  | ⟨0, _⟩ => exact Fin.ext rfl
  | ⟨1, _⟩ => exact Fin.ext (by show (k.val * 32 + o.val) / 32 % 32 = k.val; omega)
  | ⟨2, _⟩ => exact Fin.ext (by show (k.val * 32 + o.val) % 32 = o.val; omega)

/-- The layer before normalisation, as the specification writes it over the three Chebyshev terms. -/
abbrev R : Fin 50000 → Fin 8 → Fin 32 → EReal :=
  Cert.Spec.raw (val_main_v34 (F := Ideal) x0) (val_main_v50 (F := Ideal) x0 x1 x2)
    (val_main_v70 (F := Ideal) x0 x1 x2) x3 x4

/-- The pre-normalisation activation is the specification's `raw`. -/
theorem raw_eq (n : Fin 50000) (j : Fin 8) (o : Fin 32) :
    val_main_v77 (F := Ideal) x0 x1 x2 x3 x4 (ix3 n j o) = R x0 x1 x2 x3 x4 n j o := by
  rw [val_main_v77_apply, val_main_v74_apply, val_main_v54_apply, val_main_v37_apply, val_main_v53_apply,
    val_main_v73_apply, val_main_v76_apply, val_main_v75_apply]
  have hl37 : ∀ k : Fin 32, lidx_main_v37 (ix3 n j o) k = ix3 n j k := fun k => by
    funext a; match a with | ⟨0, _⟩ => rfl | ⟨1, _⟩ => rfl | ⟨2, _⟩ => rfl
  have hl53 : ∀ k : Fin 32, lidx_main_v53 (ix3 n j o) k = ix3 n j k := fun k => by
    funext a; match a with | ⟨0, _⟩ => rfl | ⟨1, _⟩ => rfl | ⟨2, _⟩ => rfl
  have hl73 : ∀ k : Fin 32, lidx_main_v73 (ix3 n j o) k = ix3 n j k := fun k => by
    funext a; match a with | ⟨0, _⟩ => rfl | ⟨1, _⟩ => rfl | ⟨2, _⟩ => rfl
  have hr37 : ∀ k : Fin 32, ridx_main_v37 (ix3 n j o) k = ix2 k o := fun k => by
    funext a; match a with | ⟨0, _⟩ => rfl | ⟨1, _⟩ => rfl
  have hr53 : ∀ k : Fin 32, ridx_main_v53 (ix3 n j o) k = ix2 k o := fun k => by
    funext a; match a with | ⟨0, _⟩ => rfl | ⟨1, _⟩ => rfl
  have hr73 : ∀ k : Fin 32, ridx_main_v73 (ix3 n j o) k = ix2 k o := fun k => by
    funext a; match a with | ⟨0, _⟩ => rfl | ⟨1, _⟩ => rfl
  have hb : idx_main_v75 (idx_main_v76 (ix3 n j o)) = ix1 o := by
    funext a; match a with | ⟨0, _⟩ => rfl
  simp only [Ideal.addf_def, hl37, hl53, hl73, hr37, hr53, hr73, hb, w0_apply, w1_apply, w2_apply]
  rfl

/-- The mean over the nodes is the specification's `mean` of `raw`. -/
theorem mean_eq (j : Fin 8) (o : Fin 32) :
    val_main_v81 (F := Ideal) x0 x1 x2 x3 x4 (ix3 (0 : Fin 1) j o)
      = Cert.Spec.mean (R x0 x1 x2 x3 x4) j o := by
  rw [val_main_v81_apply, val_main_v79_apply, val_main_v78_apply, val_main_v80_apply, val_main_cst_16_apply,
    val_main_cst_15_apply]
  have hi : ∀ k : Fin 50000, idx_main_v78 (idx_main_v79 (ix3 (0 : Fin 1) j o)) k = ix3 k j o := fun k => by
    funext a; match a with | ⟨0, _⟩ => rfl | ⟨1, _⟩ => rfl | ⟨2, _⟩ => rfl
  simp only [Ideal.hostDivf_def, Ideal.ofBits_def, Ideal.ofBits_zero_f32, zero_add, hi, raw_eq]
  rfl

/-- The variance is the specification's mean of squared deviations. -/
theorem var_eq (j : Fin 8) (o : Fin 32) :
    val_main_v88 (F := Ideal) x0 x1 x2 x3 x4 (ix3 (0 : Fin 1) j o)
      = Cert.Spec.varRef (R x0 x1 x2 x3 x4) j o := by
  rw [val_main_v88_apply, val_main_v86_apply, val_main_v85_apply, val_main_v87_apply, val_main_cst_18_apply,
    val_main_cst_17_apply]
  have hi : ∀ k : Fin 50000, idx_main_v85 (idx_main_v86 (ix3 (0 : Fin 1) j o)) k = ix3 k j o := fun k => by
    funext a; match a with | ⟨0, _⟩ => rfl | ⟨1, _⟩ => rfl | ⟨2, _⟩ => rfl
  have h82 : ∀ k : Fin 50000, idx_main_v82 (ix3 k j o) = ix3 (0 : Fin 1) j o := fun k => by
    funext a; match a with | ⟨0, _⟩ => rfl | ⟨1, _⟩ => rfl | ⟨2, _⟩ => rfl
  simp only [Ideal.hostDivf_def, Ideal.ofBits_def, Ideal.ofBits_zero_f32, zero_add, hi, val_main_v84_apply,
    val_main_v83_apply, val_main_v82_apply, h82, Ideal.mulf_def, Ideal.subf_def, raw_eq, mean_eq]
  rfl

/-- The reference's result before the final layout change is the specification's `norm` at the
    mean-of-squared-deviations variance. -/
theorem ref_norm (n : Fin 50000) (j : Fin 8) (o : Fin 32) :
    val_main_v102 (F := Ideal) x0 x1 x2 x3 x4 x5 x6 (ix3 n j o)
      = Cert.Spec.norm (R x0 x1 x2 x3 x4) (Cert.Spec.varRef (R x0 x1 x2 x3 x4)) x5 x6 n j o := by
  rw [val_main_v102_apply, val_main_v101_apply, val_main_v98_apply, val_main_v93_apply, val_main_v92_apply,
    val_main_v91_apply, val_main_v90_apply, val_main_v89_apply, val_main_v97_apply, val_main_v96_apply,
    val_main_v95_apply, val_main_v94_apply, val_main_cst_19_apply, val_main_v100_apply, val_main_v99_apply,
    val_main_call2_v0_apply, val_main_call2_cst_apply]
  have h89 : idx_main_v89 (ix3 n j o) = ix3 (0 : Fin 1) j o := by
    funext a; match a with | ⟨0, _⟩ => rfl | ⟨1, _⟩ => rfl | ⟨2, _⟩ => rfl
  have h97 : idx_main_v97 (ix3 n j o) = ix3 (0 : Fin 1) j o := by
    funext a; match a with | ⟨0, _⟩ => rfl | ⟨1, _⟩ => rfl | ⟨2, _⟩ => rfl
  have hg : idx_main_v91 (idx_main_v92 (ix3 n j o)) = ix1 o := by
    funext a; match a with | ⟨0, _⟩ => rfl
  have hbeta : idx_main_v99 (idx_main_v100 (ix3 n j o)) = ix1 o := by
    funext a; match a with | ⟨0, _⟩ => rfl
  simp only [Ideal.maximumf_def, Ideal.addf_def, Ideal.mulf_def, Ideal.subf_def, Ideal.hostUnary_rsqrt_def,
    Ideal.ofBits_def, Ideal.ofBits_zero_f32, h89, h97, hg, hbeta, raw_eq, mean_eq, var_eq]
  rfl

end Cert.RefNorm

end
-- ==== Proof.KReal.lean ====
/-
  Under the precondition every entry of the layer before normalisation is a real number.

  The precondition says that every float input is finite. The three Chebyshev terms are built from the inputs by
  gathers, scatter-additions, products, sums and quotients by positive real numbers, all of which keep real numbers
  real; the layer before normalisation is a finite sum of products of their entries with entries of the weights, plus
  a bias entry. So each of its entries is a real number, which is what makes the two spellings of the variance agree.
-/
import proofs.«156046_j7490422964881_2_alg».proof.Defs
import proofs.«156046_j7490422964881_2_alg».proof.Proof.RealEntries
import proofs.«156046_j7490422964881_2_alg».proof.Proof.RawReal
import proofs.«156046_j7490422964881_2_alg».proof.Proof.RefNorm

noncomputable section

namespace Cert.KReal

open Idealize.ShloMosaic Idealize.SL.Sem

/-- On every device, under the precondition, each entry of the layer before normalisation — the specification's
    `raw` over the three Chebyshev terms of the argument arrays — is a real number. -/
theorem raw_real_of_pre [hF : Cert.Pre_finite_inputs.Facts] [Cert.KernelIdeal.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ n j o, ∃ x : ℝ, Cert.RefNorm.R
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) n j o = (x : EReal) := by
  intro n j o
  have h := hpre c
  obtain ⟨-, -, h3, h4, -, -⟩ := Cert.RealEntries.real_of_pre _ _ _ _ _ _ _ h
  obtain ⟨t0, t1, t2⟩ := Cert.RealEntries.real_terms_of_pre _ _ _ _ _ _ _ h
  exact Cert.Spec.raw_real _ _ _ _ _ t0 t1 t2 h3 h4 n j o

end Cert.KReal

end
-- ==== Proof.KBridge.lean ====
/-
  The kernel's normalised layer, written with the column sums, is the reference's result entry by entry.

  Let r be the layer before normalisation over the three Chebyshev terms of the argument arrays. Given an array X
  that holds r, arrays S and Q that hold the sums over the 50000 nodes of r and of r², and the scale and shift
  vectors, the kernel's value is the specification's normalised layer with the variance spelt "mean of squares minus
  squared mean, clamped at zero". Under the precondition every entry of r is a real number, so that variance is the
  mean of squared deviations, which is the spelling the reference computes.
-/
import proofs.«156046_j7490422964881_2_alg».proof.Proof.KReal
import proofs.«156046_j7490422964881_2_alg».proof.Proof.KAccum
import proofs.«156046_j7490422964881_2_alg».proof.Proof.LibVarianceForms
import proofs.«156046_j7490422964881_2_alg».proof.Proof.RefNorm
import proofs.«156046_j7490422964881_2_alg».proof.Proof.KFinal1

noncomputable section

namespace Cert.KBridge

open Idealize.ShloMosaic Idealize.SL.Sem Idealize.ShloMosaic.ValueIdx

/-- With `X` the layer before normalisation, `S` and `Q` its column sums and column sums of squares, and `g`, `b` the
    scale and shift arguments, the kernel's normalised array equals the reference's result at every entry. -/
theorem bridge [Cert.Pre_finite_inputs.Facts] [Cert.KernelIdeal.Facts]
    (m : (ℓ : Loc Cert.KernelIdeal.nD Cert.KernelIdeal.τ Cert.KernelIdeal.sig) → Buf (Elt Ideal) ℓ)
    (hpre : Cert.Pre_KernelIdeal m) (c : Dev Cert.KernelIdeal.nD)
    (X : Vec Ideal Cert.KernelIdeal.S50000x8x32 .f32) (S Q : Vec Ideal Cert.KernelIdeal.S1x8x32 .f32)
    (g b : Vec Ideal Cert.KernelIdeal.S32 .f32)
    (hX : ∀ n j o, X (ix3 n j o) = Cert.RefNorm.R (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) n j o)
    (hS : ∀ j o, S (ix3 (0 : Fin 1) j o) = ∑ n : Fin 50000, Cert.RefNorm.R (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) n j o)
    (hQ : ∀ j o, Q (ix3 (0 : Fin 1) j o) = ∑ n : Fin 50000, Cert.RefNorm.R (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) n j o
        * Cert.RefNorm.R (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) n j o)
    (hg : ∀ i, g i = ((m ((c.tc : Thread Cert.KernelIdeal.nD Cert.KernelIdeal.τ).loc Cert.KernelIdeal.main_arg5)) : Cert.KernelIdeal.S32.Idx → EReal) i)
    (hb : ∀ i, b i = ((m ((c.tc : Thread Cert.KernelIdeal.nD Cert.KernelIdeal.τ).loc Cert.KernelIdeal.main_arg6)) : Cert.KernelIdeal.S32.Idx → EReal) i)
    (n : Fin 50000) (j : Fin 8) (o : Fin 32) :
    Cert.KFinal1.normAll X S Q g b (ix3 n j o)
      = Cert.ReferenceIdeal.Read.val_main_v102 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (ix3 n j o) := by
  have hr := Cert.KReal.raw_real_of_pre m hpre c
  rw [Cert.KFinal1.normAll_apply, Cert.KPay.kernel_norm_eq _ X S Q g b hX hS hQ n j o,
    Cert.Spec.norm_varKer_eq _ hr, Cert.RefNorm.ref_norm]
  unfold Cert.Spec.norm
  rw [hg, hb]

end Cert.KBridge

end
-- ==== Proof.KValue.lean ====
import proofs.«156046_j7490422964881_2_alg».proof.Proof.KernelIdealChain
import proofs.«156046_j7490422964881_2_alg».proof.Proof.KBlocks0
import proofs.«156046_j7490422964881_2_alg».proof.Proof.KAccum
import proofs.«156046_j7490422964881_2_alg».proof.Proof.KFinal1
import proofs.«156046_j7490422964881_2_alg».proof.Proof.KTail
import proofs.«156046_j7490422964881_2_alg».proof.Proof.KPrelude
import proofs.«156046_j7490422964881_2_alg».proof.Proof.KBridge

/-!
# What the kernel program's result buffer holds at the ideal instance

The first region leaves, in its three output arrays, the pre-normalisation activation `raw` (block by
block), its column sums over all 50000 nodes and the column sums of its squares (accumulated block by
block, copied out at the last point). The second region reads them whole and writes the normalised,
scaled, shifted, rectified activation with the variance `max (E[raw²] − mean²) 0`. On real entries
that variance is the mean of squared deviations, which is what the reference computes; the host tail
(a reshape and a transpose) is the same on both sides.
-/

set_option maxRecDepth 16384
set_option maxHeartbeats 1000000

noncomputable section

namespace Cert.KValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The three Chebyshev terms, the weights and the bias as the first region finds them. -/
abbrev T0 : Vec Ideal S50000x8x32 .f32 := Reg.VE0 m c main_v34
abbrev T1 : Vec Ideal S50000x8x32 .f32 := Reg.VE0 m c main_v47
abbrev T2 : Vec Ideal S50000x8x32 .f32 := Reg.VE0 m c main_v63
abbrev Wt : Vec Ideal S3x32x32 .f32 := Reg.VE0 m c main_arg3
abbrev bt : Vec Ideal S32 .f32 := Reg.VE0 m c main_arg4

/-- The pre-normalisation activation as one whole-array function. -/
def Graw : S50000x8x32.Idx → EReal := fun i => Cert.Spec.raw (T0 m c) (T1 m c) (T2 m c) (Wt m c) (bt m c) (i 0) (i 1) (i 2)

theorem Graw_apply (n : Fin 50000) (j : Fin 8) (o : Fin 32) :
    Graw m c (ix3 n j o) = Cert.Spec.raw (T0 m c) (T1 m c) (T2 m c) (Wt m c) (bt m c) n j o := rfl

/-! ## The accumulators -/

def X0 (t : ℕ) : Vec Ideal S625x8x32 .f32 := if h : t < cfg0.N then Reg.iblk0 (Reg.VE0 m) c 0 ⟨t, h⟩ else fun _ => 0
def X1 (t : ℕ) : Vec Ideal S625x8x32 .f32 := if h : t < cfg0.N then Reg.iblk0 (Reg.VE0 m) c 1 ⟨t, h⟩ else fun _ => 0
def X2 (t : ℕ) : Vec Ideal S625x8x32 .f32 := if h : t < cfg0.N then Reg.iblk0 (Reg.VE0 m) c 2 ⟨t, h⟩ else fun _ => 0
def accS (t : ℕ) : Vec Ideal S1x8x32 .f32 := if h : t < cfg0.N then (Reg.chain (Reg.VE0 m) c t h).1 else fun _ => 0
def accQ (t : ℕ) : Vec Ideal S1x8x32 .f32 := if h : t < cfg0.N then (Reg.chain (Reg.VE0 m) c t h).2 else fun _ => 0

theorem hN80 : cfg0.N = 80 := N_0

theorem e3 (t : Fin cfg0.N) : Reg.iblk0 (Reg.VE0 m) c 3 t = Wt m c := funext (Cert.KBlocks0.whole3 (Reg.VE0 m) c t)
theorem e4 (t : Fin cfg0.N) : Reg.iblk0 (Reg.VE0 m) c 4 t = bt m c := funext (Cert.KBlocks0.whole4 (Reg.VE0 m) c t)

theorem hX0 (t : ℕ) (ht : t < 80) (p : Fin 625) (j : Fin 8) (k : Fin 32) :
    X0 m c t (ix3 p j k) = T0 m c (ix3 (⟨625 * t + p.val, by have := p.isLt; omega⟩ : Fin 50000) j k) := by
  have hN : cfg0.N = 80 := N_0
  unfold X0; rw [dif_pos (by omega)]; exact Cert.KBlocks0.rows0 (Reg.VE0 m) c ⟨t, by omega⟩ p j k
theorem hX1 (t : ℕ) (ht : t < 80) (p : Fin 625) (j : Fin 8) (k : Fin 32) :
    X1 m c t (ix3 p j k) = T1 m c (ix3 (⟨625 * t + p.val, by have := p.isLt; omega⟩ : Fin 50000) j k) := by
  have hN : cfg0.N = 80 := N_0
  unfold X1; rw [dif_pos (by omega)]; exact Cert.KBlocks0.rows1 (Reg.VE0 m) c ⟨t, by omega⟩ p j k
theorem hX2 (t : ℕ) (ht : t < 80) (p : Fin 625) (j : Fin 8) (k : Fin 32) :
    X2 m c t (ix3 p j k) = T2 m c (ix3 (⟨625 * t + p.val, by have := p.isLt; omega⟩ : Fin 50000) j k) := by
  have hN : cfg0.N = 80 := N_0
  unfold X2; rw [dif_pos (by omega)]; exact Cert.KBlocks0.rows2 (Reg.VE0 m) c ⟨t, by omega⟩ p j k

/-- Every point's raw block is the activation on the block's rows. -/
theorem raw_blk (t : Fin cfg0.N) (p : Fin 625) (j : Fin 8) (o : Fin 32) :
    (Reg.dat0 (Reg.VE0 m) c).after 5 t (ix3 p j o) = Graw m c (ix3 (⟨625 * t.val + p.val, Cert.KBlocks0.row_lt t p⟩ : Fin 50000) j o) := by
  have hN : cfg0.N = 80 := N_0
  have ht : t.val < 80 := by have := t.isLt; omega
  rw [Reg.after0_5, Reg.outsAt_raw, Graw_apply]
  unfold Reg.B6 Reg.P6
  rw [e3, e4]
  have h := Cert.KPay.raw_block (T0 m c) (T1 m c) (T2 m c) (Wt m c) (bt m c) (X0 m c) (X1 m c) (X2 m c) (Reg.W0 (Wt m c)) (Reg.W1 (Wt m c)) (Reg.W2 (Wt m c))
    (hX0 m c) (hX1 m c) (hX2 m c)
    (fun k o => Cert.KBlocks0.slab0 (Wt m c) k o) (fun k o => Cert.KBlocks0.slab1 (Wt m c) k o) (fun k o => Cert.KBlocks0.slab2 (Wt m c) k o)
    t.val ht p j o
  unfold X0 X1 X2 at h
  simp only [dif_pos t.isLt, Fin.eta] at h
  exact h

/-- So the first output array ends holding the activation. -/
theorem final5 : (Reg.dat0 (Reg.VE0 m) c).arrAt 5 cfg0.N = Graw m c :=
  Cert.KBlocks0.final5 (Reg.VE0 m) c (Graw m c) (raw_blk m c)

theorem chain_zero (h : 0 < cfg0.N) :
    Reg.chain (Reg.VE0 m) c 0 h = (k0_pay2 (k0_pay6 (X0 m c 0) (Reg.W0 (Wt m c)) (X1 m c 0) (Reg.W1 (Wt m c)) (X2 m c 0) (Reg.W2 (Wt m c))) (bt m c) (k0_pay4 (F := Ideal)),
      k0_pay3 (k0_pay6 (X0 m c 0) (Reg.W0 (Wt m c)) (X1 m c 0) (Reg.W1 (Wt m c)) (X2 m c 0) (Reg.W2 (Wt m c))) (bt m c) (k0_pay5 (F := Ideal))) := by
  unfold X0 X1 X2
  simp only [dif_pos h]
  rw [Reg.chain]
  unfold Reg.B6 Reg.P6
  rw [e3, e4]

theorem chain_succ (n : ℕ) (h : n + 1 < cfg0.N) :
    Reg.chain (Reg.VE0 m) c (n + 1) h = (k0_pay2 (k0_pay6 (X0 m c (n + 1)) (Reg.W0 (Wt m c)) (X1 m c (n + 1)) (Reg.W1 (Wt m c)) (X2 m c (n + 1)) (Reg.W2 (Wt m c))) (bt m c) (Reg.chain (Reg.VE0 m) c n (Nat.lt_of_succ_lt h)).1,
      k0_pay3 (k0_pay6 (X0 m c (n + 1)) (Reg.W0 (Wt m c)) (X1 m c (n + 1)) (Reg.W1 (Wt m c)) (X2 m c (n + 1)) (Reg.W2 (Wt m c))) (bt m c) (Reg.chain (Reg.VE0 m) c n (Nat.lt_of_succ_lt h)).2) := by
  unfold X0 X1 X2
  simp only [dif_pos h]
  rw [Reg.chain]
  unfold Reg.B6 Reg.P6
  rw [e3, e4]

/-- After the last point the accumulators hold the column sums of the activation and of its squares. -/
theorem acc_last (j : Fin 8) (o : Fin 32) :
    accS m c 79 (ix3 (0 : Fin 1) j o) = ∑ n : Fin 50000, Cert.Spec.raw (T0 m c) (T1 m c) (T2 m c) (Wt m c) (bt m c) n j o
    ∧ accQ m c 79 (ix3 (0 : Fin 1) j o) = ∑ n : Fin 50000, Cert.Spec.raw (T0 m c) (T1 m c) (T2 m c) (Wt m c) (bt m c) n j o * Cert.Spec.raw (T0 m c) (T1 m c) (T2 m c) (Wt m c) (bt m c) n j o := by
  have hN : cfg0.N = 80 := N_0
  refine Cert.KPay.acc_total (T0 m c) (T1 m c) (T2 m c) (Wt m c) (bt m c) (X0 m c) (X1 m c) (X2 m c) (Reg.W0 (Wt m c)) (Reg.W1 (Wt m c)) (Reg.W2 (Wt m c))
    (hX0 m c) (hX1 m c) (hX2 m c)
    (fun k o => Cert.KBlocks0.slab0 (Wt m c) k o) (fun k o => Cert.KBlocks0.slab1 (Wt m c) k o) (fun k o => Cert.KBlocks0.slab2 (Wt m c) k o)
    (accS m c) (accQ m c) ?_ ?_ ?_ ?_ j o
  · unfold accS; rw [dif_pos (by omega), chain_zero]
  · intro t ht; unfold accS; rw [dif_pos (by omega), dif_pos (by omega), chain_succ]
  · unfold accQ; rw [dif_pos (by omega), chain_zero]
  · intro t ht; unfold accQ; rw [dif_pos (by omega), dif_pos (by omega), chain_succ]

theorem h79 : 79 < cfg0.N := lt_of_lt_of_eq (by decide : 79 < 80) (show cfg0.N = 80 from N_0).symm

/-- The recursion at a point named two ways. -/
theorem chain_val (t : Fin cfg0.N) (n : ℕ) (hn : t.val = n) (h : n < cfg0.N) :
    Reg.chain (Reg.VE0 m) c t.val t.isLt = Reg.chain (Reg.VE0 m) c n h := by subst hn; rfl

theorem final6 : (Reg.dat0 (Reg.VE0 m) c).arrAt 6 cfg0.N = accS m c 79 :=
  Cert.KBlocks0.final6 (Reg.VE0 m) c (accS m c 79) (by
    have h := (Reg.outsAt_last (Reg.VE0 m) c Cert.KBlocks0.tLast rfl).1
    rw [Reg.after0_6, h, chain_val m c Cert.KBlocks0.tLast 79 rfl h79]
    unfold accS; rw [dif_pos h79])

theorem final7 : (Reg.dat0 (Reg.VE0 m) c).arrAt 7 cfg0.N = accQ m c 79 :=
  Cert.KBlocks0.final7 (Reg.VE0 m) c (accQ m c 79) (by
    have h := (Reg.outsAt_last (Reg.VE0 m) c Cert.KBlocks0.tLast rfl).2
    rw [Reg.after0_7, h, chain_val m c Cert.KBlocks0.tLast 79 rfl h79]
    unfold accQ; rw [dif_pos h79])

/-! ## The result -/

/-- The activation the kernel computes is the reference's, entry by entry. -/
theorem raw_is_ref (n : Fin 50000) (j : Fin 8) (o : Fin 32) :
    Cert.Spec.raw (T0 m c) (T1 m c) (T2 m c) (Wt m c) (bt m c) n j o
      = Cert.RefNorm.R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) n j o := by
  unfold Cert.RefNorm.R
  have h0 : T0 m c = Cert.ReferenceIdeal.Read.val_main_v34 (F := Ideal) (m ((c.tc : Thread nD τ).loc main_arg0)) := Cert.KPrelude.t0_ideal m c
  have h1 : T1 m c = Cert.ReferenceIdeal.Read.val_main_v50 (F := Ideal) (m ((c.tc : Thread nD τ).loc main_arg0)) (m ((c.tc : Thread nD τ).loc main_arg1)) (m ((c.tc : Thread nD τ).loc main_arg2)) := Cert.KPrelude.t1_ideal m c
  have h2 : T2 m c = Cert.ReferenceIdeal.Read.val_main_v70 (F := Ideal) (m ((c.tc : Thread nD τ).loc main_arg0)) (m ((c.tc : Thread nD τ).loc main_arg1)) (m ((c.tc : Thread nD τ).loc main_arg2)) := Cert.KPrelude.t2_ideal m c
  have h3 : Wt m c = m ((c.tc : Thread nD τ).loc main_arg3) := Cert.KTail.VE0_main_arg3 m c
  have h4 : bt m c = m ((c.tc : Thread nD τ).loc main_arg4) := Cert.KTail.VE0_main_arg4 m c
  rw [h0, h1, h2, h3, h4]

/-- THE KERNEL'S RESULT is the reference's result term of the same arguments, under the precondition. -/
theorem kernel_value [Cert.Pre_finite_inputs.Facts] [Cert.KernelIdeal.Facts] (hpre : Cert.Pre_KernelIdeal m) :
    Reg.W8 m c (Proc.devRef .tc main_v67)
      = Cert.ReferenceIdeal.Read.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine Cert.KTail.tails_agree m c _ _ _ _ _ _ _ (fun n j o => ?_)
  rw [Cert.KTail.W7_main_v65, Cert.KFinal1.final1 (Reg.VX0 m) c Cert.KPay.k1_pay1_apply]
  refine Cert.KBridge.bridge m hpre c _ _ _ _ _ ?_ ?_ ?_ ?_ ?_ n j o
  · intro n j o
    rw [show Reg.VX0 m c main_v64_0 = _ from Cert.KTail.W6_main_v64_0 m c, final5, Graw_apply, raw_is_ref]
  · intro j o
    rw [show Reg.VX0 m c main_v64_1 = _ from Cert.KTail.W6_main_v64_1 m c, final6, (acc_last m c j o).1]
    exact Finset.sum_congr rfl fun n _ => raw_is_ref m c n j o
  · intro j o
    rw [show Reg.VX0 m c main_v64_2 = _ from Cert.KTail.W6_main_v64_2 m c, final7, (acc_last m c j o).2]
    exact Finset.sum_congr rfl fun n _ => by rw [raw_is_ref]
  · intro i; rw [Cert.KTail.VX0_main_arg5 m c]
  · intro i; rw [Cert.KTail.VX0_main_arg6 m c]

end Cert.KValue

end
-- ==== Proof.lean ====
/-
  The claim of this certificate: a Chebyshev graph convolution (three terms), batch normalisation over the
  50000 nodes and a rectifier, computed by two pipelined kernels around host gathers and scatters, against
  the plain array program.

  Both programs build the same three Chebyshev terms t0, t1, t2 : [50000, 8, 32] by the same host operations
  of the arguments, and the same pre-normalisation activation
      raw(n, j, o) = sum_k t0(n,j,k) W(0,k,o) + sum_k t1(n,j,k) W(1,k,o) + sum_k t2(n,j,k) W(2,k,o) + bias(o)
  (the kernel by one matrix product per term on each block of 625 nodes, from a zero accumulator; the format
  changes around it are the identity on the extended reals). The first kernel also accumulates, block by
  block, the column sums of raw and of raw squared; the second turns them into the mean and the variance
      max ((sum_n raw^2) / 50000 - mean^2) 0,
  where the reference takes the mean of the squared deviations (sum_n (raw - mean)^2) / 50000. On real numbers
  these agree: the mean of squared deviations is the mean of squares minus the squared mean, and it is not
  negative, so the clamp changes nothing. Every entry of raw is a real number because every float argument
  is finite (the precondition) and the host operations that build t0, t1, t2 — scatter-adds into zeros,
  gathers, products, a quotient by the square root of a positive real — keep entries real whatever the
  integer edge indices are. The reshape and the transpose after the second kernel are the reference's.

  The three frames: the two kernel programs run as host stretches around two regions; the first region's
  body is run once in each of its three control cases (first point: accumulators reset; middle points;
  last point: accumulators copied out) and its invariant carries the two accumulators from point to point;
  the second region's body is one load-compute-store. The reference is a straight-line host program.
-/
import proofs.«156046_j7490422964881_2_alg».proof.Defs
import proofs.«156046_j7490422964881_2_alg».proof.Proof.Gen.Kernel
import proofs.«156046_j7490422964881_2_alg».proof.Proof.Gen.KernelIdeal
import proofs.«156046_j7490422964881_2_alg».proof.Proof.Gen.ReferenceIdeal
import proofs.«156046_j7490422964881_2_alg».proof.Proof.Gen.Pre_finite_inputs
import proofs.«156046_j7490422964881_2_alg».proof.Proof.Gen.ReferenceIdeal.Read
import proofs.«156046_j7490422964881_2_alg».proof.Proof.KFrameBits
import proofs.«156046_j7490422964881_2_alg».proof.Proof.KFrameIdeal
import proofs.«156046_j7490422964881_2_alg».proof.Proof.KValue

noncomputable section

namespace Cert.Proof

open Idealize.ShloMosaic Idealize.ShloMosaic.TcCoe Idealize.SL.Sem

/-- The word-level kernel program runs to the end, faults nowhere, and leaves its arguments as launched. -/
theorem frame_kernel : Cert.frame_Kernel := fun m ρ _ => Cert.KFrameBits.frame m ρ

/-- So does its idealization. -/
theorem frame_kernelIdeal : Cert.frame_KernelIdeal := fun m ρ _ => Cert.KFrameIdeal.frame m ρ

/-- The reference is a straight-line host program: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result array: the kernel's result
    is the reference's result term of the arguments (the variance's two spellings agree on real entries). -/
theorem algebraic : Cert.algebraic_KernelIdeal_ReferenceIdeal := by
  intro m ρ m' ρ' hpre hagree
  refine ⟨fun c => Cert.KernelIdeal.Reg.W8 m c (Proc.devRef .tc Cert.KernelIdeal.main_v67), Cert.KFrameIdeal.run_value m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v104_eq, (hagree c).1, (hagree c).2.1, (hagree c).2.2.1, (hagree c).2.2.2.1,
    (hagree c).2.2.2.2.1, (hagree c).2.2.2.2.2.1, (hagree c).2.2.2.2.2.2]
  exact (Cert.KValue.kernel_value m c hpre).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
